-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S128x10 .f32) (main_arg9 : FVec F S10 .f32) (main_v33 : IVec S_ 1) : IVec S_ 1 :=
  let main_v34 : FVec F S128x10 .f32 := Host.absf main_arg8
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S3x128 .f32) (main_arg6 : FVec F S3x128 .f32) (main_arg7 : FVec F S3x128 .f32) (main_arg8 : FVec F S128x10 .f32) (main_arg9 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x600000 32) (main_arg2 : FVec F S256x128 .f32) (main_arg3 : FVec F S128 .f32) (main_arg4 : FVec F S3x128x128 .f32) (main_arg5 : FVec F S3x128 .f32) (main_arg6 : FVec F S3x128 .f32) (main_arg7 : FVec F S3x128 .f32) (main_arg8 : FVec F S128x10 .f32) (main_arg9 : FVec F S10 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S1x128x128 : Shape := ⟨3, ![1, 128, 128]⟩
abbrev S128x128 : Shape := ⟨2, ![128, 128]⟩
abbrev S600000x128 : Shape := ⟨2, ![600000, 128]⟩
abbrev S5000x1 : Shape := ⟨2, ![5000, 1]⟩
abbrev S1x10 : Shape := ⟨2, ![1, 10]⟩
abbrev S50000x10 : Shape := ⟨2, ![50000, 10]⟩
abbrev S5000x10 : Shape := ⟨2, ![5000, 10]⟩

abbrev nBuf : Space → Nat
  | .hbm => 184
  | .vmem => 82
  | .smem => 0
  | _ => 0

abbrev hbmTy0_0 (i : Nat) : BufTy := match i % 128 with
  | 0 => ⟨S50000x256, .f32⟩
  | 1 => ⟨S2x600000, .i32⟩
  | 2 => ⟨S256x128, .f32⟩
  | 3 => ⟨S128, .f32⟩
  | 4 => ⟨S3x128x128, .f32⟩
  | 5 => ⟨S3x128, .f32⟩
  | 6 => ⟨S3x128, .f32⟩
  | 7 => ⟨S3x128, .f32⟩
  | 8 => ⟨S128x10, .f32⟩
  | 9 => ⟨S10, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S600000, .f32⟩
  | 43 => ⟨S50000, .f32⟩
  | 44 => ⟨S50000x1, .f32⟩
  | 45 => ⟨S1x128, .f32⟩
  | 46 => ⟨S50000x128, .f32⟩
  | 47 => ⟨S1x128x128, .f32⟩
  | 48 => ⟨S128x128, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x1, .f32⟩
  | 60 => ⟨S600000x128, .f32⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S50000x128, .f32⟩
  | 92 => ⟨S1x128x128, .f32⟩
  | 93 => ⟨S128x128, .f32⟩
  | 94 => ⟨S50000x128, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S600000x1, .f32⟩
  | 105 => ⟨S600000x128, .f32⟩
  | 106 => ⟨S600000x128, .f32⟩
  | 107 => ⟨S_, .f32⟩
  | 108 => ⟨S50000x128, .f32⟩
  | 109 => ⟨S600000x1, .i32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S_, .f32⟩
  | 116 => ⟨S128, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S50000x128, .f32⟩
  | 124 => ⟨S_, .f32⟩
  | 125 => ⟨S128, .f32⟩
  | 126 => ⟨S_, .f32⟩
  | 127 => ⟨S128, .f32⟩
  | _ => ⟨S50000x256, .f32⟩

abbrev hbmTy0_1 (i : Nat) : BufTy := match i % 128 with
  | 0 => ⟨S128, .f32⟩
  | 1 => ⟨S1x128, .f32⟩
  | 2 => ⟨S1x128, .f32⟩
  | 3 => ⟨S128, .f32⟩
  | 4 => ⟨S1x128, .f32⟩
  | 5 => ⟨S1x128, .f32⟩
  | 6 => ⟨S128, .f32⟩
  | 7 => ⟨S1x128, .f32⟩
  | 8 => ⟨S50000x128, .f32⟩
  | 9 => ⟨S1x128x128, .f32⟩
  | 10 => ⟨S128x128, .f32⟩
  | 11 => ⟨S50000x128, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S600000x1, .f32⟩
  | 22 => ⟨S600000x128, .f32⟩
  | 23 => ⟨S600000x128, .f32⟩
  | 24 => ⟨S_, .f32⟩
  | 25 => ⟨S50000x128, .f32⟩
  | 26 => ⟨S600000x1, .i32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S50000x128, .f32⟩
  | 41 => ⟨S_, .f32⟩
  | 42 => ⟨S128, .f32⟩
  | 43 => ⟨S_, .f32⟩
  | 44 => ⟨S128, .f32⟩
  | 45 => ⟨S128, .f32⟩
  | 46 => ⟨S1x128, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S50000x128, .f32⟩
  | 54 => ⟨S1x10, .f32⟩
  | 55 => ⟨S50000x10, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x1, .f32⟩
  | .local _ .vmem, ⟨62, _⟩ => ⟨S5000x1, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S128x10, .f32⟩
  | .local _ .vmem, ⟨79, _⟩ => ⟨S1x10, .f32⟩
  | .local _ .vmem, ⟨80, _⟩ => ⟨S5000x10, .f32⟩
  | .local _ .vmem, ⟨81, _⟩ => ⟨S5000x10, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_12 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_14 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_17 : Ref sig .tc := ⟨.hbm, 124, rfl⟩
abbrev main_v95 : Ref sig .tc := ⟨.hbm, 125, rfl⟩
abbrev main_cst_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_19 : Ref sig .tc := ⟨.hbm, 140, rfl⟩
abbrev main_v109 : Ref sig .tc := ⟨.hbm, 141, rfl⟩
abbrev main_v110 : Ref sig .tc := ⟨.hbm, 142, rfl⟩
abbrev main_c_20 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_21 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_22 : Ref sig .tc := ⟨.hbm, 160, rfl⟩
abbrev main_v126 : Ref sig .tc := ⟨.hbm, 161, rfl⟩
abbrev main_cst_23 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_24 : Ref sig .tc := ⟨.hbm, 169, rfl⟩
abbrev main_v133 : Ref sig .tc := ⟨.hbm, 170, rfl⟩
abbrev main_cst_25 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc6_stg6_0 : Ref sig .tc := ⟨.vmem, 50, rfl⟩
abbrev cc6_stg6_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg2_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc8_stg2_0 : Ref sig .tc := ⟨.vmem, 61, rfl⟩
abbrev cc8_stg2_1 : Ref sig .tc := ⟨.vmem, 62, rfl⟩
abbrev cc8_stg3_0 : Ref sig .tc := ⟨.vmem, 63, rfl⟩
abbrev cc8_stg4_0 : Ref sig .tc := ⟨.vmem, 64, rfl⟩
abbrev cc8_stg4_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg4_0 : Ref sig .tc := ⟨.vmem, 71, rfl⟩
abbrev cc9_stg5_0 : Ref sig .tc := ⟨.vmem, 72, rfl⟩
abbrev cc9_stg5_1 : Ref sig .tc := ⟨.vmem, 73, rfl⟩
abbrev cc9_stg6_0 : Ref sig .tc := ⟨.vmem, 74, rfl⟩
abbrev cc9_stg6_1 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg2_0 : Ref sig .tc := ⟨.vmem, 79, rfl⟩
abbrev cc10_stg3_0 : Ref sig .tc := ⟨.vmem, 80, rfl⟩
abbrev cc10_stg3_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49
abbrev cc6_sem6_0 : DmaSem sig := 50
abbrev cc6_sem6_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem2_1 : DmaSem sig := 56
abbrev cc8_sem0_0 : DmaSem sig := 57
abbrev cc8_sem0_1 : DmaSem sig := 58
abbrev cc8_sem1_0 : DmaSem sig := 59
abbrev cc8_sem1_1 : DmaSem sig := 60
abbrev cc8_sem2_0 : DmaSem sig := 61
abbrev cc8_sem2_1 : DmaSem sig := 62
abbrev cc8_sem3_0 : DmaSem sig := 63
abbrev cc8_sem4_0 : DmaSem sig := 64
abbrev cc8_sem4_1 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem5_1 : DmaSem sig := 73
abbrev cc9_sem6_0 : DmaSem sig := 74
abbrev cc9_sem6_1 : DmaSem sig := 75
abbrev cc10_sem0_0 : DmaSem sig := 76
abbrev cc10_sem0_1 : DmaSem sig := 77
abbrev cc10_sem1_0 : DmaSem sig := 78
abbrev cc10_sem2_0 : DmaSem sig := 79
abbrev cc10_sem3_0 : DmaSem sig := 80
abbrev cc10_sem3_1 : DmaSem sig := 81

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S5000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x10 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x10 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x10 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  reducesTo_S50000x128_S128_d0 : S50000x128.ReducesTo [0] S128
  h_S_ : 0 < S_.numel
  bcast_S_S128 : S_.BroadcastsInDim S128 (![] : Fin 0 → Fin S128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .f32 = 32 ∨ (Rect.block (s := S50000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S50000x128.size a
  hwx8_4 : ∀ i : grid8.Coords, EltTy.bits .f32 = 32 ∨ (Rect.block (s := S50000x128) S5000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x128.size a ≤ S50000x128.size a
  hwx9_6 : ∀ i : grid9.Coords, EltTy.bits .f32 = 32 ∨ (Rect.block (s := S50000x128) S5000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x10.size a ≤ S128x10.size a
  hwx10_1 : ∀ i : grid10.Coords, EltTy.bits .f32 = 32 ∨ (Rect.block (s := S128x10) S128x10.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x10.size a ≤ S1x10.size a
  hwx10_2 : ∀ i : grid10.Coords, EltTy.bits .f32 = 32 ∨ (Rect.block (s := S1x10) S1x10.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x10.size a ≤ S50000x10.size a
  hwx10_3 : ∀ i : grid10.Coords, EltTy.bits .f32 = 32 ∨ (Rect.block (s := S50000x10) S5000x10.size (cc10_transform_3 i) (hinb10_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v87) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v98) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v101) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v104) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v67) S5000x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v105) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v105) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v107) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v121) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v108) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v27) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v124) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v125) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v125) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v129) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v136) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v139) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v142) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v105) S5000x128.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v143) S5000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v143) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg8) S128x10.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v144) S1x10.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v145) S5000x10.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S_ : Shape := ⟨0, ![]⟩
abbrev S1x128x128 : Shape := ⟨3, ![1, 128, 128]⟩
abbrev S128x128 : Shape := ⟨2, ![128, 128]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S50000x10 : Shape := ⟨2, ![50000, 10]⟩
abbrev S1x10 : Shape := ⟨2, ![1, 10]⟩

abbrev nBuf : Space → Nat
  | .hbm => 312
  | .vmem => 0
  | .smem => 0
  | _ => 0

abbrev hbmTy0_0 (i : Nat) : BufTy := match i % 128 with
  | 0 => ⟨S50000x256, .f32⟩
  | 1 => ⟨S2x600000, .i32⟩
  | 2 => ⟨S256x128, .f32⟩
  | 3 => ⟨S128, .f32⟩
  | 4 => ⟨S3x128x128, .f32⟩
  | 5 => ⟨S3x128, .f32⟩
  | 6 => ⟨S3x128, .f32⟩
  | 7 => ⟨S3x128, .f32⟩
  | 8 => ⟨S128x10, .f32⟩
  | 9 => ⟨S10, .f32⟩
  | 10 => ⟨S1x600000, .i32⟩
  | 11 => ⟨S600000, .i32⟩
  | 12 => ⟨S1x600000, .i32⟩
  | 13 => ⟨S600000, .i32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S1x128x128, .f32⟩
  | 22 => ⟨S128x128, .f32⟩
  | 23 => ⟨S1x128, .f32⟩
  | 24 => ⟨S128, .f32⟩
  | 25 => ⟨S50000x128, .f32⟩
  | 26 => ⟨S_, .f32⟩
  | 27 => ⟨S600000, .f32⟩
  | 28 => ⟨S_, .f32⟩
  | 29 => ⟨S50000, .f32⟩
  | 30 => ⟨S600000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000, .f32⟩
  | 54 => ⟨S600000, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S600000x1, .f32⟩
  | 65 => ⟨S600000x128, .f32⟩
  | 66 => ⟨S600000x128, .f32⟩
  | 67 => ⟨S_, .f32⟩
  | 68 => ⟨S50000x128, .f32⟩
  | 69 => ⟨S600000x1, .i32⟩
  | 70 => ⟨S50000x128, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S1x128x128, .f32⟩
  | 117 => ⟨S128x128, .f32⟩
  | 118 => ⟨S1x128, .f32⟩
  | 119 => ⟨S128, .f32⟩
  | 120 => ⟨S50000x128, .f32⟩
  | 121 => ⟨S_, .f32⟩
  | 122 => ⟨S600000, .f32⟩
  | 123 => ⟨S_, .f32⟩
  | 124 => ⟨S50000, .f32⟩
  | 125 => ⟨S600000x1, .i32⟩
  | 126 => ⟨S50000, .f32⟩
  | 127 => ⟨S_, .f32⟩
  | _ => ⟨S50000x256, .f32⟩

abbrev hbmTy0_1 (i : Nat) : BufTy := match i % 128 with
  | 0 => ⟨S50000, .f32⟩
  | 1 => ⟨S50000, .f32⟩
  | 2 => ⟨S50000, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000, .f32⟩
  | 21 => ⟨S600000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S600000x1, .f32⟩
  | 32 => ⟨S600000x128, .f32⟩
  | 33 => ⟨S600000x128, .f32⟩
  | 34 => ⟨S_, .f32⟩
  | 35 => ⟨S50000x128, .f32⟩
  | 36 => ⟨S600000x1, .i32⟩
  | 37 => ⟨S50000x128, .f32⟩
  | 38 => ⟨S50000, .f32⟩
  | 39 => ⟨S50000x1, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S1x128, .f32⟩
  | 47 => ⟨S128, .f32⟩
  | 48 => ⟨S1x128, .f32⟩
  | 49 => ⟨S128, .f32⟩
  | 50 => ⟨S_, .f32⟩
  | 51 => ⟨S128, .f32⟩
  | 52 => ⟨S_, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S50000x128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S_, .f32⟩
  | 68 => ⟨S128, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S1x128x128, .f32⟩
  | 85 => ⟨S128x128, .f32⟩
  | 86 => ⟨S1x128, .f32⟩
  | 87 => ⟨S128, .f32⟩
  | 88 => ⟨S50000x128, .f32⟩
  | 89 => ⟨S_, .f32⟩
  | 90 => ⟨S600000, .f32⟩
  | 91 => ⟨S_, .f32⟩
  | 92 => ⟨S50000, .f32⟩
  | 93 => ⟨S600000x1, .i32⟩
  | 94 => ⟨S50000, .f32⟩
  | 95 => ⟨S_, .f32⟩
  | 96 => ⟨S50000, .f32⟩
  | 97 => ⟨S50000, .f32⟩
  | 98 => ⟨S50000, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000, .f32⟩
  | 108 => ⟨S_, .i32⟩
  | 109 => ⟨S600000, .i32⟩
  | 110 => ⟨S600000, .i1⟩
  | 111 => ⟨S_, .i32⟩
  | 112 => ⟨S600000, .i32⟩
  | 113 => ⟨S600000, .i32⟩
  | 114 => ⟨S600000, .i32⟩
  | 115 => ⟨S600000x1, .i32⟩
  | 116 => ⟨S600000, .f32⟩
  | 117 => ⟨S600000, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S600000x1, .f32⟩
  | _ => ⟨S50000x256, .f32⟩

abbrev hbmTy0_2 (i : Nat) : BufTy := match i % 128 with
  | 0 => ⟨S600000x128, .f32⟩
  | 1 => ⟨S600000x128, .f32⟩
  | 2 => ⟨S_, .f32⟩
  | 3 => ⟨S50000x128, .f32⟩
  | 4 => ⟨S600000x1, .i32⟩
  | 5 => ⟨S50000x128, .f32⟩
  | 6 => ⟨S50000, .f32⟩
  | 7 => ⟨S50000x1, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S1x128, .f32⟩
  | 15 => ⟨S128, .f32⟩
  | 16 => ⟨S1x128, .f32⟩
  | 17 => ⟨S128, .f32⟩
  | 18 => ⟨S_, .f32⟩
  | 19 => ⟨S128, .f32⟩
  | 20 => ⟨S_, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S50000x128, .f32⟩
  | 27 => ⟨S_, .f32⟩
  | 28 => ⟨S128, .f32⟩
  | 29 => ⟨S_, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S50000x10, .f32⟩
  | 53 => ⟨S1x10, .f32⟩
  | 54 => ⟨S50000x10, .f32⟩
  | 55 => ⟨S50000x10, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_10 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_13 : Ref sig .tc := ⟨.hbm, 121, rfl⟩
abbrev main_v92 : Ref sig .tc := ⟨.hbm, 122, rfl⟩
abbrev main_cst_14 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_15 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_16 : Ref sig .tc := ⟨.hbm, 131, rfl⟩
abbrev main_v99 : Ref sig .tc := ⟨.hbm, 132, rfl⟩
abbrev main_v100 : Ref sig .tc := ⟨.hbm, 133, rfl⟩
abbrev main_c_17 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_18 : Ref sig .tc := ⟨.hbm, 140, rfl⟩
abbrev main_v106 : Ref sig .tc := ⟨.hbm, 141, rfl⟩
abbrev main_v107 : Ref sig .tc := ⟨.hbm, 142, rfl⟩
abbrev main_c_19 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_c_20 : Ref sig .tc := ⟨.hbm, 150, rfl⟩
abbrev main_v114 : Ref sig .tc := ⟨.hbm, 151, rfl⟩
abbrev main_v115 : Ref sig .tc := ⟨.hbm, 152, rfl⟩
abbrev main_c_21 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_22 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_23 : Ref sig .tc := ⟨.hbm, 178, rfl⟩
abbrev main_v139 : Ref sig .tc := ⟨.hbm, 179, rfl⟩
abbrev main_cst_24 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_25 : Ref sig .tc := ⟨.hbm, 187, rfl⟩
abbrev main_v146 : Ref sig .tc := ⟨.hbm, 188, rfl⟩
abbrev main_cst_26 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_27 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_call2_cst : Ref sig .tc := ⟨.hbm, 208, rfl⟩
abbrev main_call2_v0 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_28 : Ref sig .tc := ⟨.hbm, 217, rfl⟩
abbrev main_v171 : Ref sig .tc := ⟨.hbm, 218, rfl⟩
abbrev main_cst_29 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_cst_30 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_c_31 : Ref sig .tc := ⟨.hbm, 227, rfl⟩
abbrev main_v178 : Ref sig .tc := ⟨.hbm, 228, rfl⟩
abbrev main_v179 : Ref sig .tc := ⟨.hbm, 229, rfl⟩
abbrev main_c_32 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_c_33 : Ref sig .tc := ⟨.hbm, 236, rfl⟩
abbrev main_v185 : Ref sig .tc := ⟨.hbm, 237, rfl⟩
abbrev main_v186 : Ref sig .tc := ⟨.hbm, 238, rfl⟩
abbrev main_c_34 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_c_35 : Ref sig .tc := ⟨.hbm, 246, rfl⟩
abbrev main_v193 : Ref sig .tc := ⟨.hbm, 247, rfl⟩
abbrev main_v194 : Ref sig .tc := ⟨.hbm, 248, rfl⟩
abbrev main_c_36 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_cst_37 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_cst_38 : Ref sig .tc := ⟨.hbm, 274, rfl⟩
abbrev main_v218 : Ref sig .tc := ⟨.hbm, 275, rfl⟩
abbrev main_cst_39 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_cst_40 : Ref sig .tc := ⟨.hbm, 283, rfl⟩
abbrev main_v225 : Ref sig .tc := ⟨.hbm, 284, rfl⟩
abbrev main_cst_41 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_cst_42 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_call3_cst : Ref sig .tc := ⟨.hbm, 304, rfl⟩
abbrev main_call3_v0 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x10_S50000x10_1_0_0_1_n_n_wf : DotDims.WF S50000x128 S128x10 S50000x10 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.KernelRun.lean ====
/-
  The idealized kernel's run with its result named.

  The program is eleven kernel launches among stretches of host operations. Every weakly fair execution
  terminates without a fault, the argument arrays end as launched, and the result buffer ends at the contents
  the last boundary of the fold through the program gives it: the last launch's output array after its
  write-backs.
-/
import proofs.«139786_j89704686944683_1_alg».proof.Proof.Gen.KernelIdeal.Frame

set_option maxRecDepth 16384

noncomputable section

namespace Cert.KernelIdeal.RunV

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- The run: as the frame, and the result buffer at the last boundary's contents. -/
theorem run_main : θ_run defs (onTc (τ := τ) (main (F := F))) ⟨m, fun _ => 0, ρ⟩ (fun r => ∀ c : Dev nD,
      r.2.mem ((c.tc : Thread nD τ).loc main_v145) = W22 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v145 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c)⟩)

end Cert.KernelIdeal.RunV

end
-- ==== Proof.KernelKeep.lean ====
/-
  What a step of the program leaves alone.

  The program is a fold of 22 steps over the TensorCore's buffers: a host stretch rewrites only the buffers its
  operations write, and a kernel launch rewrites only its output array (its input arrays are read through
  windows and written back unchanged; every other buffer is not touched). So a buffer that a step does not
  write holds after the step what it held before it.
-/
import proofs.«139786_j89704686944683_1_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Gen

/-- Closes "no operation of this literal stretch writes the buffer": the stretch's write sets are singletons of
    literal references, each different from the buffer. -/
macro "not_written" : tactic =>
  `(tactic| (refine List.forall_iff_forall_mem.mp ?_
             simp only [hostOps0, hostOps1, hostOps2, hostOps3, hostOps4, hostOps5, hostOps6, hostOps7, hostOps8, hostOps9, hostOps10,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

variable {F : FTy → Type} [FloatOps F]
variable (m : (ℓ : Loc nD τ sig) → Buf (Elt F) ℓ) (ρ : Dev nD → PrngReg) (c : Dev nD)

/-! ## A kernel launch keeps every buffer but its output array -/

theorem keepR0 (b : Ref sig .tc) (hb : b ≠ Pipeline.arrRef spec0 3) :
    W2 m ρ c (Proc.devRef .tc b) = W1 m ρ c (Proc.devRef .tc b) := by
  by_cases h0 : Pipeline.arrRef spec0 0 = b
  · subst h0; exact (W2_arr m ρ c 0).trans (((dat0 (V1 m ρ) c).arrAt_in 0 rfl _).trans (A_eq0 (V1 m ρ) c 0))
  by_cases h1 : Pipeline.arrRef spec0 1 = b
  · subst h1; exact (W2_arr m ρ c 1).trans (((dat0 (V1 m ρ) c).arrAt_in 1 rfl _).trans (A_eq0 (V1 m ρ) c 1))
  by_cases h2 : Pipeline.arrRef spec0 2 = b
  · subst h2; exact (W2_arr m ρ c 2).trans (((dat0 (V1 m ρ) c).arrAt_in 2 rfl _).trans (A_eq0 (V1 m ρ) c 2))
  exact W2_of_ne m ρ c b (fun w => by
    match w with
    | ⟨0, _⟩ => exact h0
    | ⟨1, _⟩ => exact h1
    | ⟨2, _⟩ => exact h2
    | ⟨3, _⟩ => exact fun e => hb e.symm)

theorem keepR1 (b : Ref sig .tc) (hb : b ≠ Pipeline.arrRef spec1 2) :
    W4 m ρ c (Proc.devRef .tc b) = W3 m ρ c (Proc.devRef .tc b) := by
  by_cases h0 : Pipeline.arrRef spec1 0 = b
  · subst h0; exact (W4_arr m ρ c 0).trans (((dat1 (V3 m ρ) c).arrAt_in 0 rfl _).trans (A_eq1 (V3 m ρ) c 0))
  by_cases h1 : Pipeline.arrRef spec1 1 = b
  · subst h1; exact (W4_arr m ρ c 1).trans (((dat1 (V3 m ρ) c).arrAt_in 1 rfl _).trans (A_eq1 (V3 m ρ) c 1))
  exact W4_of_ne m ρ c b (fun w => by
    match w with
    | ⟨0, _⟩ => exact h0
    | ⟨1, _⟩ => exact h1
    | ⟨2, _⟩ => exact fun e => hb e.symm)

theorem keepR2 (b : Ref sig .tc) (hb : b ≠ Pipeline.arrRef spec2 4) :
    W6 m ρ c (Proc.devRef .tc b) = W5 m ρ c (Proc.devRef .tc b) := by
  by_cases h0 : Pipeline.arrRef spec2 0 = b
  · subst h0; exact (W6_arr m ρ c 0).trans (((dat2 (V5 m ρ) c).arrAt_in 0 rfl _).trans (A_eq2 (V5 m ρ) c 0))
  by_cases h1 : Pipeline.arrRef spec2 1 = b
  · subst h1; exact (W6_arr m ρ c 1).trans (((dat2 (V5 m ρ) c).arrAt_in 1 rfl _).trans (A_eq2 (V5 m ρ) c 1))
  by_cases h2 : Pipeline.arrRef spec2 2 = b
  · subst h2; exact (W6_arr m ρ c 2).trans (((dat2 (V5 m ρ) c).arrAt_in 2 rfl _).trans (A_eq2 (V5 m ρ) c 2))
  by_cases h3 : Pipeline.arrRef spec2 3 = b
  · subst h3; exact (W6_arr m ρ c 3).trans (((dat2 (V5 m ρ) c).arrAt_in 3 rfl _).trans (A_eq2 (V5 m ρ) c 3))
  exact W6_of_ne m ρ c b (fun w => by
    match w with
    | ⟨0, _⟩ => exact h0
    | ⟨1, _⟩ => exact h1
    | ⟨2, _⟩ => exact h2
    | ⟨3, _⟩ => exact h3
    | ⟨4, _⟩ => exact fun e => hb e.symm)

theorem keepR3 (b : Ref sig .tc) (hb : b ≠ Pipeline.arrRef spec3 5) :
    W8 m ρ c (Proc.devRef .tc b) = W7 m ρ c (Proc.devRef .tc b) := by
  by_cases h0 : Pipeline.arrRef spec3 0 = b
  · subst h0; exact (W8_arr m ρ c 0).trans (((dat3 (V7 m ρ) c).arrAt_in 0 rfl _).trans (A_eq3 (V7 m ρ) c 0))
  by_cases h1 : Pipeline.arrRef spec3 1 = b
  · subst h1; exact (W8_arr m ρ c 1).trans (((dat3 (V7 m ρ) c).arrAt_in 1 rfl _).trans (A_eq3 (V7 m ρ) c 1))
  by_cases h2 : Pipeline.arrRef spec3 2 = b
  · subst h2; exact (W8_arr m ρ c 2).trans (((dat3 (V7 m ρ) c).arrAt_in 2 rfl _).trans (A_eq3 (V7 m ρ) c 2))
  by_cases h3 : Pipeline.arrRef spec3 3 = b
  · subst h3; exact (W8_arr m ρ c 3).trans (((dat3 (V7 m ρ) c).arrAt_in 3 rfl _).trans (A_eq3 (V7 m ρ) c 3))
  by_cases h4 : Pipeline.arrRef spec3 4 = b
  · subst h4; exact (W8_arr m ρ c 4).trans (((dat3 (V7 m ρ) c).arrAt_in 4 rfl _).trans (A_eq3 (V7 m ρ) c 4))
  exact W8_of_ne m ρ c b (fun w => by
    match w with
    | ⟨0, _⟩ => exact h0
    | ⟨1, _⟩ => exact h1
    | ⟨2, _⟩ => exact h2
    | ⟨3, _⟩ => exact h3
    | ⟨4, _⟩ => exact h4
    | ⟨5, _⟩ => exact fun e => hb e.symm)

theorem keepR4 (b : Ref sig .tc) (hb : b ≠ Pipeline.arrRef spec4 2) :
    W10 m ρ c (Proc.devRef .tc b) = W9 m ρ c (Proc.devRef .tc b) := by
  by_cases h0 : Pipeline.arrRef spec4 0 = b
  · subst h0; exact (W10_arr m ρ c 0).trans (((dat4 (V9 m ρ) c).arrAt_in 0 rfl _).trans (A_eq4 (V9 m ρ) c 0))
  by_cases h1 : Pipeline.arrRef spec4 1 = b
  · subst h1; exact (W10_arr m ρ c 1).trans (((dat4 (V9 m ρ) c).arrAt_in 1 rfl _).trans (A_eq4 (V9 m ρ) c 1))
  exact W10_of_ne m ρ c b (fun w => by
    match w with
    | ⟨0, _⟩ => exact h0
    | ⟨1, _⟩ => exact h1
    | ⟨2, _⟩ => exact fun e => hb e.symm)

theorem keepR5 (b : Ref sig .tc) (hb : b ≠ Pipeline.arrRef spec5 4) :
    W12 m ρ c (Proc.devRef .tc b) = W11 m ρ c (Proc.devRef .tc b) := by
  by_cases h0 : Pipeline.arrRef spec5 0 = b
  · subst h0; exact (W12_arr m ρ c 0).trans (((dat5 (V11 m ρ) c).arrAt_in 0 rfl _).trans (A_eq5 (V11 m ρ) c 0))
  by_cases h1 : Pipeline.arrRef spec5 1 = b
  · subst h1; exact (W12_arr m ρ c 1).trans (((dat5 (V11 m ρ) c).arrAt_in 1 rfl _).trans (A_eq5 (V11 m ρ) c 1))
  by_cases h2 : Pipeline.arrRef spec5 2 = b
  · subst h2; exact (W12_arr m ρ c 2).trans (((dat5 (V11 m ρ) c).arrAt_in 2 rfl _).trans (A_eq5 (V11 m ρ) c 2))
  by_cases h3 : Pipeline.arrRef spec5 3 = b
  · subst h3; exact (W12_arr m ρ c 3).trans (((dat5 (V11 m ρ) c).arrAt_in 3 rfl _).trans (A_eq5 (V11 m ρ) c 3))
  exact W12_of_ne m ρ c b (fun w => by
    match w with
    | ⟨0, _⟩ => exact h0
    | ⟨1, _⟩ => exact h1
    | ⟨2, _⟩ => exact h2
    | ⟨3, _⟩ => exact h3
    | ⟨4, _⟩ => exact fun e => hb e.symm)

theorem keepR6 (b : Ref sig .tc) (hb : b ≠ Pipeline.arrRef spec6 6) :
    W14 m ρ c (Proc.devRef .tc b) = W13 m ρ c (Proc.devRef .tc b) := by
  by_cases h0 : Pipeline.arrRef spec6 0 = b
  · subst h0; exact (W14_arr m ρ c 0).trans (((dat6 (V13 m ρ) c).arrAt_in 0 rfl _).trans (A_eq6 (V13 m ρ) c 0))
  by_cases h1 : Pipeline.arrRef spec6 1 = b
  · subst h1; exact (W14_arr m ρ c 1).trans (((dat6 (V13 m ρ) c).arrAt_in 1 rfl _).trans (A_eq6 (V13 m ρ) c 1))
  by_cases h2 : Pipeline.arrRef spec6 2 = b
  · subst h2; exact (W14_arr m ρ c 2).trans (((dat6 (V13 m ρ) c).arrAt_in 2 rfl _).trans (A_eq6 (V13 m ρ) c 2))
  by_cases h3 : Pipeline.arrRef spec6 3 = b
  · subst h3; exact (W14_arr m ρ c 3).trans (((dat6 (V13 m ρ) c).arrAt_in 3 rfl _).trans (A_eq6 (V13 m ρ) c 3))
  by_cases h4 : Pipeline.arrRef spec6 4 = b
  · subst h4; exact (W14_arr m ρ c 4).trans (((dat6 (V13 m ρ) c).arrAt_in 4 rfl _).trans (A_eq6 (V13 m ρ) c 4))
  by_cases h5 : Pipeline.arrRef spec6 5 = b
  · subst h5; exact (W14_arr m ρ c 5).trans (((dat6 (V13 m ρ) c).arrAt_in 5 rfl _).trans (A_eq6 (V13 m ρ) c 5))
  exact W14_of_ne m ρ c b (fun w => by
    match w with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact fun e => hb e.symm)

theorem keepR7 (b : Ref sig .tc) (hb : b ≠ Pipeline.arrRef spec7 2) :
    W16 m ρ c (Proc.devRef .tc b) = W15 m ρ c (Proc.devRef .tc b) := by
  by_cases h0 : Pipeline.arrRef spec7 0 = b
  · subst h0; exact (W16_arr m ρ c 0).trans (((dat7 (V15 m ρ) c).arrAt_in 0 rfl _).trans (A_eq7 (V15 m ρ) c 0))
  by_cases h1 : Pipeline.arrRef spec7 1 = b
  · subst h1; exact (W16_arr m ρ c 1).trans (((dat7 (V15 m ρ) c).arrAt_in 1 rfl _).trans (A_eq7 (V15 m ρ) c 1))
  exact W16_of_ne m ρ c b (fun w => by
    match w with
    | ⟨0, _⟩ => exact h0
    | ⟨1, _⟩ => exact h1
    | ⟨2, _⟩ => exact fun e => hb e.symm)

theorem keepR8 (b : Ref sig .tc) (hb : b ≠ Pipeline.arrRef spec8 4) :
    W18 m ρ c (Proc.devRef .tc b) = W17 m ρ c (Proc.devRef .tc b) := by
  by_cases h0 : Pipeline.arrRef spec8 0 = b
  · subst h0; exact (W18_arr m ρ c 0).trans (((dat8 (V17 m ρ) c).arrAt_in 0 rfl _).trans (A_eq8 (V17 m ρ) c 0))
  by_cases h1 : Pipeline.arrRef spec8 1 = b
  · subst h1; exact (W18_arr m ρ c 1).trans (((dat8 (V17 m ρ) c).arrAt_in 1 rfl _).trans (A_eq8 (V17 m ρ) c 1))
  by_cases h2 : Pipeline.arrRef spec8 2 = b
  · subst h2; exact (W18_arr m ρ c 2).trans (((dat8 (V17 m ρ) c).arrAt_in 2 rfl _).trans (A_eq8 (V17 m ρ) c 2))
  by_cases h3 : Pipeline.arrRef spec8 3 = b
  · subst h3; exact (W18_arr m ρ c 3).trans (((dat8 (V17 m ρ) c).arrAt_in 3 rfl _).trans (A_eq8 (V17 m ρ) c 3))
  exact W18_of_ne m ρ c b (fun w => by
    match w with
    | ⟨0, _⟩ => exact h0
    | ⟨1, _⟩ => exact h1
    | ⟨2, _⟩ => exact h2
    | ⟨3, _⟩ => exact h3
    | ⟨4, _⟩ => exact fun e => hb e.symm)

theorem keepR9 (b : Ref sig .tc) (hb : b ≠ Pipeline.arrRef spec9 6) :
    W20 m ρ c (Proc.devRef .tc b) = W19 m ρ c (Proc.devRef .tc b) := by
  by_cases h0 : Pipeline.arrRef spec9 0 = b
  · subst h0; exact (W20_arr m ρ c 0).trans (((dat9 (V19 m ρ) c).arrAt_in 0 rfl _).trans (A_eq9 (V19 m ρ) c 0))
  by_cases h1 : Pipeline.arrRef spec9 1 = b
  · subst h1; exact (W20_arr m ρ c 1).trans (((dat9 (V19 m ρ) c).arrAt_in 1 rfl _).trans (A_eq9 (V19 m ρ) c 1))
  by_cases h2 : Pipeline.arrRef spec9 2 = b
  · subst h2; exact (W20_arr m ρ c 2).trans (((dat9 (V19 m ρ) c).arrAt_in 2 rfl _).trans (A_eq9 (V19 m ρ) c 2))
  by_cases h3 : Pipeline.arrRef spec9 3 = b
  · subst h3; exact (W20_arr m ρ c 3).trans (((dat9 (V19 m ρ) c).arrAt_in 3 rfl _).trans (A_eq9 (V19 m ρ) c 3))
  by_cases h4 : Pipeline.arrRef spec9 4 = b
  · subst h4; exact (W20_arr m ρ c 4).trans (((dat9 (V19 m ρ) c).arrAt_in 4 rfl _).trans (A_eq9 (V19 m ρ) c 4))
  by_cases h5 : Pipeline.arrRef spec9 5 = b
  · subst h5; exact (W20_arr m ρ c 5).trans (((dat9 (V19 m ρ) c).arrAt_in 5 rfl _).trans (A_eq9 (V19 m ρ) c 5))
  exact W20_of_ne m ρ c b (fun w => by
    match w with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact fun e => hb e.symm)

theorem keepR10 (b : Ref sig .tc) (hb : b ≠ Pipeline.arrRef spec10 3) :
    W22 m ρ c (Proc.devRef .tc b) = W21 m ρ c (Proc.devRef .tc b) := by
  by_cases h0 : Pipeline.arrRef spec10 0 = b
  · subst h0; exact (W22_arr m ρ c 0).trans (((dat10 (V21 m ρ) c).arrAt_in 0 rfl _).trans (A_eq10 (V21 m ρ) c 0))
  by_cases h1 : Pipeline.arrRef spec10 1 = b
  · subst h1; exact (W22_arr m ρ c 1).trans (((dat10 (V21 m ρ) c).arrAt_in 1 rfl _).trans (A_eq10 (V21 m ρ) c 1))
  by_cases h2 : Pipeline.arrRef spec10 2 = b
  · subst h2; exact (W22_arr m ρ c 2).trans (((dat10 (V21 m ρ) c).arrAt_in 2 rfl _).trans (A_eq10 (V21 m ρ) c 2))
  exact W22_of_ne m ρ c b (fun w => by
    match w with
    | ⟨0, _⟩ => exact h0
    | ⟨1, _⟩ => exact h1
    | ⟨2, _⟩ => exact h2
    | ⟨3, _⟩ => exact fun e => hb e.symm)

/-! ## A host stretch keeps every buffer none of its operations writes -/

theorem keepH0 (b : Ref sig .tc) (hb : ∀ op ∈ (hostOps0 : List (HloOp τ sig (Elt F))), (Proc.devRef .tc b : DevRef τ sig) ∉ op.writes) :
    W1 m ρ c (Proc.devRef .tc b) = W0 m ρ c (Proc.devRef .tc b) :=
  StableHlo.after_of_forall_not_mem (b := Proc.devRef .tc b) _ _ hb

theorem keepH1 (b : Ref sig .tc) (hb : ∀ op ∈ (hostOps1 : List (HloOp τ sig (Elt F))), (Proc.devRef .tc b : DevRef τ sig) ∉ op.writes) :
    W3 m ρ c (Proc.devRef .tc b) = W2 m ρ c (Proc.devRef .tc b) :=
  StableHlo.after_of_forall_not_mem (b := Proc.devRef .tc b) _ _ hb

theorem keepH2 (b : Ref sig .tc) (hb : ∀ op ∈ (hostOps2 : List (HloOp τ sig (Elt F))), (Proc.devRef .tc b : DevRef τ sig) ∉ op.writes) :
    W5 m ρ c (Proc.devRef .tc b) = W4 m ρ c (Proc.devRef .tc b) :=
  StableHlo.after_of_forall_not_mem (b := Proc.devRef .tc b) _ _ hb

theorem keepH3 (b : Ref sig .tc) (hb : ∀ op ∈ (hostOps3 : List (HloOp τ sig (Elt F))), (Proc.devRef .tc b : DevRef τ sig) ∉ op.writes) :
    W7 m ρ c (Proc.devRef .tc b) = W6 m ρ c (Proc.devRef .tc b) :=
  StableHlo.after_of_forall_not_mem (b := Proc.devRef .tc b) _ _ hb

theorem keepH4 (b : Ref sig .tc) (hb : ∀ op ∈ (hostOps4 : List (HloOp τ sig (Elt F))), (Proc.devRef .tc b : DevRef τ sig) ∉ op.writes) :
    W9 m ρ c (Proc.devRef .tc b) = W8 m ρ c (Proc.devRef .tc b) :=
  StableHlo.after_of_forall_not_mem (b := Proc.devRef .tc b) _ _ hb

theorem keepH5 (b : Ref sig .tc) (hb : ∀ op ∈ (hostOps5 : List (HloOp τ sig (Elt F))), (Proc.devRef .tc b : DevRef τ sig) ∉ op.writes) :
    W11 m ρ c (Proc.devRef .tc b) = W10 m ρ c (Proc.devRef .tc b) :=
  StableHlo.after_of_forall_not_mem (b := Proc.devRef .tc b) _ _ hb

theorem keepH6 (b : Ref sig .tc) (hb : ∀ op ∈ (hostOps6 : List (HloOp τ sig (Elt F))), (Proc.devRef .tc b : DevRef τ sig) ∉ op.writes) :
    W13 m ρ c (Proc.devRef .tc b) = W12 m ρ c (Proc.devRef .tc b) :=
  StableHlo.after_of_forall_not_mem (b := Proc.devRef .tc b) _ _ hb

theorem keepH7 (b : Ref sig .tc) (hb : ∀ op ∈ (hostOps7 : List (HloOp τ sig (Elt F))), (Proc.devRef .tc b : DevRef τ sig) ∉ op.writes) :
    W15 m ρ c (Proc.devRef .tc b) = W14 m ρ c (Proc.devRef .tc b) :=
  StableHlo.after_of_forall_not_mem (b := Proc.devRef .tc b) _ _ hb

theorem keepH8 (b : Ref sig .tc) (hb : ∀ op ∈ (hostOps8 : List (HloOp τ sig (Elt F))), (Proc.devRef .tc b : DevRef τ sig) ∉ op.writes) :
    W17 m ρ c (Proc.devRef .tc b) = W16 m ρ c (Proc.devRef .tc b) :=
  StableHlo.after_of_forall_not_mem (b := Proc.devRef .tc b) _ _ hb

theorem keepH9 (b : Ref sig .tc) (hb : ∀ op ∈ (hostOps9 : List (HloOp τ sig (Elt F))), (Proc.devRef .tc b : DevRef τ sig) ∉ op.writes) :
    W19 m ρ c (Proc.devRef .tc b) = W18 m ρ c (Proc.devRef .tc b) :=
  StableHlo.after_of_forall_not_mem (b := Proc.devRef .tc b) _ _ hb

theorem keepH10 (b : Ref sig .tc) (hb : ∀ op ∈ (hostOps10 : List (HloOp τ sig (Elt F))), (Proc.devRef .tc b : DevRef τ sig) ∉ op.writes) :
    W21 m ρ c (Proc.devRef .tc b) = W20 m ρ c (Proc.devRef .tc b) :=
  StableHlo.after_of_forall_not_mem (b := Proc.devRef .tc b) _ _ hb

end Cert.KernelIdeal.Keep

end
-- ==== Proof.Spec.lean ====
/-
  The network both programs compute, stage by stage, on the extended reals.

  A graph-convolution network over 50000 nodes and 600000 directed edges: an input projection with a
  rectifier; three layers, each a dense map `h W`, the symmetric-normalised neighbourhood sum
  `agg[v] = Σ_{e : dst e = v} norm e · (h W)[src e]` with `norm e = dinv (src e) · dinv (dst e)`,
  `dinv = (1 + in-degree)^(-1/2)`, the self-loop term `(h W)[v] · dinv v ²` and a bias; then a batch
  normalisation over the node axis (column mean, biased column variance, `(p - μ) · (var + ε)^(-1/2) · γ + β`),
  a rectifier and, from the second layer on, the residual; last an output projection.

  The graph-dependent stages (degrees, the gather of rows along the edges, the scatter-add into nodes, the
  column statistics) are stated through the host operations themselves, since both programs apply the very
  same operations to them. The dense stages are stated index by index: a row of a product is the sum over the
  contracted index, whatever the tiling of the rows.
-/
import proofs.«139786_j89704686944683_1_alg».proof.KernelIdeal
import proofs.«139786_j89704686944683_1_alg».proof.Proof.Gen.KernelIdeal
import Idealize.ShloMosaic.PureOps.Ideal
import Idealize.ShloMosaic.Lib.ValueIdx

noncomputable section

open scoped BigOperators
open Idealize.ShloMosaic Idealize.ShloMosaic.ValueIdx

namespace Cert.Spec

open Cert.KernelIdeal Cert.KernelIdeal.Facts₀

/-- A float array of shape `S` on the extended reals. -/
abbrev F32 (S : Shape) := FVec Ideal S .f32
/-- A 32-bit integer array of shape `S`. -/
abbrev I32 (S : Shape) := IVec S 32
/-- A one-bit array of shape `S`. -/
abbrev I1 (S : Shape) := IVec S 1

/-! ## The graph-dependent stages, through the host operations -/

/-- The edges' source nodes: row 0 of the edge list. -/
def src (e : I32 S2x600000) : I32 S600000 :=
  shapeCast S600000 (extractStridedSlice S1x600000 ![0, 0] e slices_S2x600000_S1x600000_0_0 : I32 S1x600000) shapeCasts_S1x600000_S600000
/-- The edges' destination nodes: row 1 of the edge list. -/
def dst (e : I32 S2x600000) : I32 S600000 :=
  shapeCast S600000 (extractStridedSlice S1x600000 ![1, 0] e slices_S2x600000_S1x600000_1_0 : I32 S1x600000) shapeCasts_S1x600000_S600000
/-- A node index read the way array indexing reads it: a negative index counts from the end. -/
def wrap (v : I32 S600000) : I32 S600000 :=
  select (cmpi .slt v (broadcastInDim S600000 ![] bcast_S_S600000 (constantI S_ 32 0#32 : I32 S_)) : I1 S600000)
    (addi v (broadcastInDim S600000 ![] bcast_S_S600000 (constantI S_ 32 50000#32 : I32 S_))) v
/-- A vector of node indices as a one-column array of start indices. -/
def col (v : I32 S600000) : I32 S600000x1 := broadcastInDim S600000x1 ![0] bcast_S600000_S600000x1_0 v
/-- One plus the in-degree of every node. -/
def deg (e : I32 S2x600000) : F32 S50000 :=
  addf (Host.scatterAdd scatter_S50000_S600000x1_S600000_n_0_0_1
      (broadcastInDim S50000 ![] bcast_S_S50000 (constant S_ .f32 0x00000000#32 : F32 S_))
      (col (dst e))
      (broadcastInDim S600000 ![] bcast_S_S600000 (constant S_ .f32 0x3F800000#32 : F32 S_)))
    (broadcastInDim S50000 ![] bcast_S_S50000 (constant S_ .f32 0x3F800000#32 : F32 S_))
/-- The inverse square root of the degree. -/
def dinv (e : I32 S2x600000) : F32 S50000 := Host.rsqrt (deg e)
/-- The edge weight `dinv (src) · dinv (dst)`. -/
def norm (e : I32 S2x600000) : F32 S600000 :=
  mulf (Host.gather gather_S50000_S600000x1_S600000_n_0_n_n_0_1_1 (dinv e) (col (wrap (src e))))
    (Host.gather gather_S50000_S600000x1_S600000_n_0_n_n_0_1_1 (dinv e) (col (wrap (dst e))))
/-- The self-loop weight `dinv ²`, as a column. -/
def dinv2 (e : I32 S2x600000) : F32 S50000x1 :=
  shapeCast S50000x1 (mulf (dinv e) (dinv e)) shapeCasts_S50000_S50000x1
/-- The weighted neighbourhood sum of the rows of `hl`. -/
def agg (hl : F32 S50000x128) (e : I32 S2x600000) : F32 S50000x128 :=
  Host.scatterAdd scatter_S50000x128_S600000x1_S600000x128_1_0_0_1
    (broadcastInDim S50000x128 ![] bcast_S_S50000x128 (constant S_ .f32 0x00000000#32 : F32 S_))
    (col (dst e))
    (mulf (Host.gather gather_S50000x128_S600000x1_S600000x128_1_0_n_n_0_1_1128 hl (col (wrap (src e))))
      (broadcastInDim S600000x128 ![0, 1] bcast_S600000x1_S600000x128_0_1
        (broadcastInDim S600000x1 ![0] bcast_S600000_S600000x1_0 (norm e) : F32 S600000x1)))
/-- The column mean over the 50000 nodes, as a row. -/
def colMean (p : F32 S50000x128) : F32 S1x128 :=
  shapeCast S1x128 (Host.divf (Host.reduceAdd p (constant S_ .f32 0x00000000#32 : F32 S_) reducesTo_S50000x128_S128_d0 h_S_)
    (broadcastInDim S128 ![] bcast_S_S128 (constant S_ .f32 0x47435000#32 : F32 S_))) shapeCasts_S128_S1x128
/-- The deviation from the column mean. -/
def centred (p : F32 S50000x128) : F32 S50000x128 :=
  subf p (broadcastInDim S50000x128 ![0, 1] bcast_S1x128_S50000x128_0_1 (colMean p))
/-- The biased column variance, as a row. -/
def colVar (p : F32 S50000x128) : F32 S1x128 := colMean (mulf (centred p) (centred p))

/-! ## The parameters' slices -/

/-- A 128-vector as a row. -/
def row128 (b : F32 S128) : F32 S1x128 := shapeCast S1x128 b shapeCasts_S128_S1x128
/-- A 10-vector as a row. -/
def row10 (b : F32 S10) : F32 S1x10 := shapeCast S1x10 b shapeCasts_S10_S1x10
/-- Row 0 of a [3, 128] parameter, as a row. -/
def rowA (b : F32 S3x128) : F32 S1x128 :=
  shapeCast S1x128 (shapeCast S128 (extractStridedSlice S1x128 ![0, 0] b slices_S3x128_S1x128_0_0 : F32 S1x128) shapeCasts_S1x128_S128) shapeCasts_S128_S1x128
/-- Row 1 of a [3, 128] parameter, as a row. -/
def rowB (b : F32 S3x128) : F32 S1x128 :=
  shapeCast S1x128 (shapeCast S128 (extractStridedSlice S1x128 ![1, 0] b slices_S3x128_S1x128_1_0 : F32 S1x128) shapeCasts_S1x128_S128) shapeCasts_S128_S1x128
/-- Row 2 of a [3, 128] parameter, as a row. -/
def rowC (b : F32 S3x128) : F32 S1x128 :=
  shapeCast S1x128 (shapeCast S128 (extractStridedSlice S1x128 ![2, 0] b slices_S3x128_S1x128_2_0 : F32 S1x128) shapeCasts_S1x128_S128) shapeCasts_S128_S1x128
/-- Matrix 0 of the [3, 128, 128] layer weights. -/
def matA (w : F32 S3x128x128) : F32 S128x128 :=
  shapeCast S128x128 (extractStridedSlice S1x128x128 ![0, 0, 0] w slices_S3x128x128_S1x128x128_0_0_0 : F32 S1x128x128) shapeCasts_S1x128x128_S128x128
/-- Matrix 1 of the [3, 128, 128] layer weights. -/
def matB (w : F32 S3x128x128) : F32 S128x128 :=
  shapeCast S128x128 (extractStridedSlice S1x128x128 ![1, 0, 0] w slices_S3x128x128_S1x128x128_1_0_0 : F32 S1x128x128) shapeCasts_S1x128x128_S128x128
/-- Matrix 2 of the [3, 128, 128] layer weights. -/
def matC (w : F32 S3x128x128) : F32 S128x128 :=
  shapeCast S128x128 (extractStridedSlice S1x128x128 ![2, 0, 0] w slices_S3x128x128_S1x128x128_2_0_0 : F32 S1x128x128) shapeCasts_S1x128x128_S128x128

/-! ## The dense stages, index by index -/

/-- The input projection with its rectifier: `max (Σ_k x[r,k] · w[k,j] + b[0,j]) 0`. -/
def reluLin (x : F32 S50000x256) (w : F32 S256x128) (b : F32 S1x128) : F32 S50000x128 := fun i =>
  max ((∑ k : Fin 256, x (ix2 (n0 := 50000) (n1 := 256) (i 0) k) * w (ix2 (n0 := 256) (n1 := 128) k (i 1)))
    + b (ix2 (n0 := 1) (n1 := 128) 0 (i 1))) (Ideal.ofBits .f32 0x00000000#32)
/-- A layer's dense map: `Σ_k h[r,k] · w[k,j]`. -/
def dense (h : F32 S50000x128) (w : F32 S128x128) : F32 S50000x128 := fun i =>
  ∑ k : Fin 128, h (ix2 (n0 := 50000) (n1 := 128) (i 0) k) * w (ix2 (n0 := 128) (n1 := 128) k (i 1))
/-- Neighbourhood sum, self-loop term and bias: `(a + hl · d) + b`. -/
def combine (a hl : F32 S50000x128) (d : F32 S50000x1) (b : F32 S1x128) : F32 S50000x128 := fun i =>
  (a i + hl i * d (ix2 (n0 := 50000) (n1 := 1) (i 0) 0)) + b (ix2 (n0 := 1) (n1 := 128) 0 (i 1))
/-- The normalised, scaled and shifted entry before the rectifier. -/
def normed (p : F32 S50000x128) (mu var g be : F32 S1x128) (i : S50000x128.Idx) : EReal :=
  ((p i - mu (ix2 (n0 := 1) (n1 := 128) 0 (i 1)))
      * Ideal.rsqrt (var (ix2 (n0 := 1) (n1 := 128) 0 (i 1)) + Ideal.ofBits .f32 0x3727C5AC#32))
    * g (ix2 (n0 := 1) (n1 := 128) 0 (i 1)) + be (ix2 (n0 := 1) (n1 := 128) 0 (i 1))
/-- Batch normalisation and rectifier. -/
def bnRelu (p : F32 S50000x128) (mu var g be : F32 S1x128) : F32 S50000x128 := fun i =>
  max (normed p mu var g be i) (Ideal.ofBits .f32 0x00000000#32)
/-- Batch normalisation, rectifier and residual. -/
def bnReluRes (p : F32 S50000x128) (mu var g be : F32 S1x128) (hres : F32 S50000x128) : F32 S50000x128 := fun i =>
  max (normed p mu var g be i) (Ideal.ofBits .f32 0x00000000#32) + hres i
/-- The output projection: `Σ_k h[r,k] · w[k,j] + b[0,j]`. -/
def outProj (h : F32 S50000x128) (w : F32 S128x10) (b : F32 S1x10) : F32 S50000x10 := fun i =>
  (∑ k : Fin 128, h (ix2 (n0 := 50000) (n1 := 128) (i 0) k) * w (ix2 (n0 := 128) (n1 := 10) k (i 1)))
    + b (ix2 (n0 := 1) (n1 := 10) 0 (i 1))

/-! ## The network -/

/-- A layer's value before normalisation. -/
def pre (h : F32 S50000x128) (e : I32 S2x600000) (w : F32 S128x128) (b : F32 S1x128) : F32 S50000x128 :=
  combine (agg (dense h w) e) (dense h w) (dinv2 e) b
/-- The first layer (no residual). -/
def layer0 (h : F32 S50000x128) (e : I32 S2x600000) (w : F32 S128x128) (b g be : F32 S1x128) : F32 S50000x128 :=
  bnRelu (pre h e w b) (colMean (pre h e w b)) (colVar (pre h e w b)) g be
/-- A later layer (with the residual). -/
def layerR (h : F32 S50000x128) (e : I32 S2x600000) (w : F32 S128x128) (b g be : F32 S1x128) : F32 S50000x128 :=
  bnReluRes (pre h e w b) (colMean (pre h e w b)) (colVar (pre h e w b)) g be h
/-- The hidden state after the input projection. -/
def h0 (x : F32 S50000x256) (wi : F32 S256x128) (bi : F32 S128) : F32 S50000x128 := reluLin x wi (row128 bi)
/-- The hidden state after the first layer. -/
def h1 (x : F32 S50000x256) (e : I32 S2x600000) (wi : F32 S256x128) (bi : F32 S128) (wc : F32 S3x128x128) (bc g be : F32 S3x128) : F32 S50000x128 :=
  layer0 (h0 x wi bi) e (matA wc) (rowA bc) (rowA g) (rowA be)
/-- The hidden state after the second layer. -/
def h2 (x : F32 S50000x256) (e : I32 S2x600000) (wi : F32 S256x128) (bi : F32 S128) (wc : F32 S3x128x128) (bc g be : F32 S3x128) : F32 S50000x128 :=
  layerR (h1 x e wi bi wc bc g be) e (matB wc) (rowB bc) (rowB g) (rowB be)
/-- The hidden state after the third layer. -/
def h3 (x : F32 S50000x256) (e : I32 S2x600000) (wi : F32 S256x128) (bi : F32 S128) (wc : F32 S3x128x128) (bc g be : F32 S3x128) : F32 S50000x128 :=
  layerR (h2 x e wi bi wc bc g be) e (matC wc) (rowC bc) (rowC g) (rowC be)
/-- The network's output. -/
def out (x : F32 S50000x256) (e : I32 S2x600000) (wi : F32 S256x128) (bi : F32 S128) (wc : F32 S3x128x128) (bc g be : F32 S3x128)
    (wo : F32 S128x10) (bo : F32 S10) : F32 S50000x10 :=
  outProj (h3 x e wi bi wc bc g be) wo (row10 bo)

end Cert.Spec

end
-- ==== Proof.RegionDense.lean ====
/-
  The dense kernels' output arrays, index by index.

  Five kernel launches multiply a row tile of the node features by a resident weight matrix: the three layer
  maps `h W`, the input projection `max (x W + b) 0` and the output projection `h W + b`. Each launch walks
  ten row tiles of 5000 rows. On the extended reals the narrowing of the operands is the identity and the
  matrix unit's product into a zero accumulator is the plain sum over the contracted index, so the block a
  point writes back is the corresponding block of one whole-array function: entry `(r, j)` is
  `Σ_k a[r, k] · w[k, j]` (plus the bias row, under the rectifier where there is one). The ten blocks tile
  the 50000 rows — row `r` lies in tile `r / 5000` — so after the last point the output array is that
  function of the input arrays.
-/
import proofs.«139786_j89704686944683_1_alg».proof.Proof.Gen.KernelIdeal.Frame
import proofs.«139786_j89704686944683_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionVal

open Idealize.ShloMosaic Idealize.ShloMosaic.TcCoe Idealize.SL.Sem Idealize.ShloMosaic.ValueIdx
open Cert.KernelIdeal Cert.KernelIdeal.Gen

/-- The zero offset of a whole-block access. -/
theorem off_zero : (![0, 0] : Fin 2 → Nat) = fun _ => 0 := funext fun a => by fin_cases a <;> rfl

/-! ## The [5000, 256] × [256, 128] product -/

/-- The left operand's index at output index `i` and contraction index `q`: row `i 0`. -/
theorem mmC_lhs0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- … and column the contracted coordinate. -/
theorem mmC_lhs1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's index: row the contracted coordinate … -/
theorem mmC_rhs0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- … and column `i 1`. -/
theorem mmC_rhs1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product into a zero accumulator, at entry `(r, j)`: the sum over the contracted index. -/
theorem mmC_apply {φ₁ φ₂ : FTy} (a : FVec Ideal S5000x256 φ₁) (b : FVec Ideal S256x128 φ₂) (r : Fin 5000) (j : Fin 128) :
    matmul dot_S5000x256_S256x128_S5000x128_1_0_0_1_n_n none a b (constant S5000x128 .f32 0x00000000#32) (ix2 r j)
      = ∑ k : Fin 256, a (ix2 r k) * b (ix2 k j) := by
  refine (Ideal.matmul_constant_zero_apply dot_S5000x256_S256x128_S5000x128_1_0_0_1_n_n none a b (ix2 r j)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 r j) ((contrEquiv1 dot_S5000x256_S256x128_S5000x128_1_0_0_1_n_n 256 rfl rfl).symm k) = ix2 r k :=
    funext fun a => Fin.ext (by
      match a with
      | ⟨0, _⟩ => exact mmC_lhs0 _ _
      | ⟨1, _⟩ => exact (mmC_lhs1 _ _).trans hk)
  have er : dot_S5000x256_S256x128_S5000x128_1_0_0_1_n_n.rhsIdx (ix2 r j) ((contrEquiv1 dot_S5000x256_S256x128_S5000x128_1_0_0_1_n_n 256 rfl rfl).symm k) = ix2 k j :=
    funext fun a => Fin.ext (by
      match a with
      | ⟨0, _⟩ => exact (mmC_rhs0 _ _).trans hk
      | ⟨1, _⟩ => exact mmC_rhs1 _ _)
  rw [el, er]

/-! ## Kernel 0: the input projection with its rectifier -/

/-- A bias row spread over the rows of a [5000, 128] block, at entry `(r, j)`: the row's entry `j`. -/
theorem bias0_apply (x2 : Vec Ideal S1x128 .f32) (r : Fin 5000) (j : Fin 128) :
    broadcastTo S5000x128 x2 broadcasts_S1x128_S5000x128 (ix2 r j) = x2 (ix2 (n0 := 1) (n1 := 128) 0 j) :=
  broadcastTo_apply x2 broadcasts_S1x128_S5000x128 (ix2 r j) (ix2 (n0 := 1) (n1 := 128) 0 j) fun a => by
    match a with
    | ⟨0, _⟩ => rfl
    | ⟨1, _⟩ => rfl

/-- The body's payload at entry `(r, j)`: `max (Σ_k x0[r, k] · x1[k, j] + x2[0, j]) 0`. -/
theorem relu_pay0 (x0 : Vec Ideal S5000x256 .f32) (x1 : Vec Ideal S256x128 .f32) (x2 : Vec Ideal S1x128 .f32) (r : Fin 5000) (j : Fin 128) :
    k0_pay1 x0 x1 x2 (ix2 r j)
      = max ((∑ k : Fin 256, x0 (ix2 r k) * x1 (ix2 k j)) + x2 (ix2 (n0 := 1) (n1 := 128) 0 j)) (Ideal.ofBits .f32 0x00000000#32) := by
  unfold k0_pay1
  simp only [shapeCast_self]
  rw [maximumf_apply, addf_apply, bias0_apply, broadcast_apply]
  exact congrArg (fun s => max (s + x2 (ix2 (n0 := 1) (n1 := 128) 0 j)) (Ideal.ofBits .f32 0x00000000#32))
    ((mmC_apply _ _ r j).trans (Finset.sum_congr rfl fun k _ => rfl))

/-- One entry of the block's result, once each operand block is known to hold the entries of the arrays `A`, `B`,
    `C` that entry `i` of the whole projection needs. -/
theorem relu_point0 (A : S50000x256.Idx → EReal) (B : S256x128.Idx → EReal) (C : S1x128.Idx → EReal)
    (x0 : Vec Ideal S5000x256 .f32) (x1 : Vec Ideal S256x128 .f32) (x2 : Vec Ideal S1x128 .f32)
    (i : S50000x128.Idx) (p : Fin 5000) (q : Fin 128)
    (h0 : ∀ k : Fin 256, x0 (ix2 p k) = A (ix2 (n0 := 50000) (n1 := 256) (i 0) k))
    (h1 : ∀ k : Fin 256, x1 (ix2 k q) = B (ix2 (n0 := 256) (n1 := 128) k (i 1)))
    (h2 : x2 (ix2 (n0 := 1) (n1 := 128) 0 q) = C (ix2 (n0 := 1) (n1 := 128) 0 (i 1))) :
    k0_pay1 x0 x1 x2 (ix2 p q) = Cert.Spec.reluLin A B C i := by
  rw [relu_pay0, h2]
  exact congrArg (fun s => max (s + C (ix2 (n0 := 1) (n1 := 128) 0 (i 1))) (Ideal.ofBits .f32 0x00000000#32))
    (Finset.sum_congr rfl fun k _ => by rw [h0, h1])

/-- The index maps over the grid: the row-tiled windows sit at block row `t`, the weight and the bias at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1000000 in
/-- What point `t` writes back is block `t` of the rectified projection of the input arrays. -/
theorem flushed0_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Spec.reluLin (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero off_zero]
  simp only [View.ld_unit_zero (S := S5000x256) off_zero, View.ld_unit_zero (S := S256x128) off_zero, View.ld_unit_zero (S := S1x128) off_zero]
  obtain ⟨e00, e01, e10, e11, e20, e21, e30, e31⟩ := idx_facts0 t
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (ix2 p q)
      = Cert.Spec.reluLin (V c (Pipeline.arrRef spec0 0)) (V c (Pipeline.arrRef spec0 1)) (V c (Pipeline.arrRef spec0 2)) (((cfg0.win 3).blk t).view.emb (ix2 p q))
  refine relu_point0 _ _ _ _ _ _ _ p q (fun k => ?_) (fun k => ?_) ?_
  · show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  · show V c (Pipeline.arrRef spec0 1) (((cfg0.win 1).blk t).view.emb (ix2 k q)) = _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = win0_3.index t (1 : Fin 2) * 128 + 1 * q.val; omega
  · show V c (Pipeline.arrRef spec0 2) (((cfg0.win 2).blk t).view.emb (ix2 (n0 := 1) (n1 := 128) 0 q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v29).slice (win0_3.rect t)).set ↔ _
  rw [View.set_slice_whole, Rect.mem_set_unit]
  exact Iff.rfl

/-- Every row is in the block of the point `row / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_blk0]
  obtain ⟨-, -, -, -, -, -, e30, e31⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

theorem region0_value (V : (c : Dev nD) → (b : Ref sig .tc) → Buf (Elt Ideal) ((c : Thread nD τ).loc b)) (c : Dev nD) :
    (dat0 (F := Ideal) V c).arrAt 3 cfg0.N
      = Cert.Spec.reluLin (V c (Pipeline.arrRef spec0 0)) (V c (Pipeline.arrRef spec0 1)) (V c (Pipeline.arrRef spec0 2)) :=
  (dat0 (F := Ideal) V c).arrAt_eq_of_cover 3 _ (fun t _ => flushed0_eq V c t) cover0

/-! ## The [5000, 128] × [128, 128] product -/

/-- The left operand's index at output index `i` and contraction index `q`: row `i 0`. -/
theorem mmA_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column the contracted coordinate. -/
theorem mmA_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row the contracted coordinate … -/
theorem mmA_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and column `i 1`. -/
theorem mmA_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at entry `(r, j)`: the sum over the contracted index. -/
theorem mmA_apply {φ₁ φ₂ : FTy} (a : FVec Ideal S5000x128 φ₁) (b : FVec Ideal S128x128 φ₂) (r : Fin 5000) (j : Fin 128) :
    matmul dot_S5000x128_S128x128_S5000x128_1_0_0_1_n_n none a b (constant S5000x128 .f32 0x00000000#32) (ix2 r j)
      = ∑ k : Fin 128, a (ix2 r k) * b (ix2 k j) := by
  refine (Ideal.matmul_constant_zero_apply dot_S5000x128_S128x128_S5000x128_1_0_0_1_n_n none a b (ix2 r j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k :=
    funext fun a => Fin.ext (by
      match a with
      | ⟨0, _⟩ => exact mmA_lhs0 _ _
      | ⟨1, _⟩ => exact (mmA_lhs1 _ _).trans hk)
  have er : dot_S5000x128_S128x128_S5000x128_1_0_0_1_n_n.rhsIdx (ix2 r j) ((contrEquiv1 dot_S5000x128_S128x128_S5000x128_1_0_0_1_n_n 128 rfl rfl).symm k) = ix2 k j :=
    funext fun a => Fin.ext (by
      match a with
      | ⟨0, _⟩ => exact (mmA_rhs0 _ _).trans hk
      | ⟨1, _⟩ => exact mmA_rhs1 _ _)
  rw [el, er]

/-! ## Kernel 1: a layer's dense map -/

/-- The body's payload at entry `(r, j)`: `Σ_k x0[r, k] · x1[k, j]`. -/
theorem dense_pay1 (x0 : Vec Ideal S5000x128 .f32) (x1 : Vec Ideal S128x128 .f32) (r : Fin 5000) (j : Fin 128) :
    k1_pay1 x0 x1 (ix2 r j) = ∑ k : Fin 128, x0 (ix2 r k) * x1 (ix2 k j) := by
  unfold k1_pay1
  simp only [shapeCast_self]
  exact (mmA_apply _ _ r j).trans (Finset.sum_congr rfl fun k _ => rfl)

/-- One entry of the block product, once each operand block is known to hold the rows of the arrays `A`, `B`
    that entry `i` of the whole product needs. -/
theorem dense_point1 (A : S50000x128.Idx → EReal) (B : S128x128.Idx → EReal)
    (x0 : Vec Ideal S5000x128 .f32) (x1 : Vec Ideal S128x128 .f32) (i : S50000x128.Idx) (p : Fin 5000) (q : Fin 128)
    (h0 : ∀ k : Fin 128, x0 (ix2 p k) = A (ix2 (n0 := 50000) (n1 := 128) (i 0) k))
    (h1 : ∀ k : Fin 128, x1 (ix2 k q) = B (ix2 (n0 := 128) (n1 := 128) k (i 1))) :
    k1_pay1 x0 x1 (ix2 p q) = Cert.Spec.dense A B i := by
  rw [dense_pay1]
  exact Finset.sum_congr rfl fun k _ => by rw [h0, h1]

/-- The index maps over the grid: the row-tiled windows sit at block row `t`, the weight at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 1000000 in
/-- What point `t` writes back is block `t` of the product of the two input arrays. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Spec.dense (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero off_zero]
  simp only [View.ld_unit_zero (S := S5000x128) off_zero, View.ld_unit_zero (S := S128x128) off_zero]
  obtain ⟨e00, e01, e10, e11, e20, e21⟩ := idx_facts1 t
  funext y
  obtain ⟨p, q, rfl⟩ : ∃ (p : Fin 5000) (q : Fin 128), y = ix2 p q := ⟨y 0, y 1, eq_ix2 y⟩
  show k1_pay1 (iblk1 V c 0 t) (iblk1 V c 1 t) (ix2 p q)
      = Cert.Spec.dense (V c (Pipeline.arrRef spec1 0)) (V c (Pipeline.arrRef spec1 1)) (((cfg1.win 2).blk t).view.emb (ix2 p q))
  refine dense_point1 _ _ _ _ _ p q (fun k => ?_) (fun k => ?_)
  · show V c (Pipeline.arrRef spec1 0) (((cfg1.win 0).blk t).view.emb (ix2 p k)) = _
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  · show V c (Pipeline.arrRef spec1 1) (((cfg1.win 1).blk t).view.emb (ix2 k q)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v32).slice (win1_2.rect t)).set ↔ _
  rw [View.set_slice_whole, Rect.mem_set_unit]
  exact Iff.rfl

/-- Every row is in the block of the point `row / 5000`. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_2 _, ?_⟩
  rw [mem_blk1]
  obtain ⟨-, -, -, -, e20, e21⟩ := idx_facts1 ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e20]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e21]; omega

theorem region1_value (V : (c : Dev nD) → (b : Ref sig .tc) → Buf (Elt Ideal) ((c : Thread nD τ).loc b)) (c : Dev nD) :
    (dat1 (F := Ideal) V c).arrAt 2 cfg1.N
      = Cert.Spec.dense (V c (Pipeline.arrRef spec1 0)) (V c (Pipeline.arrRef spec1 1)) :=
  (dat1 (F := Ideal) V c).arrAt_eq_of_cover 2 _ (fun t _ => flushed1_eq V c t) cover1

/-! ## Kernel 4: a layer's dense map -/

/-- The body's payload at entry `(r, j)`: `Σ_k x0[r, k] · x1[k, j]`. -/
theorem dense_pay4 (x0 : Vec Ideal S5000x128 .f32) (x1 : Vec Ideal S128x128 .f32) (r : Fin 5000) (j : Fin 128) :
    k4_pay1 x0 x1 (ix2 r j) = ∑ k : Fin 128, x0 (ix2 r k) * x1 (ix2 k j) := by
  unfold k4_pay1
  simp only [shapeCast_self]
  exact (mmA_apply _ _ r j).trans (Finset.sum_congr rfl fun k _ => rfl)

/-- One entry of the block product, once each operand block is known to hold the rows of the arrays `A`, `B`
    that entry `i` of the whole product needs. -/
theorem dense_point4 (A : S50000x128.Idx → EReal) (B : S128x128.Idx → EReal)
    (x0 : Vec Ideal S5000x128 .f32) (x1 : Vec Ideal S128x128 .f32) (i : S50000x128.Idx) (p : Fin 5000) (q : Fin 128)
    (h0 : ∀ k : Fin 128, x0 (ix2 p k) = A (ix2 (n0 := 50000) (n1 := 128) (i 0) k))
    (h1 : ∀ k : Fin 128, x1 (ix2 k q) = B (ix2 (n0 := 128) (n1 := 128) k (i 1))) :
    k4_pay1 x0 x1 (ix2 p q) = Cert.Spec.dense A B i := by
  rw [dense_pay4]
  exact Finset.sum_congr rfl fun k _ => by rw [h0, h1]

/-- The index maps over the grid: the row-tiled windows sit at block row `t`, the weight at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 1000000 in
/-- What point `t` writes back is block `t` of the product of the two input arrays. -/
theorem flushed4_eq (V : (c : Dev nD) → (b : Ref sig .tc) → Buf (Elt Ideal) ((c : Thread nD τ).loc b)) (c : Dev nD) (t : Fin cfg4.N) :
    (dat4 (F := Ideal) V c).flushed 2 t
      = ((cfg4.win 2).blk t).view.read (Elt Ideal) (Cert.Spec.dense (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero off_zero]
  simp only [View.ld_unit_zero (S := S5000x128) off_zero, View.ld_unit_zero (S := S128x128) off_zero]
  obtain ⟨e00, e01, e10, e11, e20, e21⟩ := idx_facts4 t
  funext y
  obtain ⟨p, q, rfl⟩ : ∃ (p : Fin 5000) (q : Fin 128), y = ix2 p q := ⟨y 0, y 1, eq_ix2 y⟩
  show k4_pay1 (iblk4 V c 0 t) (iblk4 V c 1 t) (ix2 p q)
      = Cert.Spec.dense (V c (Pipeline.arrRef spec4 0)) (V c (Pipeline.arrRef spec4 1)) (((cfg4.win 2).blk t).view.emb (ix2 p q))
  refine dense_point4 _ _ _ _ _ p q (fun k => ?_) (fun k => ?_)
  · show V c (Pipeline.arrRef spec4 0) (((cfg4.win 0).blk t).view.emb (ix2 p k)) = _
    refine congrArg _ (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  · show V c (Pipeline.arrRef spec4 1) (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega

/-- An index of the output array is in point `t`'s block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v70).slice (win4_2.rect t)).set ↔ _
  rw [View.set_slice_whole, Rect.mem_set_unit]
  exact Iff.rfl

/-- Every row is in the block of the point `row / 5000`. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  refine ⟨⟨(i 0).val / 5000, by rw [hN]; omega⟩, flush4_2 _, ?_⟩
  rw [mem_blk4]
  obtain ⟨-, -, -, -, e20, e21⟩ := idx_facts4 ⟨(i 0).val / 5000, by rw [hN]; omega⟩
  intro a
  match a with
  | ⟨0, _⟩ =>
    show win4_2.index _ (0 : Fin 2) * 5000 ≤ (i 0).val ∧ (i 0).val < win4_2.index _ (0 : Fin 2) * 5000 + 5000
    rw [e20]; show (i 0).val / 5000 * 5000 ≤ (i 0).val ∧ (i 0).val < (i 0).val / 5000 * 5000 + 5000; omega
  | ⟨1, _⟩ =>
    show win4_2.index _ (1 : Fin 2) * 128 ≤ (i 1).val ∧ (i 1).val < win4_2.index _ (1 : Fin 2) * 128 + 128
    rw [e21]; omega

theorem region4_value (V : (c : Dev nD) → (b : Ref sig .tc) → Buf (Elt Ideal) ((c : Thread nD τ).loc b)) (c : Dev nD) :
    (dat4 (F := Ideal) V c).arrAt 2 cfg4.N
      = Cert.Spec.dense (V c (Pipeline.arrRef spec4 0)) (V c (Pipeline.arrRef spec4 1)) :=
  (dat4 (F := Ideal) V c).arrAt_eq_of_cover 2 _ (fun t _ => flushed4_eq V c t) cover4

/-! ## Kernel 7: a layer's dense map -/

/-- The body's payload at entry `(r, j)`: `Σ_k x0[r, k] · x1[k, j]`. -/
theorem dense_pay7 (x0 : Vec Ideal S5000x128 .f32) (x1 : Vec Ideal S128x128 .f32) (r : Fin 5000) (j : Fin 128) :
    k7_pay1 x0 x1 (ix2 r j) = ∑ k : Fin 128, x0 (ix2 r k) * x1 (ix2 k j) := by
  unfold k7_pay1
  simp only [shapeCast_self]
  exact (mmA_apply _ _ r j).trans (Finset.sum_congr rfl fun k _ => rfl)

/-- One entry of the block product, once each operand block is known to hold the rows of the arrays `A`, `B`
    that entry `i` of the whole product needs. -/
theorem dense_point7 (A : S50000x128.Idx → EReal) (B : S128x128.Idx → EReal)
    (x0 : Vec Ideal S5000x128 .f32) (x1 : Vec Ideal S128x128 .f32) (i : S50000x128.Idx) (p : Fin 5000) (q : Fin 128)
    (h0 : ∀ k : Fin 128, x0 (ix2 p k) = A (ix2 (n0 := 50000) (n1 := 128) (i 0) k))
    (h1 : ∀ k : Fin 128, x1 (ix2 k q) = B (ix2 (n0 := 128) (n1 := 128) k (i 1))) :
    k7_pay1 x0 x1 (ix2 p q) = Cert.Spec.dense A B i := by
  rw [dense_pay7]
  exact Finset.sum_congr rfl fun k _ => by rw [h0, h1]

/-- The index maps over the grid: the row-tiled windows sit at block row `t`, the weight at block (0, 0). -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

set_option maxHeartbeats 1000000 in
/-- What point `t` writes back is block `t` of the product of the two input arrays. -/
theorem flushed7_eq (V : (c : Dev nD) → (b : Ref sig .tc) → Buf (Elt Ideal) ((c : Thread nD τ).loc b)) (c : Dev nD) (t : Fin cfg7.N) :
    (dat7 (F := Ideal) V c).flushed 2 t
      = ((cfg7.win 2).blk t).view.read (Elt Ideal) (Cert.Spec.dense (V c (Pipeline.arrRef spec7 0)) (V c (Pipeline.arrRef spec7 1))) := by
  show (cfg7.win 2).cut (grid7.coords t) ((dat7 (F := Ideal) V c).after 2 t) = _
  rw [after7_2]
  unfold out7_2
  rw [View.canon_unit_zero off_zero]
  simp only [View.ld_unit_zero (S := S5000x128) off_zero, View.ld_unit_zero (S := S128x128) off_zero]
  obtain ⟨e00, e01, e10, e11, e20, e21⟩ := idx_facts7 t
  funext y
  obtain ⟨p, q, rfl⟩ : ∃ (p : Fin 5000) (q : Fin 128), y = ix2 p q := ⟨y 0, y 1, eq_ix2 y⟩
  show k7_pay1 (iblk7 V c 0 t) (iblk7 V c 1 t) (ix2 p q)
      = Cert.Spec.dense (V c (Pipeline.arrRef spec7 0)) (V c (Pipeline.arrRef spec7 1)) (((cfg7.win 2).blk t).view.emb (ix2 p q))
  refine dense_point7 _ _ _ _ _ p q (fun k => ?_) (fun k => ?_)
  · show V c (Pipeline.arrRef spec7 0) (((cfg7.win 0).blk t).view.emb (ix2 p k)) = _
    refine congrArg _ (funext fun a => Fin.ext ?_)
    match a with
    | ⟨0, _⟩ => show win7_0.index t (0 : Fin 2) * 5000 + 1 * p.val = win7_2.index t (0 : Fin 2) * 5000 + 1 * p.val; omega
    | ⟨1, _⟩ => show win7_0.index t (1 : Fin 2) * 128 + 1 * k.val = k.val; omega
  · show V c (Pipeline.arrRef spec7 1) (((cfg7.win 1).blk t).view.emb (ix2 k q)) = _
    refine congrArg _ (funext fun a => Fin.ext ?_)
    match a with
    | ⟨0, _⟩ => show win7_1.index t (0 : Fin 2) * 128 + 1 * k.val = k.val; omega
    | ⟨1, _⟩ => show win7_1.index t (1 : Fin 2) * 128 + 1 * q.val = win7_2.index t (1 : Fin 2) * 128 + 1 * q.val; omega

/-- An index of the output array is in point `t`'s block iff each coordinate is in the block's range on its axis. -/
theorem mem_blk7 (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v108).slice (win7_2.rect t)).set ↔ _
  rw [View.set_slice_whole, Rect.mem_set_unit]
  exact Iff.rfl

/-- Every row is in the block of the point `row / 5000`. -/
theorem cover7 (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  have hN : cfg7.N = 10 := N_7
  refine ⟨⟨(i 0).val / 5000, by rw [hN]; omega⟩, flush7_2 _, ?_⟩
  rw [mem_blk7]
  obtain ⟨-, -, -, -, e20, e21⟩ := idx_facts7 ⟨(i 0).val / 5000, by rw [hN]; omega⟩
  intro a
  match a with
  | ⟨0, _⟩ =>
    show win7_2.index _ (0 : Fin 2) * 5000 ≤ (i 0).val ∧ (i 0).val < win7_2.index _ (0 : Fin 2) * 5000 + 5000
    rw [e20]; show (i 0).val / 5000 * 5000 ≤ (i 0).val ∧ (i 0).val < (i 0).val / 5000 * 5000 + 5000; omega
  | ⟨1, _⟩ =>
    show win7_2.index _ (1 : Fin 2) * 128 ≤ (i 1).val ∧ (i 1).val < win7_2.index _ (1 : Fin 2) * 128 + 128
    rw [e21]; omega

theorem region7_value (V : (c : Dev nD) → (b : Ref sig .tc) → Buf (Elt Ideal) ((c : Thread nD τ).loc b)) (c : Dev nD) :
    (dat7 (F := Ideal) V c).arrAt 2 cfg7.N
      = Cert.Spec.dense (V c (Pipeline.arrRef spec7 0)) (V c (Pipeline.arrRef spec7 1)) :=
  (dat7 (F := Ideal) V c).arrAt_eq_of_cover 2 _ (fun t _ => flushed7_eq V c t) cover7

/-! ## The [5000, 128] × [128, 10] product -/

/-- The left operand's index at output index `i` and contraction index `q`: row `i 0`. -/
theorem mmB_lhs0 (i : S5000x10.Idx) (q : dot_S5000x128_S128x10_S5000x10_1_0_0_1_n_n.contr.Idx) :
    (dot_S5000x128_S128x10_S5000x10_1_0_0_1_n_n.lhsIdx i q 0).val = (i 0).val := by
  unfold DotDims.lhsIdx
  rw [dif_neg (show ¬(0 : Fin S5000x128.rank) ∈ dot_S5000x128_S128x10_S5000x10_1_0_0_1_n_n.lhsBatch by decide), dif_pos (show (0 : Fin S5000x128.rank) ∈ dot_S5000x128_S128x10_S5000x10_1_0_0_1_n_n.lhsNonContracting by decide)]
  rfl
/-- … and column the contracted coordinate. -/
theorem mmB_lhs1 (i : S5000x10.Idx) (q : dot_S5000x128_S128x10_S5000x10_1_0_0_1_n_n.contr.Idx) :
    (dot_S5000x128_S128x10_S5000x10_1_0_0_1_n_n.lhsIdx i q 1).val = (q ⟨0, by decide⟩).val :=
  dot_S5000x128_S128x10_S5000x10_1_0_0_1_n_n.lhsIdx_val_of_single rfl i q
/-- The right operand's index: row the contracted coordinate … -/
theorem mmB_rhs0 (i : S5000x10.Idx) (q : dot_S5000x128_S128x10_S5000x10_1_0_0_1_n_n.contr.Idx) :
    (dot_S5000x128_S128x10_S5000x10_1_0_0_1_n_n.rhsIdx i q 0).val = (q ⟨0, by decide⟩).val :=
  dot_S5000x128_S128x10_S5000x10_1_0_0_1_n_n.rhsIdx_val_of_single rfl i q
/-- … and column `i 1`. -/
theorem mmB_rhs1 (i : S5000x10.Idx) (q : dot_S5000x128_S128x10_S5000x10_1_0_0_1_n_n.contr.Idx) :
    (dot_S5000x128_S128x10_S5000x10_1_0_0_1_n_n.rhsIdx i q 1).val = (i 1).val := by
  unfold DotDims.rhsIdx
  rw [dif_neg (show ¬(1 : Fin S128x10.rank) ∈ dot_S5000x128_S128x10_S5000x10_1_0_0_1_n_n.rhsBatch by decide), dif_pos (show (1 : Fin S128x10.rank) ∈ dot_S5000x128_S128x10_S5000x10_1_0_0_1_n_n.rhsNonContracting by decide)]
  rfl

/-- The product into a zero accumulator, at entry `(r, j)`: the sum over the contracted index. -/
theorem mmB_apply {φ₁ φ₂ : FTy} (a : FVec Ideal S5000x128 φ₁) (b : FVec Ideal S128x10 φ₂) (r : Fin 5000) (j : Fin 10) :
    matmul dot_S5000x128_S128x10_S5000x10_1_0_0_1_n_n none a b (constant S5000x10 .f32 0x00000000#32) (ix2 r j)
      = ∑ k : Fin 128, a (ix2 r k) * b (ix2 k j) := by
  refine (Ideal.matmul_constant_zero_apply dot_S5000x128_S128x10_S5000x10_1_0_0_1_n_n none a b (ix2 r j)).trans ?_
  rw [← Equiv.sum_comp (contrEquiv1 dot_S5000x128_S128x10_S5000x10_1_0_0_1_n_n 128 rfl rfl).symm]
  refine Finset.sum_congr rfl fun k _ => ?_
  have hk := contrEquiv1_symm_val dot_S5000x128_S128x10_S5000x10_1_0_0_1_n_n 128 rfl rfl k
  have el : dot_S5000x128_S128x10_S5000x10_1_0_0_1_n_n.lhsIdx (ix2 r j) ((contrEquiv1 dot_S5000x128_S128x10_S5000x10_1_0_0_1_n_n 128 rfl rfl).symm k) = ix2 r k :=
    funext fun a => Fin.ext (by
      match a with
      | ⟨0, _⟩ => exact mmB_lhs0 _ _
      | ⟨1, _⟩ => exact (mmB_lhs1 _ _).trans hk)
  have er : dot_S5000x128_S128x10_S5000x10_1_0_0_1_n_n.rhsIdx (ix2 r j) ((contrEquiv1 dot_S5000x128_S128x10_S5000x10_1_0_0_1_n_n 128 rfl rfl).symm k) = ix2 k j :=
    funext fun a => Fin.ext (by
      match a with
      | ⟨0, _⟩ => exact (mmB_rhs0 _ _).trans hk
      | ⟨1, _⟩ => exact mmB_rhs1 _ _)
  rw [el, er]

/-! ## Kernel 10: the output projection -/

/-- A bias row spread over the rows of a [5000, 10] block, at entry `(r, j)`: the row's entry `j`. -/
theorem bias10_apply (x2 : Vec Ideal S1x10 .f32) (r : Fin 5000) (j : Fin 10) :
    broadcastTo S5000x10 x2 broadcasts_S1x10_S5000x10 (ix2 r j) = x2 (ix2 (n0 := 1) (n1 := 10) 0 j) :=
  broadcastTo_apply x2 broadcasts_S1x10_S5000x10 (ix2 r j) (ix2 (n0 := 1) (n1 := 10) 0 j) fun a => by
    match a with
    | ⟨0, _⟩ => rfl
    | ⟨1, _⟩ => rfl

/-- The body's payload at entry `(r, j)`: `Σ_k x0[r, k] · x1[k, j] + x2[0, j]`. -/
theorem out_pay10 (x0 : Vec Ideal S5000x128 .f32) (x1 : Vec Ideal S128x10 .f32) (x2 : Vec Ideal S1x10 .f32) (r : Fin 5000) (j : Fin 10) :
    k10_pay1 x0 x1 x2 (ix2 r j)
      = (∑ k : Fin 128, x0 (ix2 r k) * x1 (ix2 k j)) + x2 (ix2 (n0 := 1) (n1 := 10) 0 j) := by
  unfold k10_pay1
  simp only [shapeCast_self]
  rw [addf_apply, bias10_apply]
  exact congrArg (· + x2 (ix2 (n0 := 1) (n1 := 10) 0 j)) ((mmB_apply _ _ r j).trans (Finset.sum_congr rfl fun k _ => rfl))

/-- One entry of the block's result, once each operand block is known to hold the entries of the arrays `A`, `B`,
    `C` that entry `i` of the whole projection needs. -/
theorem out_point10 (A : S50000x128.Idx → EReal) (B : S128x10.Idx → EReal) (C : S1x10.Idx → EReal)
    (x0 : Vec Ideal S5000x128 .f32) (x1 : Vec Ideal S128x10 .f32) (x2 : Vec Ideal S1x10 .f32)
    (i : S50000x10.Idx) (p : Fin 5000) (q : Fin 10)
    (h0 : ∀ k : Fin 128, x0 (ix2 p k) = A (ix2 (n0 := 50000) (n1 := 128) (i 0) k))
    (h1 : ∀ k : Fin 128, x1 (ix2 k q) = B (ix2 (n0 := 128) (n1 := 10) k (i 1)))
    (h2 : x2 (ix2 (n0 := 1) (n1 := 10) 0 q) = C (ix2 (n0 := 1) (n1 := 10) 0 (i 1))) :
    k10_pay1 x0 x1 x2 (ix2 p q) = Cert.Spec.outProj A B C i := by
  rw [out_pay10, h2]
  exact congrArg (· + C (ix2 (n0 := 1) (n1 := 10) 0 (i 1))) (Finset.sum_congr rfl fun k _ => by rw [h0, h1])

/-- The index maps over the grid: the row-tiled windows sit at block row `t`, the weight and the bias at block (0, 0). -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

set_option maxHeartbeats 1000000 in
/-- What point `t` writes back is block `t` of the projection of the input arrays. -/
theorem flushed10_eq (V : (c : Dev nD) → (b : Ref sig .tc) → Buf (Elt Ideal) ((c : Thread nD τ).loc b)) (c : Dev nD) (t : Fin cfg10.N) :
    (dat10 (F := Ideal) V c).flushed 3 t
      = ((cfg10.win 3).blk t).view.read (Elt Ideal) (Cert.Spec.outProj (V c (Pipeline.arrRef spec10 0)) (V c (Pipeline.arrRef spec10 1)) (V c (Pipeline.arrRef spec10 2))) := by
  show (cfg10.win 3).cut (grid10.coords t) ((dat10 (F := Ideal) V c).after 3 t) = _
  rw [after10_3]
  unfold out10_3
  rw [View.canon_unit_zero off_zero]
  simp only [View.ld_unit_zero (S := S5000x128) off_zero, View.ld_unit_zero (S := S128x10) off_zero, View.ld_unit_zero (S := S1x10) off_zero]
  obtain ⟨e00, e01, e10, e11, e20, e21, e30, e31⟩ := idx_facts10 t
  funext y
  obtain ⟨p, q, rfl⟩ : ∃ (p : Fin 5000) (q : Fin 10), y = ix2 p q := ⟨y 0, y 1, eq_ix2 y⟩
  show k10_pay1 (iblk10 V c 0 t) (iblk10 V c 1 t) (iblk10 V c 2 t) (ix2 p q)
      = Cert.Spec.outProj (V c (Pipeline.arrRef spec10 0)) (V c (Pipeline.arrRef spec10 1)) (V c (Pipeline.arrRef spec10 2)) (((cfg10.win 3).blk t).view.emb (ix2 p q))
  refine out_point10 _ _ _ _ _ _ _ p q (fun k => ?_) (fun k => ?_) ?_
  · show V c (Pipeline.arrRef spec10 0) (((cfg10.win 0).blk t).view.emb (ix2 p k)) = _
    refine congrArg _ (funext fun a => Fin.ext ?_)
    match a with
    | ⟨0, _⟩ => show win10_0.index t (0 : Fin 2) * 5000 + 1 * p.val = win10_3.index t (0 : Fin 2) * 5000 + 1 * p.val; omega
    | ⟨1, _⟩ => show win10_0.index t (1 : Fin 2) * 128 + 1 * k.val = k.val; omega
  · show V c (Pipeline.arrRef spec10 1) (((cfg10.win 1).blk t).view.emb (ix2 k q)) = _
    refine congrArg _ (funext fun a => Fin.ext ?_)
    match a with
    | ⟨0, _⟩ => show win10_1.index t (0 : Fin 2) * 128 + 1 * k.val = k.val; omega
    | ⟨1, _⟩ => show win10_1.index t (1 : Fin 2) * 10 + 1 * q.val = win10_3.index t (1 : Fin 2) * 10 + 1 * q.val; omega
  · show V c (Pipeline.arrRef spec10 2) (((cfg10.win 2).blk t).view.emb (ix2 (n0 := 1) (n1 := 10) 0 q)) = _
    refine congrArg _ (funext fun a => Fin.ext ?_)
    match a with
    | ⟨0, _⟩ => show win10_2.index t (0 : Fin 2) * 1 + 1 * 0 = 0; omega
    | ⟨1, _⟩ => show win10_2.index t (1 : Fin 2) * 10 + 1 * q.val = win10_3.index t (1 : Fin 2) * 10 + 1 * q.val; omega

/-- An index of the output array is in point `t`'s block iff each coordinate is in the block's range on its axis. -/
theorem mem_blk10 (t : Fin cfg10.N) (i : S50000x10.Idx) :
    i ∈ ((cfg10.win 3).blk t).view.set ↔ ∀ a : Fin 2, win10_3.index t a * S5000x10.size a ≤ (i a).val ∧ (i a).val < win10_3.index t a * S5000x10.size a + S5000x10.size a := by
  show i ∈ ((View.whole main_v145).slice (win10_3.rect t)).set ↔ _
  rw [View.set_slice_whole, Rect.mem_set_unit]
  exact Iff.rfl

/-- Every row is in the block of the point `row / 5000`. -/
theorem cover10 (i : S50000x10.Idx) : ∃ t : Fin cfg10.N, (cfg10.win 3).flush t = true ∧ i ∈ ((cfg10.win 3).blk t).view.set := by
  have hi0 : (i 0).val < 50000 := (i 0).isLt
  have hi1 : (i 1).val < 10 := (i 1).isLt
  have hN : cfg10.N = 10 := N_10
  refine ⟨⟨(i 0).val / 5000, by rw [hN]; omega⟩, flush10_3 _, ?_⟩
  rw [mem_blk10]
  obtain ⟨-, -, -, -, -, -, e30, e31⟩ := idx_facts10 ⟨(i 0).val / 5000, by rw [hN]; omega⟩
  intro a
  match a with
  | ⟨0, _⟩ =>
    show win10_3.index _ (0 : Fin 2) * 5000 ≤ (i 0).val ∧ (i 0).val < win10_3.index _ (0 : Fin 2) * 5000 + 5000
    rw [e30]; show (i 0).val / 5000 * 5000 ≤ (i 0).val ∧ (i 0).val < (i 0).val / 5000 * 5000 + 5000; omega
  | ⟨1, _⟩ =>
    show win10_3.index _ (1 : Fin 2) * 10 ≤ (i 1).val ∧ (i 1).val < win10_3.index _ (1 : Fin 2) * 10 + 10
    rw [e31]; omega

theorem region10_value (V : (c : Dev nD) → (b : Ref sig .tc) → Buf (Elt Ideal) ((c : Thread nD τ).loc b)) (c : Dev nD) :
    (dat10 (F := Ideal) V c).arrAt 3 cfg10.N
      = Cert.Spec.outProj (V c (Pipeline.arrRef spec10 0)) (V c (Pipeline.arrRef spec10 1)) (V c (Pipeline.arrRef spec10 2)) :=
  (dat10 (F := Ideal) V c).arrAt_eq_of_cover 3 _ (fun t _ => flushed10_eq V c t) cover10

end Cert.KernelIdeal.RegionVal
end
-- ==== Proof.RegionPointwise.lean ====
/-
  The value of the output array of the combine regions (2, 5, 8) and of the batch-normalisation regions
  (3, 6, 9), on the extended reals.

  Each of these kernels works on row tiles of 5000 rows: at grid point `t` the body reads rows
  `5000 t … 5000 t + 4999` of its row-tiled operands and the whole of its one-row operands, and stores one
  tile of the output. Every operation of the bodies is entrywise or a broadcast of a row `[1, 128]` or of a
  column `[5000, 1]` over the tile, so an entry `(r, j)` of the stored tile is the stage's formula at the
  entries `(r, j)`, `(r, 0)` and `(0, j)` of the operand tiles; the operand tiles are the arrays read at row
  `5000 t + r`; and the ten tiles cover the 50000 rows (row `r` lies in tile `r / 5000`). Hence the array
  after the ten points is the stage's function of the input arrays.
-/
import proofs.«139786_j89704686944683_1_alg».proof.Proof.Gen.KernelIdeal.Frame
import proofs.«139786_j89704686944683_1_alg».proof.Proof.Spec
import Idealize.ShloMosaic.Lib.ValueIdx
import Idealize.ShloMosaic.Lib.Pipeline.Value
import Idealize.ShloMosaic.Lib.ValueLayout

set_option maxRecDepth 16384

noncomputable section

namespace Cert.KernelIdeal.RegionVal

open Idealize.ShloMosaic Idealize.ShloMosaic.TcCoe Idealize.SL.Sem
open Cert.KernelIdeal Cert.KernelIdeal.Gen
open Idealize.ShloMosaic.ValueIdx

/-! ## Two small facts used by every region -/

/-- A column `[a, 1]` broadcast to `[a, b]` reads, at `(p, c)`, the operand's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The inverse square root of an array, entry by entry. -/
theorem rsqrt_apply {s : Shape} {φ : FTy} (a : FVec Ideal s φ) (i : s.Idx) : rsqrt a i = Ideal.rsqrt (a i) := rfl

/-- The zero offsets of a whole-buffer access. -/
theorem hz : (![0, 0] : Fin 2 → Nat) = fun _ => 0 := funext fun a => by fin_cases a <;> rfl

/-! ## Region 2: the combine kernel -/

/-- The combine body at an entry: neighbourhood sum plus self-loop term plus bias. -/
theorem k2_pay1_apply (x0 x1 : Vec Ideal S5000x128 .f32) (x2 : Vec Ideal S5000x1 .f32) (x3 : Vec Ideal S1x128 .f32)
    (r : Fin 5000) (j : Fin 128) :
    k2_pay1 x0 x1 x2 x3 (ix2 r j)
      = (x0 (ix2 r j) + x1 (ix2 r j) * x2 (ix2 r (0 : Fin 1))) + x3 (ix2 (0 : Fin 1) j) := by
  unfold k2_pay1
  simp only [shapeCast_self]
  rw [addf_apply, addf_apply, mulf_apply, broadcastTo_a1_ab_apply, broadcastTo_1b_ab_apply]

/-- The combine body on blocks that are the arrays read at `e y` is the combine stage at `e y`. -/
theorem pay2_spec (A0 A1 : Cert.Spec.F32 S50000x128) (A2 : Cert.Spec.F32 S50000x1) (A3 : Cert.Spec.F32 S1x128)
    (x0 x1 : Vec Ideal S5000x128 .f32) (x2 : Vec Ideal S5000x1 .f32) (x3 : Vec Ideal S1x128 .f32)
    (e : S5000x128.Idx → S50000x128.Idx)
    (h0 : ∀ y, x0 y = A0 (e y)) (h1 : ∀ y, x1 y = A1 (e y))
    (h2 : ∀ (r : Fin 5000) (j : Fin 128), x2 (ix2 r (0 : Fin 1)) = A2 (ix2 (n0 := 50000) (n1 := 1) (e (ix2 r j) 0) 0))
    (h3 : ∀ (r : Fin 5000) (j : Fin 128), x3 (ix2 (0 : Fin 1) j) = A3 (ix2 (n0 := 1) (n1 := 128) 0 (e (ix2 r j) 1)))
    (y : S5000x128.Idx) :
    k2_pay1 x0 x1 x2 x3 y = Cert.Spec.combine A0 A1 A2 A3 (e y) := by
  obtain ⟨r, j, rfl⟩ : ∃ (r : Fin 5000) (j : Fin 128), y = ix2 r j := ⟨y 0, y 1, eq_ix2 y⟩
  rw [k2_pay1_apply, h0, h1, h2 r j, h3 r j]
  rfl

/-! The index maps over the grid: the row-tiled windows sit at block `(t, 0)`, the resident bias at `(0, 0)`. -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)

/-- Window 0's block at point `t` is its array on the rows the output's block covers. -/
theorem blk2_0 (V : (c : Dev nD) → (b : Ref sig .tc) → Buf (Elt Ideal) ((c : Thread nD τ).loc b)) (c : Dev nD) (t : Fin cfg2.N) (y : S5000x128.Idx) :
    iblk2 V c 0 t y = V c (Pipeline.arrRef spec2 0) (((cfg2.win 4).blk t).view.emb y) := by
  obtain ⟨a0, a1⟩ := idx2_0 t
  obtain ⟨o0, o1⟩ := idx2_4 t
  show V c (Pipeline.arrRef spec2 0) (((cfg2.win 0).blk t).view.emb y) = V c (Pipeline.arrRef spec2 0) (((cfg2.win 4).blk t).view.emb y)
  refine congrArg _ (funext fun a => Fin.ext ?_)
  match a with
  | ⟨0, _⟩ => show win2_0.index t (0 : Fin 2) * 5000 + 1 * (y 0).val = win2_4.index t (0 : Fin 2) * 5000 + 1 * (y 0).val; omega
  | ⟨1, _⟩ => show win2_0.index t (1 : Fin 2) * 128 + 1 * (y 1).val = win2_4.index t (1 : Fin 2) * 128 + 1 * (y 1).val; omega

/-- Window 1's block at point `t` is its array on the rows the output's block covers. -/
theorem blk2_1 (V : (c : Dev nD) → (b : Ref sig .tc) → Buf (Elt Ideal) ((c : Thread nD τ).loc b)) (c : Dev nD) (t : Fin cfg2.N) (y : S5000x128.Idx) :
    iblk2 V c 1 t y = V c (Pipeline.arrRef spec2 1) (((cfg2.win 4).blk t).view.emb y) := by
  obtain ⟨a0, a1⟩ := idx2_1 t
  obtain ⟨o0, o1⟩ := idx2_4 t
  show V c (Pipeline.arrRef spec2 1) (((cfg2.win 1).blk t).view.emb y) = V c (Pipeline.arrRef spec2 1) (((cfg2.win 4).blk t).view.emb y)
  refine congrArg _ (funext fun a => Fin.ext ?_)
  match a with
  | ⟨0, _⟩ => show win2_1.index t (0 : Fin 2) * 5000 + 1 * (y 0).val = win2_4.index t (0 : Fin 2) * 5000 + 1 * (y 0).val; omega
  | ⟨1, _⟩ => show win2_1.index t (1 : Fin 2) * 128 + 1 * (y 1).val = win2_4.index t (1 : Fin 2) * 128 + 1 * (y 1).val; omega

/-- Window 2's block at point `t` is its one-column array on the rows the output's block covers. -/
theorem blk2_2 (V : (c : Dev nD) → (b : Ref sig .tc) → Buf (Elt Ideal) ((c : Thread nD τ).loc b)) (c : Dev nD) (t : Fin cfg2.N) (r : Fin 5000) (j : Fin 128) :
    iblk2 V c 2 t (ix2 r (0 : Fin 1))
      = V c (Pipeline.arrRef spec2 2) (ix2 (n0 := 50000) (n1 := 1) ((((cfg2.win 4).blk t).view.emb (ix2 r j)) 0) 0) := by
  obtain ⟨a0, a1⟩ := idx2_2 t
  obtain ⟨o0, o1⟩ := idx2_4 t
  show V c (Pipeline.arrRef spec2 2) (((cfg2.win 2).blk t).view.emb (ix2 r (0 : Fin 1))) = _
  refine congrArg _ (funext fun a => Fin.ext ?_)
  match a with
  | ⟨0, _⟩ => show win2_2.index t (0 : Fin 2) * 5000 + 1 * r.val = win2_4.index t (0 : Fin 2) * 5000 + 1 * r.val; omega
  | ⟨1, _⟩ => show win2_2.index t (1 : Fin 2) * 1 + 1 * 0 = 0; omega

/-- Window 3 is resident: its block at every point is its whole one-row array. -/
theorem blk2_3 (V : (c : Dev nD) → (b : Ref sig .tc) → Buf (Elt Ideal) ((c : Thread nD τ).loc b)) (c : Dev nD) (t : Fin cfg2.N) (r : Fin 5000) (j : Fin 128) :
    iblk2 V c 3 t (ix2 (0 : Fin 1) j)
      = V c (Pipeline.arrRef spec2 3) (ix2 (n0 := 1) (n1 := 128) 0 ((((cfg2.win 4).blk t).view.emb (ix2 r j)) 1)) := by
  obtain ⟨a0, a1⟩ := idx2_3 t
  obtain ⟨o0, o1⟩ := idx2_4 t
  show V c (Pipeline.arrRef spec2 3) (((cfg2.win 3).blk t).view.emb (ix2 (0 : Fin 1) j)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * j.val = win2_4.index t (1 : Fin 2) * 128 + 1 * j.val; omega

/-- What point `t` writes back is block `t` of the combine stage of the input arrays. -/
theorem flushed2_eq (V : (c : Dev nD) → (b : Ref sig .tc) → Buf (Elt Ideal) ((c : Thread nD τ).loc b)) (c : Dev nD) (t : Fin cfg2.N) :
    (dat2 (F := Ideal) V c).flushed 4 t = ((cfg2.win 4).blk t).view.read (Elt Ideal)
      (Cert.Spec.combine (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S1x128) hz]
  funext y
  exact pay2_spec (V c (Pipeline.arrRef spec2 0)) (V c (Pipeline.arrRef spec2 1)) (V c (Pipeline.arrRef spec2 2)) (V c (Pipeline.arrRef spec2 3))
    (iblk2 V c 0 t) (iblk2 V c 1 t) (iblk2 V c 2 t) (iblk2 V c 3 t)
    (fun y => ((cfg2.win 4).blk t).view.emb y) (blk2_0 V c t) (blk2_1 V c t) (blk2_2 V c t) (blk2_3 V c t) y

/-- An index of the output array is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v49).slice (win2_4.rect t)).set ↔ _
  rw [View.set_slice_whole, Rect.mem_set_unit]
  exact Iff.rfl

/-- The ten row tiles cover the output array: row `r` lies in tile `r / 5000`. -/
theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨o0, o1⟩ := idx2_4 ⟨(i 0).val / 5000, ht⟩
  refine ⟨⟨(i 0).val / 5000, ht⟩, flush2_4 _, ?_⟩
  rw [mem_blk2]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win2_4.index ⟨(i 0).val / 5000, ht⟩ (1 : Fin 2) * 128 ≤ (i 1).val ∧ (i 1).val < win2_4.index ⟨(i 0).val / 5000, ht⟩ (1 : Fin 2) * 128 + 128
    rw [o1]; omega

theorem region2_value (V : (c : Dev nD) → (b : Ref sig .tc) → Buf (Elt Ideal) ((c : Thread nD τ).loc b)) (c : Dev nD) :
    (dat2 (F := Ideal) V c).arrAt 4 cfg2.N
      = Cert.Spec.combine (V c (Pipeline.arrRef spec2 0)) (V c (Pipeline.arrRef spec2 1)) (V c (Pipeline.arrRef spec2 2)) (V c (Pipeline.arrRef spec2 3)) :=
  (dat2 V c).arrAt_eq_of_cover 4 _ (fun t _ => flushed2_eq V c t) cover2

/-! ## Region 3: batch normalisation and rectifier -/

/-- The batch-normalisation body at an entry: centre, scale by the inverse deviation, scale and shift, rectify. -/
theorem k3_pay1_apply (x0 : Vec Ideal S5000x128 .f32) (x1 x2 x3 x4 : Vec Ideal S1x128 .f32) (r : Fin 5000) (j : Fin 128) :
    k3_pay1 x0 x1 x2 x3 x4 (ix2 r j)
      = max (((x0 (ix2 r j) - x1 (ix2 (0 : Fin 1) j))
            * Ideal.rsqrt (x2 (ix2 (0 : Fin 1) j) + Ideal.ofBits .f32 0x3727C5AC#32))
          * x3 (ix2 (0 : Fin 1) j) + x4 (ix2 (0 : Fin 1) j)) (Ideal.ofBits .f32 0x00000000#32) := by
  unfold k3_pay1
  simp only [shapeCast_self]
  rw [maximumf_apply, addf_apply, mulf_apply, mulf_apply, rsqrt_apply, addf_apply, subf_apply,
    broadcastTo_1b_ab_apply, broadcastTo_1b_ab_apply, broadcastTo_1b_ab_apply, broadcastTo_1b_ab_apply]
  rfl

/-- The body on blocks that are the arrays read at `e y` is the normalisation stage at `e y`. -/
theorem pay3_spec (A0 : Cert.Spec.F32 S50000x128) (A1 A2 A3 A4 : Cert.Spec.F32 S1x128)
    (x0 : Vec Ideal S5000x128 .f32) (x1 x2 x3 x4 : Vec Ideal S1x128 .f32)
    (e : S5000x128.Idx → S50000x128.Idx)
    (h0 : ∀ y, x0 y = A0 (e y))
    (h1 : ∀ (r : Fin 5000) (j : Fin 128), x1 (ix2 (0 : Fin 1) j) = A1 (ix2 (n0 := 1) (n1 := 128) 0 (e (ix2 r j) 1)))
    (h2 : ∀ (r : Fin 5000) (j : Fin 128), x2 (ix2 (0 : Fin 1) j) = A2 (ix2 (n0 := 1) (n1 := 128) 0 (e (ix2 r j) 1)))
    (h3 : ∀ (r : Fin 5000) (j : Fin 128), x3 (ix2 (0 : Fin 1) j) = A3 (ix2 (n0 := 1) (n1 := 128) 0 (e (ix2 r j) 1)))
    (h4 : ∀ (r : Fin 5000) (j : Fin 128), x4 (ix2 (0 : Fin 1) j) = A4 (ix2 (n0 := 1) (n1 := 128) 0 (e (ix2 r j) 1)))
    (y : S5000x128.Idx) :
    k3_pay1 x0 x1 x2 x3 x4 y = Cert.Spec.bnRelu A0 A1 A2 A3 A4 (e y) := by
  obtain ⟨r, j, rfl⟩ : ∃ (r : Fin 5000) (j : Fin 128), y = ix2 r j := ⟨y 0, y 1, eq_ix2 y⟩
  rw [k3_pay1_apply, h0, h1 r j, h2 r j, h3 r j, h4 r j]
  rfl

/-! The index maps over the grid: the row-tiled windows sit at block `(t, 0)`, the resident rows at `(0, 0)`. -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = t.val ∧ win3_5.index t (1 : Fin 2) = 0 :=
  (by decide +kernel : ∀ t : Fin grid3.N, _)

/-- Window 0's block at point `t` is its array on the rows the output's block covers. -/
theorem blk3_0 (V : (c : Dev nD) → (b : Ref sig .tc) → Buf (Elt Ideal) ((c : Thread nD τ).loc b)) (c : Dev nD) (t : Fin cfg3.N) (y : S5000x128.Idx) :
    iblk3 V c 0 t y = V c (Pipeline.arrRef spec3 0) (((cfg3.win 5).blk t).view.emb y) := by
  obtain ⟨a0, a1⟩ := idx3_0 t
  obtain ⟨o0, o1⟩ := idx3_5 t
  show V c (Pipeline.arrRef spec3 0) (((cfg3.win 0).blk t).view.emb y) = V c (Pipeline.arrRef spec3 0) (((cfg3.win 5).blk t).view.emb y)
  refine congrArg _ (funext fun a => Fin.ext ?_)
  match a with
  | ⟨0, _⟩ => show win3_0.index t (0 : Fin 2) * 5000 + 1 * (y 0).val = win3_5.index t (0 : Fin 2) * 5000 + 1 * (y 0).val; omega
  | ⟨1, _⟩ => show win3_0.index t (1 : Fin 2) * 128 + 1 * (y 1).val = win3_5.index t (1 : Fin 2) * 128 + 1 * (y 1).val; omega

/-- Window 1 is resident: its block at every point is its whole one-row array. -/
theorem blk3_1 (V : (c : Dev nD) → (b : Ref sig .tc) → Buf (Elt Ideal) ((c : Thread nD τ).loc b)) (c : Dev nD) (t : Fin cfg3.N) (r : Fin 5000) (j : Fin 128) :
    iblk3 V c 1 t (ix2 (0 : Fin 1) j)
      = V c (Pipeline.arrRef spec3 1) (ix2 (n0 := 1) (n1 := 128) 0 ((((cfg3.win 5).blk t).view.emb (ix2 r j)) 1)) := by
  obtain ⟨a0, a1⟩ := idx3_1 t
  obtain ⟨o0, o1⟩ := idx3_5 t
  show V c (Pipeline.arrRef spec3 1) (((cfg3.win 1).blk t).view.emb (ix2 (0 : Fin 1) j)) = _
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * j.val = win3_5.index t (1 : Fin 2) * 128 + 1 * j.val; omega

/-- Window 2 is resident: its block at every point is its whole one-row array. -/
theorem blk3_2 (V : (c : Dev nD) → (b : Ref sig .tc) → Buf (Elt Ideal) ((c : Thread nD τ).loc b)) (c : Dev nD) (t : Fin cfg3.N) (r : Fin 5000) (j : Fin 128) :
    iblk3 V c 2 t (ix2 (0 : Fin 1) j)
      = V c (Pipeline.arrRef spec3 2) (ix2 (n0 := 1) (n1 := 128) 0 ((((cfg3.win 5).blk t).view.emb (ix2 r j)) 1)) := by
  obtain ⟨a0, a1⟩ := idx3_2 t
  obtain ⟨o0, o1⟩ := idx3_5 t
  show V c (Pipeline.arrRef spec3 2) (((cfg3.win 2).blk t).view.emb (ix2 (0 : Fin 1) j)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * j.val = win3_5.index t (1 : Fin 2) * 128 + 1 * j.val; omega

/-- Window 3 is resident: its block at every point is its whole one-row array. -/
theorem blk3_3 (V : (c : Dev nD) → (b : Ref sig .tc) → Buf (Elt Ideal) ((c : Thread nD τ).loc b)) (c : Dev nD) (t : Fin cfg3.N) (r : Fin 5000) (j : Fin 128) :
    iblk3 V c 3 t (ix2 (0 : Fin 1) j)
      = V c (Pipeline.arrRef spec3 3) (ix2 (n0 := 1) (n1 := 128) 0 ((((cfg3.win 5).blk t).view.emb (ix2 r j)) 1)) := by
  obtain ⟨a0, a1⟩ := idx3_3 t
  obtain ⟨o0, o1⟩ := idx3_5 t
  show V c (Pipeline.arrRef spec3 3) (((cfg3.win 3).blk t).view.emb (ix2 (0 : Fin 1) j)) = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * j.val = win3_5.index t (1 : Fin 2) * 128 + 1 * j.val; omega

/-- Window 4 is resident: its block at every point is its whole one-row array. -/
theorem blk3_4 (V : (c : Dev nD) → (b : Ref sig .tc) → Buf (Elt Ideal) ((c : Thread nD τ).loc b)) (c : Dev nD) (t : Fin cfg3.N) (r : Fin 5000) (j : Fin 128) :
    iblk3 V c 4 t (ix2 (0 : Fin 1) j)
      = V c (Pipeline.arrRef spec3 4) (ix2 (n0 := 1) (n1 := 128) 0 ((((cfg3.win 5).blk t).view.emb (ix2 r j)) 1)) := by
  obtain ⟨a0, a1⟩ := idx3_4 t
  obtain ⟨o0, o1⟩ := idx3_5 t
  show V c (Pipeline.arrRef spec3 4) (((cfg3.win 4).blk t).view.emb (ix2 (0 : Fin 1) j)) = _
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * j.val = win3_5.index t (1 : Fin 2) * 128 + 1 * j.val; omega

/-- What point `t` writes back is block `t` of the normalisation stage of the input arrays. -/
theorem flushed3_eq (V : (c : Dev nD) → (b : Ref sig .tc) → Buf (Elt Ideal) ((c : Thread nD τ).loc b)) (c : Dev nD) (t : Fin cfg3.N) :
    (dat3 (F := Ideal) V c).flushed 5 t = ((cfg3.win 5).blk t).view.read (Elt Ideal)
      (Cert.Spec.bnRelu (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext y
  exact pay3_spec (V c (Pipeline.arrRef spec3 0)) (V c (Pipeline.arrRef spec3 1)) (V c (Pipeline.arrRef spec3 2)) (V c (Pipeline.arrRef spec3 3)) (V c (Pipeline.arrRef spec3 4))
    (iblk3 V c 0 t) (iblk3 V c 1 t) (iblk3 V c 2 t) (iblk3 V c 3 t) (iblk3 V c 4 t)
    (fun y => ((cfg3.win 5).blk t).view.emb y) (blk3_0 V c t) (blk3_1 V c t) (blk3_2 V c t) (blk3_3 V c t) (blk3_4 V c t) y

/-- An index of the output array is in point `t`'s block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v67).slice (win3_5.rect t)).set ↔ _
  rw [View.set_slice_whole, Rect.mem_set_unit]
  exact Iff.rfl

/-- The ten row tiles cover the output array: row `r` lies in tile `r / 5000`. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨o0, o1⟩ := idx3_5 ⟨(i 0).val / 5000, ht⟩
  refine ⟨⟨(i 0).val / 5000, ht⟩, flush3_5 _, ?_⟩
  rw [mem_blk3]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [o1]; omega

theorem region3_value (V : (c : Dev nD) → (b : Ref sig .tc) → Buf (Elt Ideal) ((c : Thread nD τ).loc b)) (c : Dev nD) :
    (dat3 (F := Ideal) V c).arrAt 5 cfg3.N
      = Cert.Spec.bnRelu (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_eq V c t) cover3

/-! ## Region 5: the combine kernel -/

/-- The combine body at an entry: neighbourhood sum plus self-loop term plus bias. -/
theorem k5_pay1_apply (x0 x1 : Vec Ideal S5000x128 .f32) (x2 : Vec Ideal S5000x1 .f32) (x3 : Vec Ideal S1x128 .f32)
    (r : Fin 5000) (j : Fin 128) :
    k5_pay1 x0 x1 x2 x3 (ix2 r j)
      = (x0 (ix2 r j) + x1 (ix2 r j) * x2 (ix2 r (0 : Fin 1))) + x3 (ix2 (0 : Fin 1) j) := by
  unfold k5_pay1
  simp only [shapeCast_self]
  rw [addf_apply, addf_apply, mulf_apply, broadcastTo_a1_ab_apply, broadcastTo_1b_ab_apply]

/-- The combine body on blocks that are the arrays read at `e y` is the combine stage at `e y`. -/
theorem pay5_spec (A0 A1 : Cert.Spec.F32 S50000x128) (A2 : Cert.Spec.F32 S50000x1) (A3 : Cert.Spec.F32 S1x128)
    (x0 x1 : Vec Ideal S5000x128 .f32) (x2 : Vec Ideal S5000x1 .f32) (x3 : Vec Ideal S1x128 .f32)
    (e : S5000x128.Idx → S50000x128.Idx)
    (h0 : ∀ y, x0 y = A0 (e y)) (h1 : ∀ y, x1 y = A1 (e y))
    (h2 : ∀ (r : Fin 5000) (j : Fin 128), x2 (ix2 r (0 : Fin 1)) = A2 (ix2 (n0 := 50000) (n1 := 1) (e (ix2 r j) 0) 0))
    (h3 : ∀ (r : Fin 5000) (j : Fin 128), x3 (ix2 (0 : Fin 1) j) = A3 (ix2 (n0 := 1) (n1 := 128) 0 (e (ix2 r j) 1)))
    (y : S5000x128.Idx) :
    k5_pay1 x0 x1 x2 x3 y = Cert.Spec.combine A0 A1 A2 A3 (e y) := by
  obtain ⟨r, j, rfl⟩ : ∃ (r : Fin 5000) (j : Fin 128), y = ix2 r j := ⟨y 0, y 1, eq_ix2 y⟩
  rw [k5_pay1_apply, h0, h1, h2 r j, h3 r j]
  rfl

/-! The index maps over the grid: the row-tiled windows sit at block `(t, 0)`, the resident bias at `(0, 0)`. -/

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = t.val ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = t.val ∧ win5_4.index t (1 : Fin 2) = 0 :=
  (by decide +kernel : ∀ t : Fin grid5.N, _)

/-- Window 0's block at point `t` is its array on the rows the output's block covers. -/
theorem blk5_0 (V : (c : Dev nD) → (b : Ref sig .tc) → Buf (Elt Ideal) ((c : Thread nD τ).loc b)) (c : Dev nD) (t : Fin cfg5.N) (y : S5000x128.Idx) :
    iblk5 V c 0 t y = V c (Pipeline.arrRef spec5 0) (((cfg5.win 4).blk t).view.emb y) := by
  obtain ⟨a0, a1⟩ := idx5_0 t
  obtain ⟨o0, o1⟩ := idx5_4 t
  show V c (Pipeline.arrRef spec5 0) (((cfg5.win 0).blk t).view.emb y) = V c (Pipeline.arrRef spec5 0) (((cfg5.win 4).blk t).view.emb y)
  refine congrArg _ (funext fun a => Fin.ext ?_)
  match a with
  | ⟨0, _⟩ => show win5_0.index t (0 : Fin 2) * 5000 + 1 * (y 0).val = win5_4.index t (0 : Fin 2) * 5000 + 1 * (y 0).val; omega
  | ⟨1, _⟩ => show win5_0.index t (1 : Fin 2) * 128 + 1 * (y 1).val = win5_4.index t (1 : Fin 2) * 128 + 1 * (y 1).val; omega

/-- Window 1's block at point `t` is its array on the rows the output's block covers. -/
theorem blk5_1 (V : (c : Dev nD) → (b : Ref sig .tc) → Buf (Elt Ideal) ((c : Thread nD τ).loc b)) (c : Dev nD) (t : Fin cfg5.N) (y : S5000x128.Idx) :
    iblk5 V c 1 t y = V c (Pipeline.arrRef spec5 1) (((cfg5.win 4).blk t).view.emb y) := by
  obtain ⟨a0, a1⟩ := idx5_1 t
  obtain ⟨o0, o1⟩ := idx5_4 t
  show V c (Pipeline.arrRef spec5 1) (((cfg5.win 1).blk t).view.emb y) = V c (Pipeline.arrRef spec5 1) (((cfg5.win 4).blk t).view.emb y)
  refine congrArg _ (funext fun a => Fin.ext ?_)
  match a with
  | ⟨0, _⟩ => show win5_1.index t (0 : Fin 2) * 5000 + 1 * (y 0).val = win5_4.index t (0 : Fin 2) * 5000 + 1 * (y 0).val; omega
  | ⟨1, _⟩ => show win5_1.index t (1 : Fin 2) * 128 + 1 * (y 1).val = win5_4.index t (1 : Fin 2) * 128 + 1 * (y 1).val; omega

/-- Window 2's block at point `t` is its one-column array on the rows the output's block covers. -/
theorem blk5_2 (V : (c : Dev nD) → (b : Ref sig .tc) → Buf (Elt Ideal) ((c : Thread nD τ).loc b)) (c : Dev nD) (t : Fin cfg5.N) (r : Fin 5000) (j : Fin 128) :
    iblk5 V c 2 t (ix2 r (0 : Fin 1))
      = V c (Pipeline.arrRef spec5 2) (ix2 (n0 := 50000) (n1 := 1) ((((cfg5.win 4).blk t).view.emb (ix2 r j)) 0) 0) := by
  obtain ⟨a0, a1⟩ := idx5_2 t
  obtain ⟨o0, o1⟩ := idx5_4 t
  show V c (Pipeline.arrRef spec5 2) (((cfg5.win 2).blk t).view.emb (ix2 r (0 : Fin 1))) = _
  refine congrArg _ (funext fun a => Fin.ext ?_)
  match a with
  | ⟨0, _⟩ => show win5_2.index t (0 : Fin 2) * 5000 + 1 * r.val = win5_4.index t (0 : Fin 2) * 5000 + 1 * r.val; omega
  | ⟨1, _⟩ => show win5_2.index t (1 : Fin 2) * 1 + 1 * 0 = 0; omega

/-- Window 3 is resident: its block at every point is its whole one-row array. -/
theorem blk5_3 (V : (c : Dev nD) → (b : Ref sig .tc) → Buf (Elt Ideal) ((c : Thread nD τ).loc b)) (c : Dev nD) (t : Fin cfg5.N) (r : Fin 5000) (j : Fin 128) :
    iblk5 V c 3 t (ix2 (0 : Fin 1) j)
      = V c (Pipeline.arrRef spec5 3) (ix2 (n0 := 1) (n1 := 128) 0 ((((cfg5.win 4).blk t).view.emb (ix2 r j)) 1)) := by
  obtain ⟨a0, a1⟩ := idx5_3 t
  obtain ⟨o0, o1⟩ := idx5_4 t
  show V c (Pipeline.arrRef spec5 3) (((cfg5.win 3).blk t).view.emb (ix2 (0 : Fin 1) j)) = _
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * j.val = win5_4.index t (1 : Fin 2) * 128 + 1 * j.val; omega

/-- What point `t` writes back is block `t` of the combine stage of the input arrays. -/
theorem flushed5_eq (V : (c : Dev nD) → (b : Ref sig .tc) → Buf (Elt Ideal) ((c : Thread nD τ).loc b)) (c : Dev nD) (t : Fin cfg5.N) :
    (dat5 (F := Ideal) V c).flushed 4 t = ((cfg5.win 4).blk t).view.read (Elt Ideal)
      (Cert.Spec.combine (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S5000x128) hz, View.ld_unit_zero (S := S5000x1) hz, View.ld_unit_zero (S := S1x128) hz]
  funext y
  exact pay5_spec (V c (Pipeline.arrRef spec5 0)) (V c (Pipeline.arrRef spec5 1)) (V c (Pipeline.arrRef spec5 2)) (V c (Pipeline.arrRef spec5 3))
    (iblk5 V c 0 t) (iblk5 V c 1 t) (iblk5 V c 2 t) (iblk5 V c 3 t)
    (fun y => ((cfg5.win 4).blk t).view.emb y) (blk5_0 V c t) (blk5_1 V c t) (blk5_2 V c t) (blk5_3 V c t) y

/-- An index of the output array is in point `t`'s block iff each coordinate is in the block's range on its axis. -/
theorem mem_blk5 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v87).slice (win5_4.rect t)).set ↔ _
  rw [View.set_slice_whole, Rect.mem_set_unit]
  exact Iff.rfl

/-- The ten row tiles cover the output array: row `r` lies in tile `r / 5000`. -/
theorem cover5 (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 10 := N_5
  have ht : (i 0).val / 5000 < cfg5.N := by rw [hN]; omega
  obtain ⟨o0, o1⟩ := idx5_4 ⟨(i 0).val / 5000, ht⟩
  refine ⟨⟨(i 0).val / 5000, ht⟩, flush5_4 _, ?_⟩
  rw [mem_blk5]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win5_4.index ⟨(i 0).val / 5000, ht⟩ (1 : Fin 2) * 128 ≤ (i 1).val ∧ (i 1).val < win5_4.index ⟨(i 0).val / 5000, ht⟩ (1 : Fin 2) * 128 + 128
    rw [o1]; omega

theorem region5_value (V : (c : Dev nD) → (b : Ref sig .tc) → Buf (Elt Ideal) ((c : Thread nD τ).loc b)) (c : Dev nD) :
    (dat5 (F := Ideal) V c).arrAt 4 cfg5.N
      = Cert.Spec.combine (V c (Pipeline.arrRef spec5 0)) (V c (Pipeline.arrRef spec5 1)) (V c (Pipeline.arrRef spec5 2)) (V c (Pipeline.arrRef spec5 3)) :=
  (dat5 V c).arrAt_eq_of_cover 4 _ (fun t _ => flushed5_eq V c t) cover5

/-! ## Region 6: batch normalisation, rectifier and residual -/

/-- The batch-normalisation body with the residual at an entry. -/
theorem k6_pay1_apply (x0 : Vec Ideal S5000x128 .f32) (x1 x2 x3 x4 : Vec Ideal S1x128 .f32) (x5 : Vec Ideal S5000x128 .f32)
    (r : Fin 5000) (j : Fin 128) :
    k6_pay1 x0 x1 x2 x3 x4 x5 (ix2 r j)
      = max (((x0 (ix2 r j) - x1 (ix2 (0 : Fin 1) j))
            * Ideal.rsqrt (x2 (ix2 (0 : Fin 1) j) + Ideal.ofBits .f32 0x3727C5AC#32))
          * x3 (ix2 (0 : Fin 1) j) + x4 (ix2 (0 : Fin 1) j)) (Ideal.ofBits .f32 0x00000000#32) + x5 (ix2 r j) := by
  unfold k6_pay1
  simp only [shapeCast_self]
  rw [addf_apply, maximumf_apply, addf_apply, mulf_apply, mulf_apply, rsqrt_apply, addf_apply, subf_apply,
    broadcastTo_1b_ab_apply, broadcastTo_1b_ab_apply, broadcastTo_1b_ab_apply, broadcastTo_1b_ab_apply]
  rfl

/-- The body on blocks that are the arrays read at `e y` is the normalisation stage with its residual at `e y`. -/
theorem pay6_spec (A0 : Cert.Spec.F32 S50000x128) (A1 A2 A3 A4 : Cert.Spec.F32 S1x128) (A5 : Cert.Spec.F32 S50000x128)
    (x0 : Vec Ideal S5000x128 .f32) (x1 x2 x3 x4 : Vec Ideal S1x128 .f32) (x5 : Vec Ideal S5000x128 .f32)
    (e : S5000x128.Idx → S50000x128.Idx)
    (h0 : ∀ y, x0 y = A0 (e y))
    (h1 : ∀ (r : Fin 5000) (j : Fin 128), x1 (ix2 (0 : Fin 1) j) = A1 (ix2 (n0 := 1) (n1 := 128) 0 (e (ix2 r j) 1)))
    (h2 : ∀ (r : Fin 5000) (j : Fin 128), x2 (ix2 (0 : Fin 1) j) = A2 (ix2 (n0 := 1) (n1 := 128) 0 (e (ix2 r j) 1)))
    (h3 : ∀ (r : Fin 5000) (j : Fin 128), x3 (ix2 (0 : Fin 1) j) = A3 (ix2 (n0 := 1) (n1 := 128) 0 (e (ix2 r j) 1)))
    (h4 : ∀ (r : Fin 5000) (j : Fin 128), x4 (ix2 (0 : Fin 1) j) = A4 (ix2 (n0 := 1) (n1 := 128) 0 (e (ix2 r j) 1)))
    (h5 : ∀ y, x5 y = A5 (e y))
    (y : S5000x128.Idx) :
    k6_pay1 x0 x1 x2 x3 x4 x5 y = Cert.Spec.bnReluRes A0 A1 A2 A3 A4 A5 (e y) := by
  obtain ⟨r, j, rfl⟩ : ∃ (r : Fin 5000) (j : Fin 128), y = ix2 r j := ⟨y 0, y 1, eq_ix2 y⟩
  rw [k6_pay1_apply, h0, h1 r j, h2 r j, h3 r j, h4 r j, h5]
  rfl

/-! The index maps over the grid: the row-tiled windows sit at block `(t, 0)`, the resident rows at `(0, 0)`. -/

theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = 0 ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_5 : ∀ t : Fin cfg6.N, win6_5.index t (0 : Fin 2) = t.val ∧ win6_5.index t (1 : Fin 2) = 0 :=
  (by decide +kernel : ∀ t : Fin grid6.N, _)
theorem idx6_6 : ∀ t : Fin cfg6.N, win6_6.index t (0 : Fin 2) = t.val ∧ win6_6.index t (1 : Fin 2) = 0 :=
  (by decide +kernel : ∀ t : Fin grid6.N, _)

/-- Window 0's block at point `t` is its array on the rows the output's block covers. -/
theorem blk6_0 (V : (c : Dev nD) → (b : Ref sig .tc) → Buf (Elt Ideal) ((c : Thread nD τ).loc b)) (c : Dev nD) (t : Fin cfg6.N) (y : S5000x128.Idx) :
    iblk6 V c 0 t y = V c (Pipeline.arrRef spec6 0) (((cfg6.win 6).blk t).view.emb y) := by
  obtain ⟨a0, a1⟩ := idx6_0 t
  obtain ⟨o0, o1⟩ := idx6_6 t
  show V c (Pipeline.arrRef spec6 0) (((cfg6.win 0).blk t).view.emb y) = V c (Pipeline.arrRef spec6 0) (((cfg6.win 6).blk t).view.emb y)
  refine congrArg _ (funext fun a => Fin.ext ?_)
  match a with
  | ⟨0, _⟩ => show win6_0.index t (0 : Fin 2) * 5000 + 1 * (y 0).val = win6_6.index t (0 : Fin 2) * 5000 + 1 * (y 0).val; omega
  | ⟨1, _⟩ => show win6_0.index t (1 : Fin 2) * 128 + 1 * (y 1).val = win6_6.index t (1 : Fin 2) * 128 + 1 * (y 1).val; omega

/-- Window 1 is resident: its block at every point is its whole one-row array. -/
theorem blk6_1 (V : (c : Dev nD) → (b : Ref sig .tc) → Buf (Elt Ideal) ((c : Thread nD τ).loc b)) (c : Dev nD) (t : Fin cfg6.N) (r : Fin 5000) (j : Fin 128) :
    iblk6 V c 1 t (ix2 (0 : Fin 1) j)
      = V c (Pipeline.arrRef spec6 1) (ix2 (n0 := 1) (n1 := 128) 0 ((((cfg6.win 6).blk t).view.emb (ix2 r j)) 1)) := by
  obtain ⟨a0, a1⟩ := idx6_1 t
  obtain ⟨o0, o1⟩ := idx6_6 t
  show V c (Pipeline.arrRef spec6 1) (((cfg6.win 1).blk t).view.emb (ix2 (0 : Fin 1) j)) = _
  refine congrArg _ (funext fun a => Fin.ext ?_)
  match a with
  | ⟨0, _⟩ => show win6_1.index t (0 : Fin 2) * 1 + 1 * 0 = 0; omega
  | ⟨1, _⟩ => show win6_1.index t (1 : Fin 2) * 128 + 1 * j.val = win6_6.index t (1 : Fin 2) * 128 + 1 * j.val; omega

/-- Window 2 is resident: its block at every point is its whole one-row array. -/
theorem blk6_2 (V : (c : Dev nD) → (b : Ref sig .tc) → Buf (Elt Ideal) ((c : Thread nD τ).loc b)) (c : Dev nD) (t : Fin cfg6.N) (r : Fin 5000) (j : Fin 128) :
    iblk6 V c 2 t (ix2 (0 : Fin 1) j)
      = V c (Pipeline.arrRef spec6 2) (ix2 (n0 := 1) (n1 := 128) 0 ((((cfg6.win 6).blk t).view.emb (ix2 r j)) 1)) := by
  obtain ⟨a0, a1⟩ := idx6_2 t
  obtain ⟨o0, o1⟩ := idx6_6 t
  show V c (Pipeline.arrRef spec6 2) (((cfg6.win 2).blk t).view.emb (ix2 (0 : Fin 1) j)) = _
  refine congrArg _ (funext fun a => Fin.ext ?_)
  match a with
  | ⟨0, _⟩ => show win6_2.index t (0 : Fin 2) * 1 + 1 * 0 = 0; omega
  | ⟨1, _⟩ => show win6_2.index t (1 : Fin 2) * 128 + 1 * j.val = win6_6.index t (1 : Fin 2) * 128 + 1 * j.val; omega

/-- Window 3 is resident: its block at every point is its whole one-row array. -/
theorem blk6_3 (V : (c : Dev nD) → (b : Ref sig .tc) → Buf (Elt Ideal) ((c : Thread nD τ).loc b)) (c : Dev nD) (t : Fin cfg6.N) (r : Fin 5000) (j : Fin 128) :
    iblk6 V c 3 t (ix2 (0 : Fin 1) j)
      = V c (Pipeline.arrRef spec6 3) (ix2 (n0 := 1) (n1 := 128) 0 ((((cfg6.win 6).blk t).view.emb (ix2 r j)) 1)) := by
  obtain ⟨a0, a1⟩ := idx6_3 t
  obtain ⟨o0, o1⟩ := idx6_6 t
  show V c (Pipeline.arrRef spec6 3) (((cfg6.win 3).blk t).view.emb (ix2 (0 : Fin 1) j)) = _
  refine congrArg _ (funext fun a => Fin.ext ?_)
  match a with
  | ⟨0, _⟩ => show win6_3.index t (0 : Fin 2) * 1 + 1 * 0 = 0; omega
  | ⟨1, _⟩ => show win6_3.index t (1 : Fin 2) * 128 + 1 * j.val = win6_6.index t (1 : Fin 2) * 128 + 1 * j.val; omega

/-- Window 4 is resident: its block at every point is its whole one-row array. -/
theorem blk6_4 (V : (c : Dev nD) → (b : Ref sig .tc) → Buf (Elt Ideal) ((c : Thread nD τ).loc b)) (c : Dev nD) (t : Fin cfg6.N) (r : Fin 5000) (j : Fin 128) :
    iblk6 V c 4 t (ix2 (0 : Fin 1) j)
      = V c (Pipeline.arrRef spec6 4) (ix2 (n0 := 1) (n1 := 128) 0 ((((cfg6.win 6).blk t).view.emb (ix2 r j)) 1)) := by
  obtain ⟨a0, a1⟩ := idx6_4 t
  obtain ⟨o0, o1⟩ := idx6_6 t
  show V c (Pipeline.arrRef spec6 4) (((cfg6.win 4).blk t).view.emb (ix2 (0 : Fin 1) j)) = _
  refine congrArg _ (funext fun a => Fin.ext ?_)
  match a with
  | ⟨0, _⟩ => show win6_4.index t (0 : Fin 2) * 1 + 1 * 0 = 0; omega
  | ⟨1, _⟩ => show win6_4.index t (1 : Fin 2) * 128 + 1 * j.val = win6_6.index t (1 : Fin 2) * 128 + 1 * j.val; omega

/-- Window 5's block at point `t` is its array on the rows the output's block covers. -/
theorem blk6_5 (V : (c : Dev nD) → (b : Ref sig .tc) → Buf (Elt Ideal) ((c : Thread nD τ).loc b)) (c : Dev nD) (t : Fin cfg6.N) (y : S5000x128.Idx) :
    iblk6 V c 5 t y = V c (Pipeline.arrRef spec6 5) (((cfg6.win 6).blk t).view.emb y) := by
  obtain ⟨a0, a1⟩ := idx6_5 t
  obtain ⟨o0, o1⟩ := idx6_6 t
  show V c (Pipeline.arrRef spec6 5) (((cfg6.win 5).blk t).view.emb y) = V c (Pipeline.arrRef spec6 5) (((cfg6.win 6).blk t).view.emb y)
  refine congrArg _ (funext fun a => Fin.ext ?_)
  match a with
  | ⟨0, _⟩ => show win6_5.index t (0 : Fin 2) * 5000 + 1 * (y 0).val = win6_6.index t (0 : Fin 2) * 5000 + 1 * (y 0).val; omega
  | ⟨1, _⟩ => show win6_5.index t (1 : Fin 2) * 128 + 1 * (y 1).val = win6_6.index t (1 : Fin 2) * 128 + 1 * (y 1).val; omega

/-- What point `t` writes back is block `t` of the normalisation stage (with residual) of the input arrays. -/
theorem flushed6_eq (V : (c : Dev nD) → (b : Ref sig .tc) → Buf (Elt Ideal) ((c : Thread nD τ).loc b)) (c : Dev nD) (t : Fin cfg6.N) :
    (dat6 (F := Ideal) V c).flushed 6 t = ((cfg6.win 6).blk t).view.read (Elt Ideal)
      (Cert.Spec.bnReluRes (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) := by
  show (cfg6.win 6).cut (grid6.coords t) ((dat6 V c).after 6 t) = _
  rw [after6_6]
  unfold out6_6
  rw [View.canon_unit_zero hz]
  simp only [View.ld_unit_zero (S := S5000x128) hz, View.ld_unit_zero (S := S1x128) hz]
  funext y
  exact pay6_spec (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))
    (iblk6 V c 0 t) (iblk6 V c 1 t) (iblk6 V c 2 t) (iblk6 V c 3 t) (iblk6 V c 4 t) (iblk6 V c 5 t)
    (fun y => ((cfg6.win 6).blk t).view.emb y) (blk6_0 V c t) (blk6_1 V c t) (blk6_2 V c t) (blk6_3 V c t) (blk6_4 V c t) (blk6_5 V c t) y

/-- An index of the output array is in point `t`'s block iff each coordinate is in the block's range on its axis. -/
theorem mem_blk6 (t : Fin cfg6.N) (i : S50000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole main_v105).slice (win6_6.rect t)).set ↔ _
  rw [View.set_slice_whole, Rect.mem_set_unit]
  exact Iff.rfl

/-- The ten row tiles cover the output array: row `r` lies in tile `r / 5000`. -/
theorem cover6 (i : S50000x128.Idx) : ∃ t : Fin cfg6.N, (cfg6.win 6).flush t = true ∧ i ∈ ((cfg6.win 6).blk t).view.set := by
  have hi0 : (i 0).val < 50000 := (i 0).isLt
  have hi1 : (i 1).val < 128 := (i 1).isLt
  have hN : cfg6.N = 10 := N_6
  have ht : (i 0).val / 5000 < cfg6.N := by rw [hN]; omega
  obtain ⟨o0, o1⟩ := idx6_6 ⟨(i 0).val / 5000, ht⟩
  refine ⟨⟨(i 0).val / 5000, ht⟩, flush6_6 _, ?_⟩
  rw [mem_blk6]
  intro a
  match a with
  | ⟨0, _⟩ =>
    show win6_6.index ⟨(i 0).val / 5000, ht⟩ (0 : Fin 2) * 5000 ≤ (i 0).val ∧ (i 0).val < win6_6.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win6_6.index ⟨(i 0).val / 5000, ht⟩ (1 : Fin 2) * 128 ≤ (i 1).val ∧ (i 1).val < win6_6.index ⟨(i 0).val / 5000, ht⟩ (1 : Fin 2) * 128 + 128
    rw [o1]; omega

theorem region6_value (V : (c : Dev nD) → (b : Ref sig .tc) → Buf (Elt Ideal) ((c : Thread nD τ).loc b)) (c : Dev nD) :
    (dat6 (F := Ideal) V c).arrAt 6 cfg6.N
      = Cert.Spec.bnReluRes (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) :=
  (dat6 V c).arrAt_eq_of_cover 6 _ (fun t _ => flushed6_eq V c t) cover6

/-! ## Region 8: the combine kernel -/

/-- The combine body at an entry: neighbourhood sum plus self-loop term plus bias. -/
theorem k8_pay1_apply (x0 x1 : Vec Ideal S5000x128 .f32) (x2 : Vec Ideal S5000x1 .f32) (x3 : Vec Ideal S1x128 .f32)
    (r : Fin 5000) (j : Fin 128) :
    k8_pay1 x0 x1 x2 x3 (ix2 r j)
      = (x0 (ix2 r j) + x1 (ix2 r j) * x2 (ix2 r (0 : Fin 1))) + x3 (ix2 (0 : Fin 1) j) := by
  unfold k8_pay1
  simp only [shapeCast_self]
  rw [addf_apply, addf_apply, mulf_apply, broadcastTo_a1_ab_apply, broadcastTo_1b_ab_apply]

/-- The combine body on blocks that are the arrays read at `e y` is the combine stage at `e y`. -/
theorem pay8_spec (A0 A1 : Cert.Spec.F32 S50000x128) (A2 : Cert.Spec.F32 S50000x1) (A3 : Cert.Spec.F32 S1x128)
    (x0 x1 : Vec Ideal S5000x128 .f32) (x2 : Vec Ideal S5000x1 .f32) (x3 : Vec Ideal S1x128 .f32)
    (e : S5000x128.Idx → S50000x128.Idx)
    (h0 : ∀ y, x0 y = A0 (e y)) (h1 : ∀ y, x1 y = A1 (e y))
    (h2 : ∀ (r : Fin 5000) (j : Fin 128), x2 (ix2 r (0 : Fin 1)) = A2 (ix2 (n0 := 50000) (n1 := 1) (e (ix2 r j) 0) 0))
    (h3 : ∀ (r : Fin 5000) (j : Fin 128), x3 (ix2 (0 : Fin 1) j) = A3 (ix2 (n0 := 1) (n1 := 128) 0 (e (ix2 r j) 1)))
    (y : S5000x128.Idx) :
    k8_pay1 x0 x1 x2 x3 y = Cert.Spec.combine A0 A1 A2 A3 (e y) := by
  obtain ⟨r, j, rfl⟩ : ∃ (r : Fin 5000) (j : Fin 128), y = ix2 r j := ⟨y 0, y 1, eq_ix2 y⟩
  rw [k8_pay1_apply, h0, h1, h2 r j, h3 r j]
  rfl

/-! The index maps over the grid: the row-tiled windows sit at block `(t, 0)`, the resident bias at `(0, 0)`. -/

theorem idx8_0 : ∀ t : Fin cfg8.N, win8_0.index t (0 : Fin 2) = t.val ∧ win8_0.index t (1 : Fin 2) = 0 :=
  (by decide +kernel : ∀ t : Fin grid8.N, _)
theorem idx8_1 : ∀ t : Fin cfg8.N, win8_1.index t (0 : Fin 2) = t.val ∧ win8_1.index t (1 : Fin 2) = 0 :=
  (by decide +kernel : ∀ t : Fin grid8.N, _)
theorem idx8_2 : ∀ t : Fin cfg8.N, win8_2.index t (0 : Fin 2) = t.val ∧ win8_2.index t (1 : Fin 2) = 0 :=
  (by decide +kernel : ∀ t : Fin grid8.N, _)
theorem idx8_3 : ∀ t : Fin cfg8.N, win8_3.index t (0 : Fin 2) = 0 ∧ win8_3.index t (1 : Fin 2) = 0 :=
  (by decide +kernel : ∀ t : Fin grid8.N, _)
theorem idx8_4 : ∀ t : Fin cfg8.N, win8_4.index t (0 : Fin 2) = t.val ∧ win8_4.index t (1 : Fin 2) = 0 :=
  (by decide +kernel : ∀ t : Fin grid8.N, _)

/-- Window 0's block at point `t` is its array on the rows the output's block covers. -/
theorem blk8_0 (V : (c : Dev nD) → (b : Ref sig .tc) → Buf (Elt Ideal) ((c : Thread nD τ).loc b)) (c : Dev nD) (t : Fin cfg8.N) (y : S5000x128.Idx) :
    iblk8 V c 0 t y = V c (Pipeline.arrRef spec8 0) (((cfg8.win 4).blk t).view.emb y) := by
  obtain ⟨a0, a1⟩ := idx8_0 t
  obtain ⟨o0, o1⟩ := idx8_4 t
  show V c (Pipeline.arrRef spec8 0) (((cfg8.win 0).blk t).view.emb y) = V c (Pipeline.arrRef spec8 0) (((cfg8.win 4).blk t).view.emb y)
  refine congrArg _ (funext fun a => Fin.ext ?_)
  match a with
  | ⟨0, _⟩ => show win8_0.index t (0 : Fin 2) * 5000 + 1 * (y 0).val = win8_4.index t (0 : Fin 2) * 5000 + 1 * (y 0).val; omega
  | ⟨1, _⟩ => show win8_0.index t (1 : Fin 2) * 128 + 1 * (y 1).val = win8_4.index t (1 : Fin 2) * 128 + 1 * (y 1).val; omega

/-- Window 1's block at point `t` is its array on the rows the output's block covers. -/
theorem blk8_1 (V : (c : Dev nD) → (b : Ref sig .tc) → Buf (Elt Ideal) ((c : Thread nD τ).loc b)) (c : Dev nD) (t : Fin cfg8.N) (y : S5000x128.Idx) :
    iblk8 V c 1 t y = V c (Pipeline.arrRef spec8 1) (((cfg8.win 4).blk t).view.emb y) := by
  obtain ⟨a0, a1⟩ := idx8_1 t
  obtain ⟨o0, o1⟩ := idx8_4 t
  show V c (Pipeline.arrRef spec8 1) (((cfg8.win 1).blk t).view.emb y) = V c (Pipeline.arrRef spec8 1) (((cfg8.win 4).blk t).view.emb y)
  refine congrArg _ (funext fun a => Fin.ext ?_)
  match a with
  | ⟨0, _⟩ => show win8_1.index t (0 : Fin 2) * 5000 + 1 * (y 0).val = win8_4.index t (0 : Fin 2) * 5000 + 1 * (y 0).val; omega
  | ⟨1, _⟩ => show win8_1.index t (1 : Fin 2) * 128 + 1 * (y 1).val = win8_4.index t (1 : Fin 2) * 128 + 1 * (y 1).val; omega

/-- Window 2's block at point `t` is its one-column array on the rows the output's block covers. -/
theorem blk8_2 (V : (c : Dev nD) → (b : Ref sig .tc) → Buf (Elt Ideal) ((c : Thread nD τ).loc b)) (c : Dev nD) (t : Fin cfg8.N) (r : Fin 5000) (j : Fin 128) :
    iblk8 V c 2 t (ix2 r (0 : Fin 1))
      = V c (Pipeline.arrRef spec8 2) (ix2 (n0 := 50000) (n1 := 1) ((((cfg8.win 4).blk t).view.emb (ix2 r j)) 0) 0) := by
  obtain ⟨a0, a1⟩ := idx8_2 t
  obtain ⟨o0, o1⟩ := idx8_4 t
  show V c (Pipeline.arrRef spec8 2) (((cfg8.win 2).blk t).view.emb (ix2 r (0 : Fin 1))) = _
  refine congrArg _ (funext fun a => Fin.ext ?_)
  match a with
  | ⟨0, _⟩ => show win8_2.index t (0 : Fin 2) * 5000 + 1 * r.val = win8_4.index t (0 : Fin 2) * 5000 + 1 * r.val; omega
  | ⟨1, _⟩ => show win8_2.index t (1 : Fin 2) * 1 + 1 * 0 = 0; omega

/-- Window 3 is resident: its block at every point is its whole one-row array. -/
theorem blk8_3 (V : (c : Dev nD) → (b : Ref sig .tc) → Buf (Elt Ideal) ((c : Thread nD τ).loc b)) (c : Dev nD) (t : Fin cfg8.N) (r : Fin 5000) (j : Fin 128) :
    iblk8 V c 3 t (ix2 (0 : Fin 1) j)
      = V c (Pipeline.arrRef spec8 3) (ix2 (n0 := 1) (n1 := 128) 0 ((((cfg8.win 4).blk t).view.emb (ix2 r j)) 1)) := by
  obtain ⟨a0, a1⟩ := idx8_3 t
  obtain ⟨o0, o1⟩ := idx8_4 t
  show V c (Pipeline.arrRef spec8 3) (((cfg8.win 3).blk t).view.emb (ix2 (0 : Fin 1) j)) = _
  refine congrArg _ (funext fun a => Fin.ext ?_)
  match a with
  | ⟨0, _⟩ => show win8_3.index t (0 : Fin 2) * 1 + 1 * 0 = 0; omega
  | ⟨1, _⟩ => show win8_3.index t (1 : Fin 2) * 128 + 1 * j.val = win8_4.index t (1 : Fin 2) * 128 + 1 * j.val; omega

/-- What point `t` writes back is block `t` of the combine stage of the input arrays. -/
theorem flushed8_eq (V : (c : Dev nD) → (b : Ref sig .tc) → Buf (Elt Ideal) ((c : Thread nD τ).loc b)) (c : Dev nD) (t : Fin cfg8.N) :
    (dat8 (F := Ideal) V c).flushed 4 t = ((cfg8.win 4).blk t).view.read (Elt Ideal)
      (Cert.Spec.combine (V c (Pipeline.arrRef spec8 0)) (V c (Pipeline.arrRef spec8 1)) (V c (Pipeline.arrRef spec8 2)) (V c (Pipeline.arrRef spec8 3))) := by
  show (cfg8.win 4).cut (grid8.coords t) ((dat8 V c).after 4 t) = _
  rw [after8_4]
  unfold out8_4
  rw [View.canon_unit_zero hz]
  simp only [View.ld_unit_zero (S := S5000x128) hz, View.ld_unit_zero (S := S5000x1) hz, View.ld_unit_zero (S := S1x128) hz]
  funext y
  exact pay8_spec (V c (Pipeline.arrRef spec8 0)) (V c (Pipeline.arrRef spec8 1)) (V c (Pipeline.arrRef spec8 2)) (V c (Pipeline.arrRef spec8 3))
    (iblk8 V c 0 t) (iblk8 V c 1 t) (iblk8 V c 2 t) (iblk8 V c 3 t)
    (fun y => ((cfg8.win 4).blk t).view.emb y) (blk8_0 V c t) (blk8_1 V c t) (blk8_2 V c t) (blk8_3 V c t) y

/-- An index of the output array is in point `t`'s block iff each coordinate is in the block's range on its axis. -/
theorem mem_blk8 (t : Fin cfg8.N) (i : S50000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v125).slice (win8_4.rect t)).set ↔ _
  rw [View.set_slice_whole, Rect.mem_set_unit]
  exact Iff.rfl

/-- The ten row tiles cover the output array: row `r` lies in tile `r / 5000`. -/
theorem cover8 (i : S50000x128.Idx) : ∃ t : Fin cfg8.N, (cfg8.win 4).flush t = true ∧ i ∈ ((cfg8.win 4).blk t).view.set := by
  have hi0 : (i 0).val < 50000 := (i 0).isLt
  have hi1 : (i 1).val < 128 := (i 1).isLt
  have hN : cfg8.N = 10 := N_8
  have ht : (i 0).val / 5000 < cfg8.N := by rw [hN]; omega
  obtain ⟨o0, o1⟩ := idx8_4 ⟨(i 0).val / 5000, ht⟩
  refine ⟨⟨(i 0).val / 5000, ht⟩, flush8_4 _, ?_⟩
  rw [mem_blk8]
  intro a
  match a with
  | ⟨0, _⟩ =>
    show win8_4.index ⟨(i 0).val / 5000, ht⟩ (0 : Fin 2) * 5000 ≤ (i 0).val ∧ (i 0).val < win8_4.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win8_4.index ⟨(i 0).val / 5000, ht⟩ (1 : Fin 2) * 128 ≤ (i 1).val ∧ (i 1).val < win8_4.index ⟨(i 0).val / 5000, ht⟩ (1 : Fin 2) * 128 + 128
    rw [o1]; omega

theorem region8_value (V : (c : Dev nD) → (b : Ref sig .tc) → Buf (Elt Ideal) ((c : Thread nD τ).loc b)) (c : Dev nD) :
    (dat8 (F := Ideal) V c).arrAt 4 cfg8.N
      = Cert.Spec.combine (V c (Pipeline.arrRef spec8 0)) (V c (Pipeline.arrRef spec8 1)) (V c (Pipeline.arrRef spec8 2)) (V c (Pipeline.arrRef spec8 3)) :=
  (dat8 V c).arrAt_eq_of_cover 4 _ (fun t _ => flushed8_eq V c t) cover8

/-! ## Region 9: batch normalisation, rectifier and residual -/

/-- The batch-normalisation body with the residual at an entry. -/
theorem k9_pay1_apply (x0 : Vec Ideal S5000x128 .f32) (x1 x2 x3 x4 : Vec Ideal S1x128 .f32) (x5 : Vec Ideal S5000x128 .f32)
    (r : Fin 5000) (j : Fin 128) :
    k9_pay1 x0 x1 x2 x3 x4 x5 (ix2 r j)
      = max (((x0 (ix2 r j) - x1 (ix2 (0 : Fin 1) j))
            * Ideal.rsqrt (x2 (ix2 (0 : Fin 1) j) + Ideal.ofBits .f32 0x3727C5AC#32))
          * x3 (ix2 (0 : Fin 1) j) + x4 (ix2 (0 : Fin 1) j)) (Ideal.ofBits .f32 0x00000000#32) + x5 (ix2 r j) := by
  unfold k9_pay1
  simp only [shapeCast_self]
  rw [addf_apply, maximumf_apply, addf_apply, mulf_apply, mulf_apply, rsqrt_apply, addf_apply, subf_apply,
    broadcastTo_1b_ab_apply, broadcastTo_1b_ab_apply, broadcastTo_1b_ab_apply, broadcastTo_1b_ab_apply]
  rfl

/-- The body on blocks that are the arrays read at `e y` is the normalisation stage with its residual at `e y`. -/
theorem pay9_spec (A0 : Cert.Spec.F32 S50000x128) (A1 A2 A3 A4 : Cert.Spec.F32 S1x128) (A5 : Cert.Spec.F32 S50000x128)
    (x0 : Vec Ideal S5000x128 .f32) (x1 x2 x3 x4 : Vec Ideal S1x128 .f32) (x5 : Vec Ideal S5000x128 .f32)
    (e : S5000x128.Idx → S50000x128.Idx)
    (h0 : ∀ y, x0 y = A0 (e y))
    (h1 : ∀ (r : Fin 5000) (j : Fin 128), x1 (ix2 (0 : Fin 1) j) = A1 (ix2 (n0 := 1) (n1 := 128) 0 (e (ix2 r j) 1)))
    (h2 : ∀ (r : Fin 5000) (j : Fin 128), x2 (ix2 (0 : Fin 1) j) = A2 (ix2 (n0 := 1) (n1 := 128) 0 (e (ix2 r j) 1)))
    (h3 : ∀ (r : Fin 5000) (j : Fin 128), x3 (ix2 (0 : Fin 1) j) = A3 (ix2 (n0 := 1) (n1 := 128) 0 (e (ix2 r j) 1)))
    (h4 : ∀ (r : Fin 5000) (j : Fin 128), x4 (ix2 (0 : Fin 1) j) = A4 (ix2 (n0 := 1) (n1 := 128) 0 (e (ix2 r j) 1)))
    (h5 : ∀ y, x5 y = A5 (e y))
    (y : S5000x128.Idx) :
    k9_pay1 x0 x1 x2 x3 x4 x5 y = Cert.Spec.bnReluRes A0 A1 A2 A3 A4 A5 (e y) := by
  obtain ⟨r, j, rfl⟩ : ∃ (r : Fin 5000) (j : Fin 128), y = ix2 r j := ⟨y 0, y 1, eq_ix2 y⟩
  rw [k9_pay1_apply, h0, h1 r j, h2 r j, h3 r j, h4 r j, h5]
  rfl

/-! The index maps over the grid: the row-tiled windows sit at block `(t, 0)`, the resident rows at `(0, 0)`. -/

theorem idx9_0 : ∀ t : Fin cfg9.N, win9_0.index t (0 : Fin 2) = t.val ∧ win9_0.index t (1 : Fin 2) = 0 :=
  (by decide +kernel : ∀ t : Fin grid9.N, _)
theorem idx9_1 : ∀ t : Fin cfg9.N, win9_1.index t (0 : Fin 2) = 0 ∧ win9_1.index t (1 : Fin 2) = 0 :=
  (by decide +kernel : ∀ t : Fin grid9.N, _)
theorem idx9_2 : ∀ t : Fin cfg9.N, win9_2.index t (0 : Fin 2) = 0 ∧ win9_2.index t (1 : Fin 2) = 0 :=
  (by decide +kernel : ∀ t : Fin grid9.N, _)
theorem idx9_3 : ∀ t : Fin cfg9.N, win9_3.index t (0 : Fin 2) = 0 ∧ win9_3.index t (1 : Fin 2) = 0 :=
  (by decide +kernel : ∀ t : Fin grid9.N, _)
theorem idx9_4 : ∀ t : Fin cfg9.N, win9_4.index t (0 : Fin 2) = 0 ∧ win9_4.index t (1 : Fin 2) = 0 :=
  (by decide +kernel : ∀ t : Fin grid9.N, _)
theorem idx9_5 : ∀ t : Fin cfg9.N, win9_5.index t (0 : Fin 2) = t.val ∧ win9_5.index t (1 : Fin 2) = 0 :=
  (by decide +kernel : ∀ t : Fin grid9.N, _)
theorem idx9_6 : ∀ t : Fin cfg9.N, win9_6.index t (0 : Fin 2) = t.val ∧ win9_6.index t (1 : Fin 2) = 0 :=
  (by decide +kernel : ∀ t : Fin grid9.N, _)

/-- Window 0's block at point `t` is its array on the rows the output's block covers. -/
theorem blk9_0 (V : (c : Dev nD) → (b : Ref sig .tc) → Buf (Elt Ideal) ((c : Thread nD τ).loc b)) (c : Dev nD) (t : Fin cfg9.N) (y : S5000x128.Idx) :
    iblk9 V c 0 t y = V c (Pipeline.arrRef spec9 0) (((cfg9.win 6).blk t).view.emb y) := by
  obtain ⟨a0, a1⟩ := idx9_0 t
  obtain ⟨o0, o1⟩ := idx9_6 t
  show V c (Pipeline.arrRef spec9 0) (((cfg9.win 0).blk t).view.emb y) = V c (Pipeline.arrRef spec9 0) (((cfg9.win 6).blk t).view.emb y)
  refine congrArg _ (funext fun a => Fin.ext ?_)
  match a with
  | ⟨0, _⟩ => show win9_0.index t (0 : Fin 2) * 5000 + 1 * (y 0).val = win9_6.index t (0 : Fin 2) * 5000 + 1 * (y 0).val; omega
  | ⟨1, _⟩ => show win9_0.index t (1 : Fin 2) * 128 + 1 * (y 1).val = win9_6.index t (1 : Fin 2) * 128 + 1 * (y 1).val; omega

/-- Window 1 is resident: its block at every point is its whole one-row array. -/
theorem blk9_1 (V : (c : Dev nD) → (b : Ref sig .tc) → Buf (Elt Ideal) ((c : Thread nD τ).loc b)) (c : Dev nD) (t : Fin cfg9.N) (r : Fin 5000) (j : Fin 128) :
    iblk9 V c 1 t (ix2 (0 : Fin 1) j)
      = V c (Pipeline.arrRef spec9 1) (ix2 (n0 := 1) (n1 := 128) 0 ((((cfg9.win 6).blk t).view.emb (ix2 r j)) 1)) := by
  obtain ⟨a0, a1⟩ := idx9_1 t
  obtain ⟨o0, o1⟩ := idx9_6 t
  show V c (Pipeline.arrRef spec9 1) (((cfg9.win 1).blk t).view.emb (ix2 (0 : Fin 1) j)) = _
  refine congrArg _ (funext fun a => Fin.ext ?_)
  match a with
  | ⟨0, _⟩ => show win9_1.index t (0 : Fin 2) * 1 + 1 * 0 = 0; omega
  | ⟨1, _⟩ => show win9_1.index t (1 : Fin 2) * 128 + 1 * j.val = win9_6.index t (1 : Fin 2) * 128 + 1 * j.val; omega

/-- Window 2 is resident: its block at every point is its whole one-row array. -/
theorem blk9_2 (V : (c : Dev nD) → (b : Ref sig .tc) → Buf (Elt Ideal) ((c : Thread nD τ).loc b)) (c : Dev nD) (t : Fin cfg9.N) (r : Fin 5000) (j : Fin 128) :
    iblk9 V c 2 t (ix2 (0 : Fin 1) j)
      = V c (Pipeline.arrRef spec9 2) (ix2 (n0 := 1) (n1 := 128) 0 ((((cfg9.win 6).blk t).view.emb (ix2 r j)) 1)) := by
  obtain ⟨a0, a1⟩ := idx9_2 t
  obtain ⟨o0, o1⟩ := idx9_6 t
  show V c (Pipeline.arrRef spec9 2) (((cfg9.win 2).blk t).view.emb (ix2 (0 : Fin 1) j)) = _
  refine congrArg _ (funext fun a => Fin.ext ?_)
  match a with
  | ⟨0, _⟩ => show win9_2.index t (0 : Fin 2) * 1 + 1 * 0 = 0; omega
  | ⟨1, _⟩ => show win9_2.index t (1 : Fin 2) * 128 + 1 * j.val = win9_6.index t (1 : Fin 2) * 128 + 1 * j.val; omega

/-- Window 3 is resident: its block at every point is its whole one-row array. -/
theorem blk9_3 (V : (c : Dev nD) → (b : Ref sig .tc) → Buf (Elt Ideal) ((c : Thread nD τ).loc b)) (c : Dev nD) (t : Fin cfg9.N) (r : Fin 5000) (j : Fin 128) :
    iblk9 V c 3 t (ix2 (0 : Fin 1) j)
      = V c (Pipeline.arrRef spec9 3) (ix2 (n0 := 1) (n1 := 128) 0 ((((cfg9.win 6).blk t).view.emb (ix2 r j)) 1)) := by
  obtain ⟨a0, a1⟩ := idx9_3 t
  obtain ⟨o0, o1⟩ := idx9_6 t
  show V c (Pipeline.arrRef spec9 3) (((cfg9.win 3).blk t).view.emb (ix2 (0 : Fin 1) j)) = _
  refine congrArg _ (funext fun a => Fin.ext ?_)
  match a with
  | ⟨0, _⟩ => show win9_3.index t (0 : Fin 2) * 1 + 1 * 0 = 0; omega
  | ⟨1, _⟩ => show win9_3.index t (1 : Fin 2) * 128 + 1 * j.val = win9_6.index t (1 : Fin 2) * 128 + 1 * j.val; omega

/-- Window 4 is resident: its block at every point is its whole one-row array. -/
theorem blk9_4 (V : (c : Dev nD) → (b : Ref sig .tc) → Buf (Elt Ideal) ((c : Thread nD τ).loc b)) (c : Dev nD) (t : Fin cfg9.N) (r : Fin 5000) (j : Fin 128) :
    iblk9 V c 4 t (ix2 (0 : Fin 1) j)
      = V c (Pipeline.arrRef spec9 4) (ix2 (n0 := 1) (n1 := 128) 0 ((((cfg9.win 6).blk t).view.emb (ix2 r j)) 1)) := by
  obtain ⟨a0, a1⟩ := idx9_4 t
  obtain ⟨o0, o1⟩ := idx9_6 t
  show V c (Pipeline.arrRef spec9 4) (((cfg9.win 4).blk t).view.emb (ix2 (0 : Fin 1) j)) = _
  refine congrArg _ (funext fun a => Fin.ext ?_)
  match a with
  | ⟨0, _⟩ => show win9_4.index t (0 : Fin 2) * 1 + 1 * 0 = 0; omega
  | ⟨1, _⟩ => show win9_4.index t (1 : Fin 2) * 128 + 1 * j.val = win9_6.index t (1 : Fin 2) * 128 + 1 * j.val; omega

/-- Window 5's block at point `t` is its array on the rows the output's block covers. -/
theorem blk9_5 (V : (c : Dev nD) → (b : Ref sig .tc) → Buf (Elt Ideal) ((c : Thread nD τ).loc b)) (c : Dev nD) (t : Fin cfg9.N) (y : S5000x128.Idx) :
    iblk9 V c 5 t y = V c (Pipeline.arrRef spec9 5) (((cfg9.win 6).blk t).view.emb y) := by
  obtain ⟨a0, a1⟩ := idx9_5 t
  obtain ⟨o0, o1⟩ := idx9_6 t
  show V c (Pipeline.arrRef spec9 5) (((cfg9.win 5).blk t).view.emb y) = V c (Pipeline.arrRef spec9 5) (((cfg9.win 6).blk t).view.emb y)
  refine congrArg _ (funext fun a => Fin.ext ?_)
  match a with
  | ⟨0, _⟩ => show win9_5.index t (0 : Fin 2) * 5000 + 1 * (y 0).val = win9_6.index t (0 : Fin 2) * 5000 + 1 * (y 0).val; omega
  | ⟨1, _⟩ => show win9_5.index t (1 : Fin 2) * 128 + 1 * (y 1).val = win9_6.index t (1 : Fin 2) * 128 + 1 * (y 1).val; omega

/-- What point `t` writes back is block `t` of the normalisation stage (with residual) of the input arrays. -/
theorem flushed9_eq (V : (c : Dev nD) → (b : Ref sig .tc) → Buf (Elt Ideal) ((c : Thread nD τ).loc b)) (c : Dev nD) (t : Fin cfg9.N) :
    (dat9 (F := Ideal) V c).flushed 6 t = ((cfg9.win 6).blk t).view.read (Elt Ideal)
      (Cert.Spec.bnReluRes (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) := by
  show (cfg9.win 6).cut (grid9.coords t) ((dat9 V c).after 6 t) = _
  rw [after9_6]
  unfold out9_6
  rw [View.canon_unit_zero hz]
  simp only [View.ld_unit_zero (S := S5000x128) hz, View.ld_unit_zero (S := S1x128) hz]
  funext y
  exact pay9_spec (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))
    (iblk9 V c 0 t) (iblk9 V c 1 t) (iblk9 V c 2 t) (iblk9 V c 3 t) (iblk9 V c 4 t) (iblk9 V c 5 t)
    (fun y => ((cfg9.win 6).blk t).view.emb y) (blk9_0 V c t) (blk9_1 V c t) (blk9_2 V c t) (blk9_3 V c t) (blk9_4 V c t) (blk9_5 V c t) y

/-- An index of the output array is in point `t`'s block iff each coordinate is in the block's range on its axis. -/
theorem mem_blk9 (t : Fin cfg9.N) (i : S50000x128.Idx) :
    i ∈ ((cfg9.win 6).blk t).view.set ↔ ∀ a : Fin 2, win9_6.index t a * S5000x128.size a ≤ (i a).val ∧ (i a).val < win9_6.index t a * S5000x128.size a + S5000x128.size a := by
  show i ∈ ((View.whole main_v143).slice (win9_6.rect t)).set ↔ _
  rw [View.set_slice_whole, Rect.mem_set_unit]
  exact Iff.rfl

/-- The ten row tiles cover the output array: row `r` lies in tile `r / 5000`. -/
theorem cover9 (i : S50000x128.Idx) : ∃ t : Fin cfg9.N, (cfg9.win 6).flush t = true ∧ i ∈ ((cfg9.win 6).blk t).view.set := by
  have hi0 : (i 0).val < 50000 := (i 0).isLt
  have hi1 : (i 1).val < 128 := (i 1).isLt
  have hN : cfg9.N = 10 := N_9
  have ht : (i 0).val / 5000 < cfg9.N := by rw [hN]; omega
  obtain ⟨o0, o1⟩ := idx9_6 ⟨(i 0).val / 5000, ht⟩
  refine ⟨⟨(i 0).val / 5000, ht⟩, flush9_6 _, ?_⟩
  rw [mem_blk9]
  intro a
  match a with
  | ⟨0, _⟩ =>
    show win9_6.index ⟨(i 0).val / 5000, ht⟩ (0 : Fin 2) * 5000 ≤ (i 0).val ∧ (i 0).val < win9_6.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win9_6.index ⟨(i 0).val / 5000, ht⟩ (1 : Fin 2) * 128 ≤ (i 1).val ∧ (i 1).val < win9_6.index ⟨(i 0).val / 5000, ht⟩ (1 : Fin 2) * 128 + 128
    rw [o1]; omega

theorem region9_value (V : (c : Dev nD) → (b : Ref sig .tc) → Buf (Elt Ideal) ((c : Thread nD τ).loc b)) (c : Dev nD) :
    (dat9 (F := Ideal) V c).arrAt 6 cfg9.N
      = Cert.Spec.bnReluRes (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) :=
  (dat9 V c).arrAt_eq_of_cover 6 _ (fun t _ => flushed9_eq V c t) cover9

end Cert.KernelIdeal.RegionVal

end
-- ==== Proof.KernelChain.lean ====
/-
  The idealized kernel's result, boundary by boundary.

  Through the 22 steps of the program each live buffer holds a stage of the network of `Spec`: after the first
  host stretch the edge lists, the edge weights, the self-loop column and the input bias as a row; after each
  launch its stage of the dense arithmetic (the launch's output array is the stage's function of its input
  arrays); after each later host stretch the layer's weight slice, the neighbourhood sum, the column statistics
  and the parameter rows. A buffer a step does not write is carried unchanged. The last launch's output is the
  network's output.
-/
import proofs.«139786_j89704686944683_1_alg».proof.Proof.KernelKeep
import proofs.«139786_j89704686944683_1_alg».proof.Proof.Spec
import proofs.«139786_j89704686944683_1_alg».proof.Proof.RegionDense
import proofs.«139786_j89704686944683_1_alg».proof.Proof.RegionPointwise

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen Cert.KernelIdeal.Keep Cert.KernelIdeal.RegionVal

variable (m : (ℓ : Loc nD τ sig) → Buf (Elt Ideal) ℓ) (ρ : Dev nD → PrngReg) (c : Dev nD)

/-- Argument 0 as launched. -/
abbrev a0 : Cert.Spec.F32 S50000x256 := m ((c.tc : Thread nD τ).loc main_arg0)
/-- Argument 1 as launched. -/
abbrev a1 : Cert.Spec.I32 S2x600000 := m ((c.tc : Thread nD τ).loc main_arg1)
/-- Argument 2 as launched. -/
abbrev a2 : Cert.Spec.F32 S256x128 := m ((c.tc : Thread nD τ).loc main_arg2)
/-- Argument 3 as launched. -/
abbrev a3 : Cert.Spec.F32 S128 := m ((c.tc : Thread nD τ).loc main_arg3)
/-- Argument 4 as launched. -/
abbrev a4 : Cert.Spec.F32 S3x128x128 := m ((c.tc : Thread nD τ).loc main_arg4)
/-- Argument 5 as launched. -/
abbrev a5 : Cert.Spec.F32 S3x128 := m ((c.tc : Thread nD τ).loc main_arg5)
/-- Argument 6 as launched. -/
abbrev a6 : Cert.Spec.F32 S3x128 := m ((c.tc : Thread nD τ).loc main_arg6)
/-- Argument 7 as launched. -/
abbrev a7 : Cert.Spec.F32 S3x128 := m ((c.tc : Thread nD τ).loc main_arg7)
/-- Argument 8 as launched. -/
abbrev a8 : Cert.Spec.F32 S128x10 := m ((c.tc : Thread nD τ).loc main_arg8)
/-- Argument 9 as launched. -/
abbrev a9 : Cert.Spec.F32 S10 := m ((c.tc : Thread nD τ).loc main_arg9)

theorem arg0_at1 : W1 m ρ c (Proc.devRef .tc main_arg0) = a0 m c :=
  (Keep.keepH0 m ρ c main_arg0 (by not_written)).trans rfl

theorem arg2_at1 : W1 m ρ c (Proc.devRef .tc main_arg2) = a2 m c :=
  (Keep.keepH0 m ρ c main_arg2 (by not_written)).trans rfl

theorem arg1_at0 : W0 m ρ c (Proc.devRef .tc main_arg1) = a1 m c :=
  rfl

theorem arg3_at0 : W0 m ρ c (Proc.devRef .tc main_arg3) = a3 m c :=
  rfl

theorem w1_src : W1 m ρ c (Proc.devRef .tc main_v1) = Cert.Spec.src (a1 m c) := by
  show StableHlo.after hostOps0 (W0 m ρ c) (Proc.devRef .tc main_v1) = _
  dsimp only [hostOps0]
  after_results_simp
  rfl

theorem w1_dst : W1 m ρ c (Proc.devRef .tc main_v3) = Cert.Spec.dst (a1 m c) := by
  show StableHlo.after hostOps0 (W0 m ρ c) (Proc.devRef .tc main_v3) = _
  dsimp only [hostOps0]
  after_results_simp
  rfl

theorem w1_norm : W1 m ρ c (Proc.devRef .tc main_v25) = Cert.Spec.norm (a1 m c) := by
  show StableHlo.after hostOps0 (W0 m ρ c) (Proc.devRef .tc main_v25) = _
  dsimp only [hostOps0]
  after_results_simp
  rfl

theorem w1_dinv2 : W1 m ρ c (Proc.devRef .tc main_v27) = Cert.Spec.dinv2 (a1 m c) := by
  show StableHlo.after hostOps0 (W0 m ρ c) (Proc.devRef .tc main_v27) = _
  dsimp only [hostOps0]
  after_results_simp
  rfl

theorem w1_bin : W1 m ρ c (Proc.devRef .tc main_v28) = Cert.Spec.row128 (a3 m c) := by
  show StableHlo.after hostOps0 (W0 m ρ c) (Proc.devRef .tc main_v28) = _
  dsimp only [hostOps0]
  after_results_simp
  rfl

theorem w2_h0 : W2 m ρ c (Proc.devRef .tc main_v29) = (Cert.Spec.h0 (a0 m c) (a2 m c) (a3 m c)) := by
  refine (W2_arr m ρ c 3).trans ((region0_value (V1 m ρ) c).trans ?_)
  show Cert.Spec.reluLin (W1 m ρ c (Proc.devRef .tc main_arg0)) (W1 m ρ c (Proc.devRef .tc main_arg2)) (W1 m ρ c (Proc.devRef .tc main_v28)) = _
  rw [arg0_at1 m ρ c, arg2_at1 m ρ c, w1_bin m ρ c]
  rfl

theorem arg4_at2 : W2 m ρ c (Proc.devRef .tc main_arg4) = a4 m c :=
  ((Keep.keepR0 m ρ c main_arg4 (by decide)).trans (Keep.keepH0 m ρ c main_arg4 (by not_written))).trans rfl

theorem l0_w : W3 m ρ c (Proc.devRef .tc main_v31) = (Cert.Spec.matA (a4 m c)) := by
  show StableHlo.after hostOps1 (W2 m ρ c) (Proc.devRef .tc main_v31) = _
  dsimp only [hostOps1]
  after_results_simp
  rw [arg4_at2 m ρ c]
  rfl

theorem l0_hin : W3 m ρ c (Proc.devRef .tc main_v29) = (Cert.Spec.h0 (a0 m c) (a2 m c) (a3 m c)) :=
  (Keep.keepH1 m ρ c main_v29 (by not_written)).trans (w2_h0 m ρ c)

theorem l0_hl : W4 m ρ c (Proc.devRef .tc main_v32) = (Cert.Spec.dense (Cert.Spec.h0 (a0 m c) (a2 m c) (a3 m c)) (Cert.Spec.matA (a4 m c))) := by
  refine (W4_arr m ρ c 2).trans ((region1_value (V3 m ρ) c).trans ?_)
  show Cert.Spec.dense (W3 m ρ c (Proc.devRef .tc main_v29)) (W3 m ρ c (Proc.devRef .tc main_v31)) = _
  rw [l0_hin m ρ c, l0_w m ρ c]

theorem l0_src : W4 m ρ c (Proc.devRef .tc main_v1) = Cert.Spec.src (a1 m c) :=
  ((Keep.keepR1 m ρ c main_v1 (by decide)).trans ((Keep.keepH1 m ρ c main_v1 (by not_written)).trans (Keep.keepR0 m ρ c main_v1 (by decide)))).trans (w1_src m ρ c)

theorem l0_dst : W4 m ρ c (Proc.devRef .tc main_v3) = Cert.Spec.dst (a1 m c) :=
  ((Keep.keepR1 m ρ c main_v3 (by decide)).trans ((Keep.keepH1 m ρ c main_v3 (by not_written)).trans (Keep.keepR0 m ρ c main_v3 (by decide)))).trans (w1_dst m ρ c)

theorem l0_norm : W4 m ρ c (Proc.devRef .tc main_v25) = Cert.Spec.norm (a1 m c) :=
  ((Keep.keepR1 m ρ c main_v25 (by decide)).trans ((Keep.keepH1 m ρ c main_v25 (by not_written)).trans (Keep.keepR0 m ρ c main_v25 (by decide)))).trans (w1_norm m ρ c)

theorem arg5_at4 : W4 m ρ c (Proc.devRef .tc main_arg5) = a5 m c :=
  ((Keep.keepR1 m ρ c main_arg5 (by decide)).trans ((Keep.keepH1 m ρ c main_arg5 (by not_written)).trans ((Keep.keepR0 m ρ c main_arg5 (by decide)).trans (Keep.keepH0 m ρ c main_arg5 (by not_written))))).trans rfl

theorem l0_agg : W5 m ρ c (Proc.devRef .tc main_v45) = (Cert.Spec.agg (Cert.Spec.dense (Cert.Spec.h0 (a0 m c) (a2 m c) (a3 m c)) (Cert.Spec.matA (a4 m c))) (a1 m c)) := by
  show StableHlo.after hostOps2 (W4 m ρ c) (Proc.devRef .tc main_v45) = _
  dsimp only [hostOps2]
  after_results_simp
  rw [l0_hl m ρ c, l0_src m ρ c, l0_dst m ρ c, l0_norm m ρ c]
  rfl

theorem l0_b : W5 m ρ c (Proc.devRef .tc main_v48) = (Cert.Spec.rowA (a5 m c)) := by
  show StableHlo.after hostOps2 (W4 m ρ c) (Proc.devRef .tc main_v48) = _
  dsimp only [hostOps2]
  after_results_simp
  rw [arg5_at4 m ρ c]
  rfl

theorem l0_hl' : W5 m ρ c (Proc.devRef .tc main_v32) = (Cert.Spec.dense (Cert.Spec.h0 (a0 m c) (a2 m c) (a3 m c)) (Cert.Spec.matA (a4 m c))) :=
  (Keep.keepH2 m ρ c main_v32 (by not_written)).trans (l0_hl m ρ c)

theorem l0_dinv2 : W5 m ρ c (Proc.devRef .tc main_v27) = Cert.Spec.dinv2 (a1 m c) :=
  ((Keep.keepH2 m ρ c main_v27 (by not_written)).trans ((Keep.keepR1 m ρ c main_v27 (by decide)).trans ((Keep.keepH1 m ρ c main_v27 (by not_written)).trans (Keep.keepR0 m ρ c main_v27 (by decide))))).trans (w1_dinv2 m ρ c)

theorem l0_pre : W6 m ρ c (Proc.devRef .tc main_v49) = (Cert.Spec.pre (Cert.Spec.h0 (a0 m c) (a2 m c) (a3 m c)) (a1 m c) (Cert.Spec.matA (a4 m c)) (Cert.Spec.rowA (a5 m c))) := by
  refine (W6_arr m ρ c 4).trans ((region2_value (V5 m ρ) c).trans ?_)
  show Cert.Spec.combine (W5 m ρ c (Proc.devRef .tc main_v45)) (W5 m ρ c (Proc.devRef .tc main_v32)) (W5 m ρ c (Proc.devRef .tc main_v27)) (W5 m ρ c (Proc.devRef .tc main_v48)) = _
  rw [l0_agg m ρ c, l0_hl' m ρ c, l0_dinv2 m ρ c, l0_b m ρ c]
  rfl

theorem arg6_at6 : W6 m ρ c (Proc.devRef .tc main_arg6) = a6 m c :=
  ((Keep.keepR2 m ρ c main_arg6 (by decide)).trans ((Keep.keepH2 m ρ c main_arg6 (by not_written)).trans ((Keep.keepR1 m ρ c main_arg6 (by decide)).trans ((Keep.keepH1 m ρ c main_arg6 (by not_written)).trans ((Keep.keepR0 m ρ c main_arg6 (by decide)).trans (Keep.keepH0 m ρ c main_arg6 (by not_written))))))).trans rfl

theorem arg7_at6 : W6 m ρ c (Proc.devRef .tc main_arg7) = a7 m c :=
  ((Keep.keepR2 m ρ c main_arg7 (by decide)).trans ((Keep.keepH2 m ρ c main_arg7 (by not_written)).trans ((Keep.keepR1 m ρ c main_arg7 (by decide)).trans ((Keep.keepH1 m ρ c main_arg7 (by not_written)).trans ((Keep.keepR0 m ρ c main_arg7 (by decide)).trans (Keep.keepH0 m ρ c main_arg7 (by not_written))))))).trans rfl

theorem l0_mu : W7 m ρ c (Proc.devRef .tc main_v53) = (Cert.Spec.colMean (Cert.Spec.pre (Cert.Spec.h0 (a0 m c) (a2 m c) (a3 m c)) (a1 m c) (Cert.Spec.matA (a4 m c)) (Cert.Spec.rowA (a5 m c)))) := by
  show StableHlo.after hostOps3 (W6 m ρ c) (Proc.devRef .tc main_v53) = _
  dsimp only [hostOps3]
  after_results_simp
  rw [l0_pre m ρ c]
  rfl

theorem l0_var : W7 m ρ c (Proc.devRef .tc main_v60) = (Cert.Spec.colVar (Cert.Spec.pre (Cert.Spec.h0 (a0 m c) (a2 m c) (a3 m c)) (a1 m c) (Cert.Spec.matA (a4 m c)) (Cert.Spec.rowA (a5 m c)))) := by
  show StableHlo.after hostOps3 (W6 m ρ c) (Proc.devRef .tc main_v60) = _
  dsimp only [hostOps3]
  after_results_simp
  rw [l0_pre m ρ c]
  rfl

theorem l0_g : W7 m ρ c (Proc.devRef .tc main_v63) = (Cert.Spec.rowA (a6 m c)) := by
  show StableHlo.after hostOps3 (W6 m ρ c) (Proc.devRef .tc main_v63) = _
  dsimp only [hostOps3]
  after_results_simp
  rw [arg6_at6 m ρ c]
  rfl

theorem l0_be : W7 m ρ c (Proc.devRef .tc main_v66) = (Cert.Spec.rowA (a7 m c)) := by
  show StableHlo.after hostOps3 (W6 m ρ c) (Proc.devRef .tc main_v66) = _
  dsimp only [hostOps3]
  after_results_simp
  rw [arg7_at6 m ρ c]
  rfl

theorem l0_pre' : W7 m ρ c (Proc.devRef .tc main_v49) = (Cert.Spec.pre (Cert.Spec.h0 (a0 m c) (a2 m c) (a3 m c)) (a1 m c) (Cert.Spec.matA (a4 m c)) (Cert.Spec.rowA (a5 m c))) :=
  (Keep.keepH3 m ρ c main_v49 (by not_written)).trans (l0_pre m ρ c)

theorem l0_out : W8 m ρ c (Proc.devRef .tc main_v67) = (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) := by
  refine (W8_arr m ρ c 5).trans ((region3_value (V7 m ρ) c).trans ?_)
  show Cert.Spec.bnRelu (W7 m ρ c (Proc.devRef .tc main_v49)) (W7 m ρ c (Proc.devRef .tc main_v53)) (W7 m ρ c (Proc.devRef .tc main_v60)) (W7 m ρ c (Proc.devRef .tc main_v63)) (W7 m ρ c (Proc.devRef .tc main_v66)) = _
  rw [l0_pre' m ρ c, l0_mu m ρ c, l0_var m ρ c, l0_g m ρ c, l0_be m ρ c]
  rfl

theorem arg4_at8 : W8 m ρ c (Proc.devRef .tc main_arg4) = a4 m c :=
  ((Keep.keepR3 m ρ c main_arg4 (by decide)).trans ((Keep.keepH3 m ρ c main_arg4 (by not_written)).trans ((Keep.keepR2 m ρ c main_arg4 (by decide)).trans ((Keep.keepH2 m ρ c main_arg4 (by not_written)).trans ((Keep.keepR1 m ρ c main_arg4 (by decide)).trans ((Keep.keepH1 m ρ c main_arg4 (by not_written)).trans ((Keep.keepR0 m ρ c main_arg4 (by decide)).trans (Keep.keepH0 m ρ c main_arg4 (by not_written))))))))).trans rfl

theorem l1_w : W9 m ρ c (Proc.devRef .tc main_v69) = (Cert.Spec.matB (a4 m c)) := by
  show StableHlo.after hostOps4 (W8 m ρ c) (Proc.devRef .tc main_v69) = _
  dsimp only [hostOps4]
  after_results_simp
  rw [arg4_at8 m ρ c]
  rfl

theorem l1_hin : W9 m ρ c (Proc.devRef .tc main_v67) = (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) :=
  (Keep.keepH4 m ρ c main_v67 (by not_written)).trans (l0_out m ρ c)

theorem l1_hl : W10 m ρ c (Proc.devRef .tc main_v70) = (Cert.Spec.dense (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (Cert.Spec.matB (a4 m c))) := by
  refine (W10_arr m ρ c 2).trans ((region4_value (V9 m ρ) c).trans ?_)
  show Cert.Spec.dense (W9 m ρ c (Proc.devRef .tc main_v67)) (W9 m ρ c (Proc.devRef .tc main_v69)) = _
  rw [l1_hin m ρ c, l1_w m ρ c]

theorem l1_src : W10 m ρ c (Proc.devRef .tc main_v1) = Cert.Spec.src (a1 m c) :=
  ((Keep.keepR4 m ρ c main_v1 (by decide)).trans ((Keep.keepH4 m ρ c main_v1 (by not_written)).trans ((Keep.keepR3 m ρ c main_v1 (by decide)).trans ((Keep.keepH3 m ρ c main_v1 (by not_written)).trans ((Keep.keepR2 m ρ c main_v1 (by decide)).trans ((Keep.keepH2 m ρ c main_v1 (by not_written)).trans ((Keep.keepR1 m ρ c main_v1 (by decide)).trans ((Keep.keepH1 m ρ c main_v1 (by not_written)).trans (Keep.keepR0 m ρ c main_v1 (by decide)))))))))).trans (w1_src m ρ c)

theorem l1_dst : W10 m ρ c (Proc.devRef .tc main_v3) = Cert.Spec.dst (a1 m c) :=
  ((Keep.keepR4 m ρ c main_v3 (by decide)).trans ((Keep.keepH4 m ρ c main_v3 (by not_written)).trans ((Keep.keepR3 m ρ c main_v3 (by decide)).trans ((Keep.keepH3 m ρ c main_v3 (by not_written)).trans ((Keep.keepR2 m ρ c main_v3 (by decide)).trans ((Keep.keepH2 m ρ c main_v3 (by not_written)).trans ((Keep.keepR1 m ρ c main_v3 (by decide)).trans ((Keep.keepH1 m ρ c main_v3 (by not_written)).trans (Keep.keepR0 m ρ c main_v3 (by decide)))))))))).trans (w1_dst m ρ c)

theorem l1_norm : W10 m ρ c (Proc.devRef .tc main_v25) = Cert.Spec.norm (a1 m c) :=
  ((Keep.keepR4 m ρ c main_v25 (by decide)).trans ((Keep.keepH4 m ρ c main_v25 (by not_written)).trans ((Keep.keepR3 m ρ c main_v25 (by decide)).trans ((Keep.keepH3 m ρ c main_v25 (by not_written)).trans ((Keep.keepR2 m ρ c main_v25 (by decide)).trans ((Keep.keepH2 m ρ c main_v25 (by not_written)).trans ((Keep.keepR1 m ρ c main_v25 (by decide)).trans ((Keep.keepH1 m ρ c main_v25 (by not_written)).trans (Keep.keepR0 m ρ c main_v25 (by decide)))))))))).trans (w1_norm m ρ c)

theorem arg5_at10 : W10 m ρ c (Proc.devRef .tc main_arg5) = a5 m c :=
  ((Keep.keepR4 m ρ c main_arg5 (by decide)).trans ((Keep.keepH4 m ρ c main_arg5 (by not_written)).trans ((Keep.keepR3 m ρ c main_arg5 (by decide)).trans ((Keep.keepH3 m ρ c main_arg5 (by not_written)).trans ((Keep.keepR2 m ρ c main_arg5 (by decide)).trans ((Keep.keepH2 m ρ c main_arg5 (by not_written)).trans ((Keep.keepR1 m ρ c main_arg5 (by decide)).trans ((Keep.keepH1 m ρ c main_arg5 (by not_written)).trans ((Keep.keepR0 m ρ c main_arg5 (by decide)).trans (Keep.keepH0 m ρ c main_arg5 (by not_written))))))))))).trans rfl

theorem l1_agg : W11 m ρ c (Proc.devRef .tc main_v83) = (Cert.Spec.agg (Cert.Spec.dense (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (Cert.Spec.matB (a4 m c))) (a1 m c)) := by
  show StableHlo.after hostOps5 (W10 m ρ c) (Proc.devRef .tc main_v83) = _
  dsimp only [hostOps5]
  after_results_simp
  rw [l1_hl m ρ c, l1_src m ρ c, l1_dst m ρ c, l1_norm m ρ c]
  rfl

theorem l1_b : W11 m ρ c (Proc.devRef .tc main_v86) = (Cert.Spec.rowB (a5 m c)) := by
  show StableHlo.after hostOps5 (W10 m ρ c) (Proc.devRef .tc main_v86) = _
  dsimp only [hostOps5]
  after_results_simp
  rw [arg5_at10 m ρ c]
  rfl

theorem l1_hl' : W11 m ρ c (Proc.devRef .tc main_v70) = (Cert.Spec.dense (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (Cert.Spec.matB (a4 m c))) :=
  (Keep.keepH5 m ρ c main_v70 (by not_written)).trans (l1_hl m ρ c)

theorem l1_dinv2 : W11 m ρ c (Proc.devRef .tc main_v27) = Cert.Spec.dinv2 (a1 m c) :=
  ((Keep.keepH5 m ρ c main_v27 (by not_written)).trans ((Keep.keepR4 m ρ c main_v27 (by decide)).trans ((Keep.keepH4 m ρ c main_v27 (by not_written)).trans ((Keep.keepR3 m ρ c main_v27 (by decide)).trans ((Keep.keepH3 m ρ c main_v27 (by not_written)).trans ((Keep.keepR2 m ρ c main_v27 (by decide)).trans ((Keep.keepH2 m ρ c main_v27 (by not_written)).trans ((Keep.keepR1 m ρ c main_v27 (by decide)).trans ((Keep.keepH1 m ρ c main_v27 (by not_written)).trans (Keep.keepR0 m ρ c main_v27 (by decide))))))))))).trans (w1_dinv2 m ρ c)

theorem l1_pre : W12 m ρ c (Proc.devRef .tc main_v87) = (Cert.Spec.pre (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c))) := by
  refine (W12_arr m ρ c 4).trans ((region5_value (V11 m ρ) c).trans ?_)
  show Cert.Spec.combine (W11 m ρ c (Proc.devRef .tc main_v83)) (W11 m ρ c (Proc.devRef .tc main_v70)) (W11 m ρ c (Proc.devRef .tc main_v27)) (W11 m ρ c (Proc.devRef .tc main_v86)) = _
  rw [l1_agg m ρ c, l1_hl' m ρ c, l1_dinv2 m ρ c, l1_b m ρ c]
  rfl

theorem arg6_at12 : W12 m ρ c (Proc.devRef .tc main_arg6) = a6 m c :=
  ((Keep.keepR5 m ρ c main_arg6 (by decide)).trans ((Keep.keepH5 m ρ c main_arg6 (by not_written)).trans ((Keep.keepR4 m ρ c main_arg6 (by decide)).trans ((Keep.keepH4 m ρ c main_arg6 (by not_written)).trans ((Keep.keepR3 m ρ c main_arg6 (by decide)).trans ((Keep.keepH3 m ρ c main_arg6 (by not_written)).trans ((Keep.keepR2 m ρ c main_arg6 (by decide)).trans ((Keep.keepH2 m ρ c main_arg6 (by not_written)).trans ((Keep.keepR1 m ρ c main_arg6 (by decide)).trans ((Keep.keepH1 m ρ c main_arg6 (by not_written)).trans ((Keep.keepR0 m ρ c main_arg6 (by decide)).trans (Keep.keepH0 m ρ c main_arg6 (by not_written))))))))))))).trans rfl

theorem arg7_at12 : W12 m ρ c (Proc.devRef .tc main_arg7) = a7 m c :=
  ((Keep.keepR5 m ρ c main_arg7 (by decide)).trans ((Keep.keepH5 m ρ c main_arg7 (by not_written)).trans ((Keep.keepR4 m ρ c main_arg7 (by decide)).trans ((Keep.keepH4 m ρ c main_arg7 (by not_written)).trans ((Keep.keepR3 m ρ c main_arg7 (by decide)).trans ((Keep.keepH3 m ρ c main_arg7 (by not_written)).trans ((Keep.keepR2 m ρ c main_arg7 (by decide)).trans ((Keep.keepH2 m ρ c main_arg7 (by not_written)).trans ((Keep.keepR1 m ρ c main_arg7 (by decide)).trans ((Keep.keepH1 m ρ c main_arg7 (by not_written)).trans ((Keep.keepR0 m ρ c main_arg7 (by decide)).trans (Keep.keepH0 m ρ c main_arg7 (by not_written))))))))))))).trans rfl

theorem l1_mu : W13 m ρ c (Proc.devRef .tc main_v91) = (Cert.Spec.colMean (Cert.Spec.pre (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)))) := by
  show StableHlo.after hostOps6 (W12 m ρ c) (Proc.devRef .tc main_v91) = _
  dsimp only [hostOps6]
  after_results_simp
  rw [l1_pre m ρ c]
  rfl

theorem l1_var : W13 m ρ c (Proc.devRef .tc main_v98) = (Cert.Spec.colVar (Cert.Spec.pre (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)))) := by
  show StableHlo.after hostOps6 (W12 m ρ c) (Proc.devRef .tc main_v98) = _
  dsimp only [hostOps6]
  after_results_simp
  rw [l1_pre m ρ c]
  rfl

theorem l1_g : W13 m ρ c (Proc.devRef .tc main_v101) = (Cert.Spec.rowB (a6 m c)) := by
  show StableHlo.after hostOps6 (W12 m ρ c) (Proc.devRef .tc main_v101) = _
  dsimp only [hostOps6]
  after_results_simp
  rw [arg6_at12 m ρ c]
  rfl

theorem l1_be : W13 m ρ c (Proc.devRef .tc main_v104) = (Cert.Spec.rowB (a7 m c)) := by
  show StableHlo.after hostOps6 (W12 m ρ c) (Proc.devRef .tc main_v104) = _
  dsimp only [hostOps6]
  after_results_simp
  rw [arg7_at12 m ρ c]
  rfl

theorem l1_pre' : W13 m ρ c (Proc.devRef .tc main_v87) = (Cert.Spec.pre (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c))) :=
  (Keep.keepH6 m ρ c main_v87 (by not_written)).trans (l1_pre m ρ c)

theorem l1_res : W13 m ρ c (Proc.devRef .tc main_v67) = (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) :=
  ((Keep.keepH6 m ρ c main_v67 (by not_written)).trans ((Keep.keepR5 m ρ c main_v67 (by decide)).trans ((Keep.keepH5 m ρ c main_v67 (by not_written)).trans ((Keep.keepR4 m ρ c main_v67 (by decide)).trans (Keep.keepH4 m ρ c main_v67 (by not_written)))))).trans (l0_out m ρ c)

theorem l1_out : W14 m ρ c (Proc.devRef .tc main_v105) = (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) := by
  refine (W14_arr m ρ c 6).trans ((region6_value (V13 m ρ) c).trans ?_)
  show Cert.Spec.bnReluRes (W13 m ρ c (Proc.devRef .tc main_v87)) (W13 m ρ c (Proc.devRef .tc main_v91)) (W13 m ρ c (Proc.devRef .tc main_v98)) (W13 m ρ c (Proc.devRef .tc main_v101)) (W13 m ρ c (Proc.devRef .tc main_v104)) (W13 m ρ c (Proc.devRef .tc main_v67)) = _
  rw [l1_pre' m ρ c, l1_mu m ρ c, l1_var m ρ c, l1_g m ρ c, l1_be m ρ c, l1_res m ρ c]
  rfl

theorem arg4_at14 : W14 m ρ c (Proc.devRef .tc main_arg4) = a4 m c :=
  ((Keep.keepR6 m ρ c main_arg4 (by decide)).trans ((Keep.keepH6 m ρ c main_arg4 (by not_written)).trans ((Keep.keepR5 m ρ c main_arg4 (by decide)).trans ((Keep.keepH5 m ρ c main_arg4 (by not_written)).trans ((Keep.keepR4 m ρ c main_arg4 (by decide)).trans ((Keep.keepH4 m ρ c main_arg4 (by not_written)).trans ((Keep.keepR3 m ρ c main_arg4 (by decide)).trans ((Keep.keepH3 m ρ c main_arg4 (by not_written)).trans ((Keep.keepR2 m ρ c main_arg4 (by decide)).trans ((Keep.keepH2 m ρ c main_arg4 (by not_written)).trans ((Keep.keepR1 m ρ c main_arg4 (by decide)).trans ((Keep.keepH1 m ρ c main_arg4 (by not_written)).trans ((Keep.keepR0 m ρ c main_arg4 (by decide)).trans (Keep.keepH0 m ρ c main_arg4 (by not_written))))))))))))))).trans rfl

theorem l2_w : W15 m ρ c (Proc.devRef .tc main_v107) = (Cert.Spec.matC (a4 m c)) := by
  show StableHlo.after hostOps7 (W14 m ρ c) (Proc.devRef .tc main_v107) = _
  dsimp only [hostOps7]
  after_results_simp
  rw [arg4_at14 m ρ c]
  rfl

theorem l2_hin : W15 m ρ c (Proc.devRef .tc main_v105) = (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) :=
  (Keep.keepH7 m ρ c main_v105 (by not_written)).trans (l1_out m ρ c)

theorem l2_hl : W16 m ρ c (Proc.devRef .tc main_v108) = (Cert.Spec.dense (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) (Cert.Spec.matC (a4 m c))) := by
  refine (W16_arr m ρ c 2).trans ((region7_value (V15 m ρ) c).trans ?_)
  show Cert.Spec.dense (W15 m ρ c (Proc.devRef .tc main_v105)) (W15 m ρ c (Proc.devRef .tc main_v107)) = _
  rw [l2_hin m ρ c, l2_w m ρ c]

theorem l2_src : W16 m ρ c (Proc.devRef .tc main_v1) = Cert.Spec.src (a1 m c) :=
  ((Keep.keepR7 m ρ c main_v1 (by decide)).trans ((Keep.keepH7 m ρ c main_v1 (by not_written)).trans ((Keep.keepR6 m ρ c main_v1 (by decide)).trans ((Keep.keepH6 m ρ c main_v1 (by not_written)).trans ((Keep.keepR5 m ρ c main_v1 (by decide)).trans ((Keep.keepH5 m ρ c main_v1 (by not_written)).trans ((Keep.keepR4 m ρ c main_v1 (by decide)).trans ((Keep.keepH4 m ρ c main_v1 (by not_written)).trans ((Keep.keepR3 m ρ c main_v1 (by decide)).trans ((Keep.keepH3 m ρ c main_v1 (by not_written)).trans ((Keep.keepR2 m ρ c main_v1 (by decide)).trans ((Keep.keepH2 m ρ c main_v1 (by not_written)).trans ((Keep.keepR1 m ρ c main_v1 (by decide)).trans ((Keep.keepH1 m ρ c main_v1 (by not_written)).trans (Keep.keepR0 m ρ c main_v1 (by decide)))))))))))))))).trans (w1_src m ρ c)

theorem l2_dst : W16 m ρ c (Proc.devRef .tc main_v3) = Cert.Spec.dst (a1 m c) :=
  ((Keep.keepR7 m ρ c main_v3 (by decide)).trans ((Keep.keepH7 m ρ c main_v3 (by not_written)).trans ((Keep.keepR6 m ρ c main_v3 (by decide)).trans ((Keep.keepH6 m ρ c main_v3 (by not_written)).trans ((Keep.keepR5 m ρ c main_v3 (by decide)).trans ((Keep.keepH5 m ρ c main_v3 (by not_written)).trans ((Keep.keepR4 m ρ c main_v3 (by decide)).trans ((Keep.keepH4 m ρ c main_v3 (by not_written)).trans ((Keep.keepR3 m ρ c main_v3 (by decide)).trans ((Keep.keepH3 m ρ c main_v3 (by not_written)).trans ((Keep.keepR2 m ρ c main_v3 (by decide)).trans ((Keep.keepH2 m ρ c main_v3 (by not_written)).trans ((Keep.keepR1 m ρ c main_v3 (by decide)).trans ((Keep.keepH1 m ρ c main_v3 (by not_written)).trans (Keep.keepR0 m ρ c main_v3 (by decide)))))))))))))))).trans (w1_dst m ρ c)

theorem l2_norm : W16 m ρ c (Proc.devRef .tc main_v25) = Cert.Spec.norm (a1 m c) :=
  ((Keep.keepR7 m ρ c main_v25 (by decide)).trans ((Keep.keepH7 m ρ c main_v25 (by not_written)).trans ((Keep.keepR6 m ρ c main_v25 (by decide)).trans ((Keep.keepH6 m ρ c main_v25 (by not_written)).trans ((Keep.keepR5 m ρ c main_v25 (by decide)).trans ((Keep.keepH5 m ρ c main_v25 (by not_written)).trans ((Keep.keepR4 m ρ c main_v25 (by decide)).trans ((Keep.keepH4 m ρ c main_v25 (by not_written)).trans ((Keep.keepR3 m ρ c main_v25 (by decide)).trans ((Keep.keepH3 m ρ c main_v25 (by not_written)).trans ((Keep.keepR2 m ρ c main_v25 (by decide)).trans ((Keep.keepH2 m ρ c main_v25 (by not_written)).trans ((Keep.keepR1 m ρ c main_v25 (by decide)).trans ((Keep.keepH1 m ρ c main_v25 (by not_written)).trans (Keep.keepR0 m ρ c main_v25 (by decide)))))))))))))))).trans (w1_norm m ρ c)

theorem arg5_at16 : W16 m ρ c (Proc.devRef .tc main_arg5) = a5 m c :=
  ((Keep.keepR7 m ρ c main_arg5 (by decide)).trans ((Keep.keepH7 m ρ c main_arg5 (by not_written)).trans ((Keep.keepR6 m ρ c main_arg5 (by decide)).trans ((Keep.keepH6 m ρ c main_arg5 (by not_written)).trans ((Keep.keepR5 m ρ c main_arg5 (by decide)).trans ((Keep.keepH5 m ρ c main_arg5 (by not_written)).trans ((Keep.keepR4 m ρ c main_arg5 (by decide)).trans ((Keep.keepH4 m ρ c main_arg5 (by not_written)).trans ((Keep.keepR3 m ρ c main_arg5 (by decide)).trans ((Keep.keepH3 m ρ c main_arg5 (by not_written)).trans ((Keep.keepR2 m ρ c main_arg5 (by decide)).trans ((Keep.keepH2 m ρ c main_arg5 (by not_written)).trans ((Keep.keepR1 m ρ c main_arg5 (by decide)).trans ((Keep.keepH1 m ρ c main_arg5 (by not_written)).trans ((Keep.keepR0 m ρ c main_arg5 (by decide)).trans (Keep.keepH0 m ρ c main_arg5 (by not_written))))))))))))))))).trans rfl

theorem l2_agg : W17 m ρ c (Proc.devRef .tc main_v121) = (Cert.Spec.agg (Cert.Spec.dense (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) (Cert.Spec.matC (a4 m c))) (a1 m c)) := by
  show StableHlo.after hostOps8 (W16 m ρ c) (Proc.devRef .tc main_v121) = _
  dsimp only [hostOps8]
  after_results_simp
  rw [l2_hl m ρ c, l2_src m ρ c, l2_dst m ρ c, l2_norm m ρ c]
  rfl

theorem l2_b : W17 m ρ c (Proc.devRef .tc main_v124) = (Cert.Spec.rowC (a5 m c)) := by
  show StableHlo.after hostOps8 (W16 m ρ c) (Proc.devRef .tc main_v124) = _
  dsimp only [hostOps8]
  after_results_simp
  rw [arg5_at16 m ρ c]
  rfl

theorem l2_hl' : W17 m ρ c (Proc.devRef .tc main_v108) = (Cert.Spec.dense (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) (Cert.Spec.matC (a4 m c))) :=
  (Keep.keepH8 m ρ c main_v108 (by not_written)).trans (l2_hl m ρ c)

theorem l2_dinv2 : W17 m ρ c (Proc.devRef .tc main_v27) = Cert.Spec.dinv2 (a1 m c) :=
  ((Keep.keepH8 m ρ c main_v27 (by not_written)).trans ((Keep.keepR7 m ρ c main_v27 (by decide)).trans ((Keep.keepH7 m ρ c main_v27 (by not_written)).trans ((Keep.keepR6 m ρ c main_v27 (by decide)).trans ((Keep.keepH6 m ρ c main_v27 (by not_written)).trans ((Keep.keepR5 m ρ c main_v27 (by decide)).trans ((Keep.keepH5 m ρ c main_v27 (by not_written)).trans ((Keep.keepR4 m ρ c main_v27 (by decide)).trans ((Keep.keepH4 m ρ c main_v27 (by not_written)).trans ((Keep.keepR3 m ρ c main_v27 (by decide)).trans ((Keep.keepH3 m ρ c main_v27 (by not_written)).trans ((Keep.keepR2 m ρ c main_v27 (by decide)).trans ((Keep.keepH2 m ρ c main_v27 (by not_written)).trans ((Keep.keepR1 m ρ c main_v27 (by decide)).trans ((Keep.keepH1 m ρ c main_v27 (by not_written)).trans (Keep.keepR0 m ρ c main_v27 (by decide))))))))))))))))).trans (w1_dinv2 m ρ c)

theorem l2_pre : W18 m ρ c (Proc.devRef .tc main_v125) = (Cert.Spec.pre (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) (a1 m c) (Cert.Spec.matC (a4 m c)) (Cert.Spec.rowC (a5 m c))) := by
  refine (W18_arr m ρ c 4).trans ((region8_value (V17 m ρ) c).trans ?_)
  show Cert.Spec.combine (W17 m ρ c (Proc.devRef .tc main_v121)) (W17 m ρ c (Proc.devRef .tc main_v108)) (W17 m ρ c (Proc.devRef .tc main_v27)) (W17 m ρ c (Proc.devRef .tc main_v124)) = _
  rw [l2_agg m ρ c, l2_hl' m ρ c, l2_dinv2 m ρ c, l2_b m ρ c]
  rfl

theorem arg6_at18 : W18 m ρ c (Proc.devRef .tc main_arg6) = a6 m c :=
  ((Keep.keepR8 m ρ c main_arg6 (by decide)).trans ((Keep.keepH8 m ρ c main_arg6 (by not_written)).trans ((Keep.keepR7 m ρ c main_arg6 (by decide)).trans ((Keep.keepH7 m ρ c main_arg6 (by not_written)).trans ((Keep.keepR6 m ρ c main_arg6 (by decide)).trans ((Keep.keepH6 m ρ c main_arg6 (by not_written)).trans ((Keep.keepR5 m ρ c main_arg6 (by decide)).trans ((Keep.keepH5 m ρ c main_arg6 (by not_written)).trans ((Keep.keepR4 m ρ c main_arg6 (by decide)).trans ((Keep.keepH4 m ρ c main_arg6 (by not_written)).trans ((Keep.keepR3 m ρ c main_arg6 (by decide)).trans ((Keep.keepH3 m ρ c main_arg6 (by not_written)).trans ((Keep.keepR2 m ρ c main_arg6 (by decide)).trans ((Keep.keepH2 m ρ c main_arg6 (by not_written)).trans ((Keep.keepR1 m ρ c main_arg6 (by decide)).trans ((Keep.keepH1 m ρ c main_arg6 (by not_written)).trans ((Keep.keepR0 m ρ c main_arg6 (by decide)).trans (Keep.keepH0 m ρ c main_arg6 (by not_written))))))))))))))))))).trans rfl

theorem arg7_at18 : W18 m ρ c (Proc.devRef .tc main_arg7) = a7 m c :=
  ((Keep.keepR8 m ρ c main_arg7 (by decide)).trans ((Keep.keepH8 m ρ c main_arg7 (by not_written)).trans ((Keep.keepR7 m ρ c main_arg7 (by decide)).trans ((Keep.keepH7 m ρ c main_arg7 (by not_written)).trans ((Keep.keepR6 m ρ c main_arg7 (by decide)).trans ((Keep.keepH6 m ρ c main_arg7 (by not_written)).trans ((Keep.keepR5 m ρ c main_arg7 (by decide)).trans ((Keep.keepH5 m ρ c main_arg7 (by not_written)).trans ((Keep.keepR4 m ρ c main_arg7 (by decide)).trans ((Keep.keepH4 m ρ c main_arg7 (by not_written)).trans ((Keep.keepR3 m ρ c main_arg7 (by decide)).trans ((Keep.keepH3 m ρ c main_arg7 (by not_written)).trans ((Keep.keepR2 m ρ c main_arg7 (by decide)).trans ((Keep.keepH2 m ρ c main_arg7 (by not_written)).trans ((Keep.keepR1 m ρ c main_arg7 (by decide)).trans ((Keep.keepH1 m ρ c main_arg7 (by not_written)).trans ((Keep.keepR0 m ρ c main_arg7 (by decide)).trans (Keep.keepH0 m ρ c main_arg7 (by not_written))))))))))))))))))).trans rfl

theorem l2_mu : W19 m ρ c (Proc.devRef .tc main_v129) = (Cert.Spec.colMean (Cert.Spec.pre (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) (a1 m c) (Cert.Spec.matC (a4 m c)) (Cert.Spec.rowC (a5 m c)))) := by
  show StableHlo.after hostOps9 (W18 m ρ c) (Proc.devRef .tc main_v129) = _
  dsimp only [hostOps9]
  after_results_simp
  rw [l2_pre m ρ c]
  rfl

theorem l2_var : W19 m ρ c (Proc.devRef .tc main_v136) = (Cert.Spec.colVar (Cert.Spec.pre (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) (a1 m c) (Cert.Spec.matC (a4 m c)) (Cert.Spec.rowC (a5 m c)))) := by
  show StableHlo.after hostOps9 (W18 m ρ c) (Proc.devRef .tc main_v136) = _
  dsimp only [hostOps9]
  after_results_simp
  rw [l2_pre m ρ c]
  rfl

theorem l2_g : W19 m ρ c (Proc.devRef .tc main_v139) = (Cert.Spec.rowC (a6 m c)) := by
  show StableHlo.after hostOps9 (W18 m ρ c) (Proc.devRef .tc main_v139) = _
  dsimp only [hostOps9]
  after_results_simp
  rw [arg6_at18 m ρ c]
  rfl

theorem l2_be : W19 m ρ c (Proc.devRef .tc main_v142) = (Cert.Spec.rowC (a7 m c)) := by
  show StableHlo.after hostOps9 (W18 m ρ c) (Proc.devRef .tc main_v142) = _
  dsimp only [hostOps9]
  after_results_simp
  rw [arg7_at18 m ρ c]
  rfl

theorem l2_pre' : W19 m ρ c (Proc.devRef .tc main_v125) = (Cert.Spec.pre (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) (a1 m c) (Cert.Spec.matC (a4 m c)) (Cert.Spec.rowC (a5 m c))) :=
  (Keep.keepH9 m ρ c main_v125 (by not_written)).trans (l2_pre m ρ c)

theorem l2_res : W19 m ρ c (Proc.devRef .tc main_v105) = (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) :=
  ((Keep.keepH9 m ρ c main_v105 (by not_written)).trans ((Keep.keepR8 m ρ c main_v105 (by decide)).trans ((Keep.keepH8 m ρ c main_v105 (by not_written)).trans ((Keep.keepR7 m ρ c main_v105 (by decide)).trans (Keep.keepH7 m ρ c main_v105 (by not_written)))))).trans (l1_out m ρ c)

theorem l2_out : W20 m ρ c (Proc.devRef .tc main_v143) = (Cert.Spec.layerR (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) (a1 m c) (Cert.Spec.matC (a4 m c)) (Cert.Spec.rowC (a5 m c)) (Cert.Spec.rowC (a6 m c)) (Cert.Spec.rowC (a7 m c))) := by
  refine (W20_arr m ρ c 6).trans ((region9_value (V19 m ρ) c).trans ?_)
  show Cert.Spec.bnReluRes (W19 m ρ c (Proc.devRef .tc main_v125)) (W19 m ρ c (Proc.devRef .tc main_v129)) (W19 m ρ c (Proc.devRef .tc main_v136)) (W19 m ρ c (Proc.devRef .tc main_v139)) (W19 m ρ c (Proc.devRef .tc main_v142)) (W19 m ρ c (Proc.devRef .tc main_v105)) = _
  rw [l2_pre' m ρ c, l2_mu m ρ c, l2_var m ρ c, l2_g m ρ c, l2_be m ρ c, l2_res m ρ c]
  rfl

theorem arg9_at20 : W20 m ρ c (Proc.devRef .tc main_arg9) = a9 m c :=
  ((Keep.keepR9 m ρ c main_arg9 (by decide)).trans ((Keep.keepH9 m ρ c main_arg9 (by not_written)).trans ((Keep.keepR8 m ρ c main_arg9 (by decide)).trans ((Keep.keepH8 m ρ c main_arg9 (by not_written)).trans ((Keep.keepR7 m ρ c main_arg9 (by decide)).trans ((Keep.keepH7 m ρ c main_arg9 (by not_written)).trans ((Keep.keepR6 m ρ c main_arg9 (by decide)).trans ((Keep.keepH6 m ρ c main_arg9 (by not_written)).trans ((Keep.keepR5 m ρ c main_arg9 (by decide)).trans ((Keep.keepH5 m ρ c main_arg9 (by not_written)).trans ((Keep.keepR4 m ρ c main_arg9 (by decide)).trans ((Keep.keepH4 m ρ c main_arg9 (by not_written)).trans ((Keep.keepR3 m ρ c main_arg9 (by decide)).trans ((Keep.keepH3 m ρ c main_arg9 (by not_written)).trans ((Keep.keepR2 m ρ c main_arg9 (by decide)).trans ((Keep.keepH2 m ρ c main_arg9 (by not_written)).trans ((Keep.keepR1 m ρ c main_arg9 (by decide)).trans ((Keep.keepH1 m ρ c main_arg9 (by not_written)).trans ((Keep.keepR0 m ρ c main_arg9 (by decide)).trans (Keep.keepH0 m ρ c main_arg9 (by not_written))))))))))))))))))))).trans rfl

theorem arg8_at21 : W21 m ρ c (Proc.devRef .tc main_arg8) = a8 m c :=
  ((Keep.keepH10 m ρ c main_arg8 (by not_written)).trans ((Keep.keepR9 m ρ c main_arg8 (by decide)).trans ((Keep.keepH9 m ρ c main_arg8 (by not_written)).trans ((Keep.keepR8 m ρ c main_arg8 (by decide)).trans ((Keep.keepH8 m ρ c main_arg8 (by not_written)).trans ((Keep.keepR7 m ρ c main_arg8 (by decide)).trans ((Keep.keepH7 m ρ c main_arg8 (by not_written)).trans ((Keep.keepR6 m ρ c main_arg8 (by decide)).trans ((Keep.keepH6 m ρ c main_arg8 (by not_written)).trans ((Keep.keepR5 m ρ c main_arg8 (by decide)).trans ((Keep.keepH5 m ρ c main_arg8 (by not_written)).trans ((Keep.keepR4 m ρ c main_arg8 (by decide)).trans ((Keep.keepH4 m ρ c main_arg8 (by not_written)).trans ((Keep.keepR3 m ρ c main_arg8 (by decide)).trans ((Keep.keepH3 m ρ c main_arg8 (by not_written)).trans ((Keep.keepR2 m ρ c main_arg8 (by decide)).trans ((Keep.keepH2 m ρ c main_arg8 (by not_written)).trans ((Keep.keepR1 m ρ c main_arg8 (by decide)).trans ((Keep.keepH1 m ρ c main_arg8 (by not_written)).trans ((Keep.keepR0 m ρ c main_arg8 (by decide)).trans (Keep.keepH0 m ρ c main_arg8 (by not_written)))))))))))))))))))))).trans rfl

theorem w21_bout : W21 m ρ c (Proc.devRef .tc main_v144) = Cert.Spec.row10 (a9 m c) := by
  show StableHlo.after hostOps10 (W20 m ρ c) (Proc.devRef .tc main_v144) = _
  dsimp only [hostOps10]
  after_results_simp
  rw [arg9_at20 m ρ c]
  rfl

theorem w21_h3 : W21 m ρ c (Proc.devRef .tc main_v143) = (Cert.Spec.layerR (Cert.Spec.layerR (Cert.Spec.layer0 (Cert.Spec.h0 (a0 m c) (a2 m c) (a3 m c)) (a1 m c) (Cert.Spec.matA (a4 m c)) (Cert.Spec.rowA (a5 m c)) (Cert.Spec.rowA (a6 m c)) (Cert.Spec.rowA (a7 m c))) (a1 m c) (Cert.Spec.matB (a4 m c)) (Cert.Spec.rowB (a5 m c)) (Cert.Spec.rowB (a6 m c)) (Cert.Spec.rowB (a7 m c))) (a1 m c) (Cert.Spec.matC (a4 m c)) (Cert.Spec.rowC (a5 m c)) (Cert.Spec.rowC (a6 m c)) (Cert.Spec.rowC (a7 m c))) :=
  (Keep.keepH10 m ρ c main_v143 (by not_written)).trans (l2_out m ρ c)

theorem result : W22 m ρ c (Proc.devRef .tc main_v145) = Cert.Spec.out (a0 m c) (a1 m c) (a2 m c) (a3 m c) (a4 m c) (a5 m c) (a6 m c) (a7 m c) (a8 m c) (a9 m c) := by
  refine (W22_arr m ρ c 3).trans ((region10_value (V21 m ρ) c).trans ?_)
  show Cert.Spec.outProj (W21 m ρ c (Proc.devRef .tc main_v143)) (W21 m ρ c (Proc.devRef .tc main_arg8)) (W21 m ρ c (Proc.devRef .tc main_v144)) = _
  rw [w21_h3 m ρ c, arg8_at21 m ρ c, w21_bout m ρ c]
  rfl

end Cert.KernelIdeal.Chain

end
-- ==== Proof.RefChain.lean ====
/-
  The reference's result, a layer at a time.

  The reference is a straight line of 302 host operations, and after its run every buffer holds the fold of the
  operations over the launch contents. The hidden state after a layer is read many times by the next layer, so the
  fold is evaluated in five pieces — the edge lists with the input projection, the three layers, the output
  projection — each from the buffers the piece before leaves: a piece's operations are applied to the previous
  hidden state as a single value, and what comes out is the stage function of the arguments.
-/
import proofs.«139786_j89704686944683_1_alg».proof.Proof.RefReadP

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_append (l1 l2 : List (HloOp τ sig (Elt F))) (V : Valuation τ sig (Elt F)) :
    after (l1 ++ l2) V = after l2 (after l1 V) := by
  induction l1 generalizing V with
  | nil => rfl
  | cons op l ih => exact ih _

/-! ## The five pieces of the program -/

/-- Piece 0: the edge lists and the input projection. -/
abbrev seg0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    binary main_arg0 main_arg2 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg3 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v7) (TRef.of (T := ⟨S50000x128, .f32⟩) main_call0_v0) (TRef.of (T := ⟨S50000x128, .f32⟩) main_v8) maximumf ]

/-- Piece 1: the first layer. -/
abbrev seg1 : List (HloOp τ sig (Elt F)) :=
  [ unary main_arg4 main_v9 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v9 main_v10 rfl shapeCasts_S1x128x128_S128x128,
    unary main_arg5 main_v11 ((extractStridedSlice S1x128 ![0, 0] · slices_S3x128_S1x128_0_0) : (⟨S3x128, .f32⟩ : BufTy).Contents (Elt F) → (⟨S1x128, .f32⟩ : BufTy).Contents (Elt F)),
    reshape main_v11 main_v12 rfl shapeCasts_S1x128_S128,
    binary main_v8 main_v10 main_v13 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v14 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v15 (broadcastInDim S50000 ![] bcast_S_S50000 : (⟨S_, .f32⟩ : BufTy).Contents (Elt F) → (⟨S50000, .f32⟩ : BufTy).Contents (Elt F)),
    unary main_v3 main_v16 (broadcastInDim S600000x1 ![0] bcast_S600000_S600000x1_0 : (⟨S600000, .i32⟩ : BufTy).Contents (Elt F) → (⟨S600000x1, .i32⟩ : BufTy).Contents (Elt F)),
    ternary main_v15 main_v16 main_v14 main_v17 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v18 (broadcastInDim S50000 ![] bcast_S_S50000 : (⟨S_, .f32⟩ : BufTy).Contents (Elt F) → (⟨S50000, .f32⟩ : BufTy).Contents (Elt F)),
    binary main_v17 main_v18 main_v19 (addf : (⟨S50000, .f32⟩ : BufTy).Contents (Elt F) → (⟨S50000, .f32⟩ : BufTy).Contents (Elt F) → (⟨S50000, .f32⟩ : BufTy).Contents (Elt F)),
    unary main_v19 main_v20 (Host.rsqrt : (⟨S50000, .f32⟩ : BufTy).Contents (Elt F) → (⟨S50000, .f32⟩ : BufTy).Contents (Elt F)),
    nullary main_c (constantI S_ 32 0#32),
    unary main_c main_v21 (broadcastInDim S600000 ![] bcast_S_S600000 : (⟨S_, .i32⟩ : BufTy).Contents (Elt F) → (⟨S600000, .i32⟩ : BufTy).Contents (Elt F)),
    binary main_v1 main_v21 main_v22 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v23 (broadcastInDim S600000 ![] bcast_S_S600000 : (⟨S_, .i32⟩ : BufTy).Contents (Elt F) → (⟨S600000, .i32⟩ : BufTy).Contents (Elt F)),
    binary main_v1 main_v23 main_v24 (addi : (⟨S600000, .i32⟩ : BufTy).Contents (Elt F) → (⟨S600000, .i32⟩ : BufTy).Contents (Elt F) → (⟨S600000, .i32⟩ : BufTy).Contents (Elt F)),
    ternary main_v22 main_v24 main_v1 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v25 main_v26 (broadcastInDim S600000x1 ![0] bcast_S600000_S600000x1_0 : (⟨S600000, .i32⟩ : BufTy).Contents (Elt F) → (⟨S600000x1, .i32⟩ : BufTy).Contents (Elt F)),
    binary main_v20 main_v26 main_v27 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_3 (constantI S_ 32 0#32),
    unary main_c_3 main_v28 (broadcastInDim S600000 ![] bcast_S_S600000 : (⟨S_, .i32⟩ : BufTy).Contents (Elt F) → (⟨S600000, .i32⟩ : BufTy).Contents (Elt F)),
    binary main_v3 main_v28 main_v29 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v30 (broadcastInDim S600000 ![] bcast_S_S600000 : (⟨S_, .i32⟩ : BufTy).Contents (Elt F) → (⟨S600000, .i32⟩ : BufTy).Contents (Elt F)),
    binary main_v3 main_v30 main_v31 (addi : (⟨S600000, .i32⟩ : BufTy).Contents (Elt F) → (⟨S600000, .i32⟩ : BufTy).Contents (Elt F) → (⟨S600000, .i32⟩ : BufTy).Contents (Elt F)),
    ternary main_v29 main_v31 main_v3 main_v32 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v32 main_v33 (broadcastInDim S600000x1 ![0] bcast_S600000_S600000x1_0 : (⟨S600000, .i32⟩ : BufTy).Contents (Elt F) → (⟨S600000x1, .i32⟩ : BufTy).Contents (Elt F)),
    binary main_v20 main_v33 main_v34 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v27 main_v34 main_v35 (mulf : (⟨S600000, .f32⟩ : BufTy).Contents (Elt F) → (⟨S600000, .f32⟩ : BufTy).Contents (Elt F) → (⟨S600000, .f32⟩ : BufTy).Contents (Elt F)),
    nullary main_c_5 (constantI S_ 32 0#32),
    unary main_c_5 main_v36 (broadcastInDim S600000 ![] bcast_S_S600000 : (⟨S_, .i32⟩ : BufTy).Contents (Elt F) → (⟨S600000, .i32⟩ : BufTy).Contents (Elt F)),
    binary main_v1 main_v36 main_v37 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v38 (broadcastInDim S600000 ![] bcast_S_S600000 : (⟨S_, .i32⟩ : BufTy).Contents (Elt F) → (⟨S600000, .i32⟩ : BufTy).Contents (Elt F)),
    binary main_v1 main_v38 main_v39 (addi : (⟨S600000, .i32⟩ : BufTy).Contents (Elt F) → (⟨S600000, .i32⟩ : BufTy).Contents (Elt F) → (⟨S600000, .i32⟩ : BufTy).Contents (Elt F)),
    ternary main_v37 main_v39 main_v1 main_v40 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v40 main_v41 (broadcastInDim S600000x1 ![0] bcast_S600000_S600000x1_0 : (⟨S600000, .i32⟩ : BufTy).Contents (Elt F) → (⟨S600000x1, .i32⟩ : BufTy).Contents (Elt F)),
    binary main_v13 main_v41 main_v42 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v35 main_v43 (broadcastInDim S600000x1 ![0] bcast_S600000_S600000x1_0 : (⟨S600000, .f32⟩ : BufTy).Contents (Elt F) → (⟨S600000x1, .f32⟩ : BufTy).Contents (Elt F)),
    unary main_v43 main_v44 (broadcastInDim S600000x128 ![0, 1] bcast_S600000x1_S600000x128_0_1 : (⟨S600000x1, .f32⟩ : BufTy).Contents (Elt F) → (⟨S600000x128, .f32⟩ : BufTy).Contents (Elt F)),
    binary main_v42 main_v44 main_v45 (mulf : (⟨S600000x128, .f32⟩ : BufTy).Contents (Elt F) → (⟨S600000x128, .f32⟩ : BufTy).Contents (Elt F) → (⟨S600000x128, .f32⟩ : BufTy).Contents (Elt F)),
    nullary main_cst_7 (constant S_ .f32 0x00000000#32),
    unary main_cst_7 main_v46 (broadcastInDim S50000x128 ![] bcast_S_S50000x128 : (⟨S_, .f32⟩ : BufTy).Contents (Elt F) → (⟨S50000x128, .f32⟩ : BufTy).Contents (Elt F)),
    unary main_v3 main_v47 (broadcastInDim S600000x1 ![0] bcast_S600000_S600000x1_0 : (⟨S600000, .i32⟩ : BufTy).Contents (Elt F) → (⟨S600000x1, .i32⟩ : BufTy).Contents (Elt F)),
    ternary main_v46 main_v47 main_v45 main_v48 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v20 main_v20 main_v49 (mulf : (⟨S50000, .f32⟩ : BufTy).Contents (Elt F) → (⟨S50000, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    unary main_v50 main_v51 (broadcastInDim S50000x128 ![0, 1] bcast_S50000x1_S50000x128_0_1 : (⟨S50000x1, .f32⟩ : BufTy).Contents (Elt F) → (⟨S50000x128, .f32⟩ : BufTy).Contents (Elt F)),
    binary main_v13 main_v51 main_v52 (mulf : (⟨S50000x128, .f32⟩ : BufTy).Contents (Elt F) → (⟨S50000x128, .f32⟩ : BufTy).Contents (Elt F) → (⟨S50000x128, .f32⟩ : BufTy).Contents (Elt F)),
    binary main_v48 main_v52 main_v53 (addf : (⟨S50000x128, .f32⟩ : BufTy).Contents (Elt F) → (⟨S50000x128, .f32⟩ : BufTy).Contents (Elt F) → (⟨S50000x128, .f32⟩ : BufTy).Contents (Elt F)),
    unary main_v12 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    unary main_arg6 main_v57 ((extractStridedSlice S1x128 ![0, 0] · slices_S3x128_S1x128_0_0) : (⟨S3x128, .f32⟩ : BufTy).Contents (Elt F) → (⟨S1x128, .f32⟩ : BufTy).Contents (Elt F)),
    reshape main_v57 main_v58 rfl shapeCasts_S1x128_S128,
    unary main_arg7 main_v59 ((extractStridedSlice S1x128 ![0, 0] · slices_S3x128_S1x128_0_0) : (⟨S3x128, .f32⟩ : BufTy).Contents (Elt F) → (⟨S1x128, .f32⟩ : BufTy).Contents (Elt F)),
    reshape main_v59 main_v60 rfl shapeCasts_S1x128_S128,
    nullary main_cst_8 (constant S_ .f32 0x00000000#32),
    binary main_v56 main_cst_8 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_9 (constant S_ .f32 0x47435000#32),
    unary main_cst_9 main_v62 (broadcastInDim S128 ![] bcast_S_S128 : (⟨S_, .f32⟩ : BufTy).Contents (Elt F) → (⟨S128, .f32⟩ : BufTy).Contents (Elt F)),
    binary main_v61 main_v62 main_v63 (Host.divf : (⟨S128, .f32⟩ : BufTy).Contents (Elt F) → (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v56 main_v65 main_v66 (subf : (⟨S50000x128, .f32⟩ : BufTy).Contents (Elt F) → (⟨S50000x128, .f32⟩ : BufTy).Contents (Elt F) → (⟨S50000x128, .f32⟩ : BufTy).Contents (Elt F)),
    binary main_v66 main_v66 main_v67 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v67 main_cst_10 main_v68 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v69 (broadcastInDim S128 ![] bcast_S_S128 : (⟨S_, .f32⟩ : BufTy).Contents (Elt F) → (⟨S128, .f32⟩ : BufTy).Contents (Elt F)),
    binary main_v68 main_v69 main_v70 (Host.divf : (⟨S128, .f32⟩ : BufTy).Contents (Elt F) → (⟨S128, .f32⟩ : BufTy).Contents (Elt F) → (⟨S128, .f32⟩ : BufTy).Contents (Elt F)),
    unary main_v63 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v56 main_v72 main_v73 (subf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v74 (broadcastInDim S128 ![] bcast_S_S128 : (⟨S_, .f32⟩ : BufTy).Contents (Elt F) → (⟨S128, .f32⟩ : BufTy).Contents (Elt F)),
    binary main_v70 main_v74 main_v75 (addf : (⟨S128, .f32⟩ : BufTy).Contents (Elt F) → (⟨S128, .f32⟩ : BufTy).Contents (Elt F) → (⟨S128, .f32⟩ : BufTy).Contents (Elt F)),
    unary main_v75 main_v76 (Host.rsqrt : (⟨S128, .f32⟩ : BufTy).Contents (Elt F) → (⟨S128, .f32⟩ : BufTy).Contents (Elt F)),
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v73 main_v78 main_v79 (mulf : (⟨S50000x128, .f32⟩ : BufTy).Contents (Elt F) → (⟨S50000x128, .f32⟩ : BufTy).Contents (Elt F) → (⟨S50000x128, .f32⟩ : BufTy).Contents (Elt F)),
    unary main_v58 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v79 main_v81 main_v82 (mulf : (⟨S50000x128, .f32⟩ : BufTy).Contents (Elt F) → (⟨S50000x128, .f32⟩ : BufTy).Contents (Elt F) → (⟨S50000x128, .f32⟩ : BufTy).Contents (Elt F)),
    unary main_v60 main_v83 (broadcastInDim S1x128 ![1] bcast_S128_S1x128_1 : (⟨S128, .f32⟩ : BufTy).Contents (Elt F) → (⟨S1x128, .f32⟩ : BufTy).Contents (Elt F)),
    unary main_v83 main_v84 (broadcastInDim S50000x128 ![0, 1] bcast_S1x128_S50000x128_0_1 : (⟨S1x128, .f32⟩ : BufTy).Contents (Elt F) → (⟨S50000x128, .f32⟩ : BufTy).Contents (Elt F)),
    binary main_v82 main_v84 main_v85 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v85) (TRef.of (T := ⟨S50000x128, .f32⟩) main_call1_v0) (TRef.of (T := ⟨S50000x128, .f32⟩) main_v86) maximumf ]

/-- Piece 2: the second layer. -/
abbrev seg2 : List (HloOp τ sig (Elt F)) :=
  [ unary main_arg4 main_v87 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v87 main_v88 rfl shapeCasts_S1x128x128_S128x128,
    unary main_arg5 main_v89 ((extractStridedSlice S1x128 ![1, 0] · slices_S3x128_S1x128_1_0) : (⟨S3x128, .f32⟩ : BufTy).Contents (Elt F) → (⟨S1x128, .f32⟩ : BufTy).Contents (Elt F)),
    reshape main_v89 main_v90 rfl shapeCasts_S1x128_S128,
    binary main_v86 main_v88 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_13 (constant S_ .f32 0x3F800000#32),
    unary main_cst_13 main_v92 (broadcastInDim S600000 ![] bcast_S_S600000 : (⟨S_, .f32⟩ : BufTy).Contents (Elt F) → (⟨S600000, .f32⟩ : BufTy).Contents (Elt F)),
    nullary main_cst_14 (constant S_ .f32 0x00000000#32),
    unary main_cst_14 main_v93 (broadcastInDim S50000 ![] bcast_S_S50000 : (⟨S_, .f32⟩ : BufTy).Contents (Elt F) → (⟨S50000, .f32⟩ : BufTy).Contents (Elt F)),
    unary main_v3 main_v94 (broadcastInDim S600000x1 ![0] bcast_S600000_S600000x1_0 : (⟨S600000, .i32⟩ : BufTy).Contents (Elt F) → (⟨S600000x1, .i32⟩ : BufTy).Contents (Elt F)),
    ternary main_v93 main_v94 main_v92 main_v95 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_15 (constant S_ .f32 0x3F800000#32),
    unary main_cst_15 main_v96 (broadcastInDim S50000 ![] bcast_S_S50000 : (⟨S_, .f32⟩ : BufTy).Contents (Elt F) → (⟨S50000, .f32⟩ : BufTy).Contents (Elt F)),
    binary main_v95 main_v96 main_v97 (addf : (⟨S50000, .f32⟩ : BufTy).Contents (Elt F) → (⟨S50000, .f32⟩ : BufTy).Contents (Elt F) → (⟨S50000, .f32⟩ : BufTy).Contents (Elt F)),
    unary main_v97 main_v98 (Host.rsqrt : (⟨S50000, .f32⟩ : BufTy).Contents (Elt F) → (⟨S50000, .f32⟩ : BufTy).Contents (Elt F)),
    nullary main_c_16 (constantI S_ 32 0#32),
    unary main_c_16 main_v99 (broadcastInDim S600000 ![] bcast_S_S600000 : (⟨S_, .i32⟩ : BufTy).Contents (Elt F) → (⟨S600000, .i32⟩ : BufTy).Contents (Elt F)),
    binary main_v1 main_v99 main_v100 (cmpi .slt : (⟨S600000, .i32⟩ : BufTy).Contents (Elt F) → (⟨S600000, .i32⟩ : BufTy).Contents (Elt F) → (⟨S600000, .i1⟩ : BufTy).Contents (Elt F)),
    nullary main_c_17 (constantI S_ 32 50000#32),
    unary main_c_17 main_v101 (broadcastInDim S600000 ![] bcast_S_S600000 : (⟨S_, .i32⟩ : BufTy).Contents (Elt F) → (⟨S600000, .i32⟩ : BufTy).Contents (Elt F)),
    binary main_v1 main_v101 main_v102 (addi : (⟨S600000, .i32⟩ : BufTy).Contents (Elt F) → (⟨S600000, .i32⟩ : BufTy).Contents (Elt F) → (⟨S600000, .i32⟩ : BufTy).Contents (Elt F)),
    ternary main_v100 main_v102 main_v1 main_v103 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v103 main_v104 (broadcastInDim S600000x1 ![0] bcast_S600000_S600000x1_0 : (⟨S600000, .i32⟩ : BufTy).Contents (Elt F) → (⟨S600000x1, .i32⟩ : BufTy).Contents (Elt F)),
    binary main_v98 main_v104 main_v105 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_18 (constantI S_ 32 0#32),
    unary main_c_18 main_v106 (broadcastInDim S600000 ![] bcast_S_S600000 : (⟨S_, .i32⟩ : BufTy).Contents (Elt F) → (⟨S600000, .i32⟩ : BufTy).Contents (Elt F)),
    binary main_v3 main_v106 main_v107 (cmpi .slt : (⟨S600000, .i32⟩ : BufTy).Contents (Elt F) → (⟨S600000, .i32⟩ : BufTy).Contents (Elt F) → (⟨S600000, .i1⟩ : BufTy).Contents (Elt F)),
    nullary main_c_19 (constantI S_ 32 50000#32),
    unary main_c_19 main_v108 (broadcastInDim S600000 ![] bcast_S_S600000 : (⟨S_, .i32⟩ : BufTy).Contents (Elt F) → (⟨S600000, .i32⟩ : BufTy).Contents (Elt F)),
    binary main_v3 main_v108 main_v109 (addi : (⟨S600000, .i32⟩ : BufTy).Contents (Elt F) → (⟨S600000, .i32⟩ : BufTy).Contents (Elt F) → (⟨S600000, .i32⟩ : BufTy).Contents (Elt F)),
    ternary main_v107 main_v109 main_v3 main_v110 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v110 main_v111 (broadcastInDim S600000x1 ![0] bcast_S600000_S600000x1_0 : (⟨S600000, .i32⟩ : BufTy).Contents (Elt F) → (⟨S600000x1, .i32⟩ : BufTy).Contents (Elt F)),
    binary main_v98 main_v111 main_v112 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v105 main_v112 main_v113 (mulf : (⟨S600000, .f32⟩ : BufTy).Contents (Elt F) → (⟨S600000, .f32⟩ : BufTy).Contents (Elt F) → (⟨S600000, .f32⟩ : BufTy).Contents (Elt F)),
    nullary main_c_20 (constantI S_ 32 0#32),
    unary main_c_20 main_v114 (broadcastInDim S600000 ![] bcast_S_S600000 : (⟨S_, .i32⟩ : BufTy).Contents (Elt F) → (⟨S600000, .i32⟩ : BufTy).Contents (Elt F)),
    binary main_v1 main_v114 main_v115 (cmpi .slt : (⟨S600000, .i32⟩ : BufTy).Contents (Elt F) → (⟨S600000, .i32⟩ : BufTy).Contents (Elt F) → (⟨S600000, .i1⟩ : BufTy).Contents (Elt F)),
    nullary main_c_21 (constantI S_ 32 50000#32),
    unary main_c_21 main_v116 (broadcastInDim S600000 ![] bcast_S_S600000 : (⟨S_, .i32⟩ : BufTy).Contents (Elt F) → (⟨S600000, .i32⟩ : BufTy).Contents (Elt F)),
    binary main_v1 main_v116 main_v117 (addi : (⟨S600000, .i32⟩ : BufTy).Contents (Elt F) → (⟨S600000, .i32⟩ : BufTy).Contents (Elt F) → (⟨S600000, .i32⟩ : BufTy).Contents (Elt F)),
    ternary main_v115 main_v117 main_v1 main_v118 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v118 main_v119 (broadcastInDim S600000x1 ![0] bcast_S600000_S600000x1_0 : (⟨S600000, .i32⟩ : BufTy).Contents (Elt F) → (⟨S600000x1, .i32⟩ : BufTy).Contents (Elt F)),
    binary main_v91 main_v119 main_v120 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v113 main_v121 (broadcastInDim S600000x1 ![0] bcast_S600000_S600000x1_0 : (⟨S600000, .f32⟩ : BufTy).Contents (Elt F) → (⟨S600000x1, .f32⟩ : BufTy).Contents (Elt F)),
    unary main_v121 main_v122 (broadcastInDim S600000x128 ![0, 1] bcast_S600000x1_S600000x128_0_1 : (⟨S600000x1, .f32⟩ : BufTy).Contents (Elt F) → (⟨S600000x128, .f32⟩ : BufTy).Contents (Elt F)),
    binary main_v120 main_v122 main_v123 (mulf : (⟨S600000x128, .f32⟩ : BufTy).Contents (Elt F) → (⟨S600000x128, .f32⟩ : BufTy).Contents (Elt F) → (⟨S600000x128, .f32⟩ : BufTy).Contents (Elt F)),
    nullary main_cst_22 (constant S_ .f32 0x00000000#32),
    unary main_cst_22 main_v124 (broadcastInDim S50000x128 ![] bcast_S_S50000x128 : (⟨S_, .f32⟩ : BufTy).Contents (Elt F) → (⟨S50000x128, .f32⟩ : BufTy).Contents (Elt F)),
    unary main_v3 main_v125 (broadcastInDim S600000x1 ![0] bcast_S600000_S600000x1_0 : (⟨S600000, .i32⟩ : BufTy).Contents (Elt F) → (⟨S600000x1, .i32⟩ : BufTy).Contents (Elt F)),
    ternary main_v124 main_v125 main_v123 main_v126 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v98 main_v98 main_v127 (mulf : (⟨S50000, .f32⟩ : BufTy).Contents (Elt F) → (⟨S50000, .f32⟩ : BufTy).Contents (Elt F) → (⟨S50000, .f32⟩ : BufTy).Contents (Elt F)),
    unary main_v127 main_v128 (broadcastInDim S50000x1 ![0] bcast_S50000_S50000x1_0 : (⟨S50000, .f32⟩ : BufTy).Contents (Elt F) → (⟨S50000x1, .f32⟩ : BufTy).Contents (Elt F)),
    unary main_v128 main_v129 (broadcastInDim S50000x128 ![0, 1] bcast_S50000x1_S50000x128_0_1 : (⟨S50000x1, .f32⟩ : BufTy).Contents (Elt F) → (⟨S50000x128, .f32⟩ : BufTy).Contents (Elt F)),
    binary main_v91 main_v129 main_v130 (mulf : (⟨S50000x128, .f32⟩ : BufTy).Contents (Elt F) → (⟨S50000x128, .f32⟩ : BufTy).Contents (Elt F) → (⟨S50000x128, .f32⟩ : BufTy).Contents (Elt F)),
    binary main_v126 main_v130 main_v131 (addf : (⟨S50000x128, .f32⟩ : BufTy).Contents (Elt F) → (⟨S50000x128, .f32⟩ : BufTy).Contents (Elt F) → (⟨S50000x128, .f32⟩ : BufTy).Contents (Elt F)),
    unary main_v90 main_v132 (broadcastInDim S1x128 ![1] bcast_S128_S1x128_1 : (⟨S128, .f32⟩ : BufTy).Contents (Elt F) → (⟨S1x128, .f32⟩ : BufTy).Contents (Elt F)),
    unary main_v132 main_v133 (broadcastInDim S50000x128 ![0, 1] bcast_S1x128_S50000x128_0_1 : (⟨S1x128, .f32⟩ : BufTy).Contents (Elt F) → (⟨S50000x128, .f32⟩ : BufTy).Contents (Elt F)),
    binary main_v131 main_v133 main_v134 (addf : (⟨S50000x128, .f32⟩ : BufTy).Contents (Elt F) → (⟨S50000x128, .f32⟩ : BufTy).Contents (Elt F) → (⟨S50000x128, .f32⟩ : BufTy).Contents (Elt F)),
    unary main_arg6 main_v135 ((extractStridedSlice S1x128 ![1, 0] · slices_S3x128_S1x128_1_0) : (⟨S3x128, .f32⟩ : BufTy).Contents (Elt F) → (⟨S1x128, .f32⟩ : BufTy).Contents (Elt F)),
    reshape main_v135 main_v136 rfl shapeCasts_S1x128_S128,
    unary main_arg7 main_v137 ((extractStridedSlice S1x128 ![1, 0] · slices_S3x128_S1x128_1_0) : (⟨S3x128, .f32⟩ : BufTy).Contents (Elt F) → (⟨S1x128, .f32⟩ : BufTy).Contents (Elt F)),
    reshape main_v137 main_v138 rfl shapeCasts_S1x128_S128,
    nullary main_cst_23 (constant S_ .f32 0x00000000#32),
    binary main_v134 main_cst_23 main_v139 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_24 (constant S_ .f32 0x47435000#32),
    unary main_cst_24 main_v140 (broadcastInDim S128 ![] bcast_S_S128 : (⟨S_, .f32⟩ : BufTy).Contents (Elt F) → (⟨S128, .f32⟩ : BufTy).Contents (Elt F)),
    binary main_v139 main_v140 main_v141 (Host.divf : (⟨S128, .f32⟩ : BufTy).Contents (Elt F) → (⟨S128, .f32⟩ : BufTy).Contents (Elt F) → (⟨S128, .f32⟩ : BufTy).Contents (Elt F)),
    unary main_v141 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v134 main_v143 main_v144 (subf : (⟨S50000x128, .f32⟩ : BufTy).Contents (Elt F) → (⟨S50000x128, .f32⟩ : BufTy).Contents (Elt F) → (⟨S50000x128, .f32⟩ : BufTy).Contents (Elt F)),
    binary main_v144 main_v144 main_v145 (mulf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v145 main_cst_25 main_v146 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v147 (broadcastInDim S128 ![] bcast_S_S128 : (⟨S_, .f32⟩ : BufTy).Contents (Elt F) → (⟨S128, .f32⟩ : BufTy).Contents (Elt F)),
    binary main_v146 main_v147 main_v148 (Host.divf : (⟨S128, .f32⟩ : BufTy).Contents (Elt F) → (⟨S128, .f32⟩ : BufTy).Contents (Elt F) → (⟨S128, .f32⟩ : BufTy).Contents (Elt F)),
    unary main_v141 main_v149 (broadcastInDim S1x128 ![1] bcast_S128_S1x128_1 : (⟨S128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v134 main_v150 main_v151 (subf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x3727C5AC#32),
    unary main_cst_27 main_v152 (broadcastInDim S128 ![] bcast_S_S128 : (⟨S_, .f32⟩ : BufTy).Contents (Elt F) → (⟨S128, .f32⟩ : BufTy).Contents (Elt F)),
    binary main_v148 main_v152 main_v153 (addf : (⟨S128, .f32⟩ : BufTy).Contents (Elt F) → (⟨S128, .f32⟩ : BufTy).Contents (Elt F) → (⟨S128, .f32⟩ : BufTy).Contents (Elt F)),
    unary main_v153 main_v154 (Host.rsqrt : (⟨S128, .f32⟩ : BufTy).Contents (Elt F) → (⟨S128, .f32⟩ : BufTy).Contents (Elt F)),
    unary main_v154 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v151 main_v156 main_v157 (mulf : (⟨S50000x128, .f32⟩ : BufTy).Contents (Elt F) → (⟨S50000x128, .f32⟩ : BufTy).Contents (Elt F) → (⟨S50000x128, .f32⟩ : BufTy).Contents (Elt F)),
    unary main_v136 main_v158 (broadcastInDim S1x128 ![1] bcast_S128_S1x128_1 : (⟨S128, .f32⟩ : BufTy).Contents (Elt F) → (⟨S1x128, .f32⟩ : BufTy).Contents (Elt F)),
    unary main_v158 main_v159 (broadcastInDim S50000x128 ![0, 1] bcast_S1x128_S50000x128_0_1 : (⟨S1x128, .f32⟩ : BufTy).Contents (Elt F) → (⟨S50000x128, .f32⟩ : BufTy).Contents (Elt F)),
    binary main_v157 main_v159 main_v160 (mulf : (⟨S50000x128, .f32⟩ : BufTy).Contents (Elt F) → (⟨S50000x128, .f32⟩ : BufTy).Contents (Elt F) → (⟨S50000x128, .f32⟩ : BufTy).Contents (Elt F)),
    unary main_v138 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v160 main_v162 main_v163 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v163) (TRef.of (T := ⟨S50000x128, .f32⟩) main_call2_v0) (TRef.of (T := ⟨S50000x128, .f32⟩) main_v164) maximumf,
    binary main_v164 main_v86 main_v165 (addf : (⟨S50000x128, .f32⟩ : BufTy).Contents (Elt F) → (⟨S50000x128, .f32⟩ : BufTy).Contents (Elt F) → (⟨S50000x128, .f32⟩ : BufTy).Contents (Elt F)) ]

/-- Piece 3: the third layer. -/
abbrev seg3 : List (HloOp τ sig (Elt F)) :=
  [ unary main_arg4 main_v166 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v166 main_v167 rfl shapeCasts_S1x128x128_S128x128,
    unary main_arg5 main_v168 ((extractStridedSlice S1x128 ![2, 0] · slices_S3x128_S1x128_2_0) : (⟨S3x128, .f32⟩ : BufTy).Contents (Elt F) → (⟨S1x128, .f32⟩ : BufTy).Contents (Elt F)),
    reshape main_v168 main_v169 rfl shapeCasts_S1x128_S128,
    binary main_v165 main_v167 main_v170 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_28 (constant S_ .f32 0x3F800000#32),
    unary main_cst_28 main_v171 (broadcastInDim S600000 ![] bcast_S_S600000 : (⟨S_, .f32⟩ : BufTy).Contents (Elt F) → (⟨S600000, .f32⟩ : BufTy).Contents (Elt F)),
    nullary main_cst_29 (constant S_ .f32 0x00000000#32),
    unary main_cst_29 main_v172 (broadcastInDim S50000 ![] bcast_S_S50000 : (⟨S_, .f32⟩ : BufTy).Contents (Elt F) → (⟨S50000, .f32⟩ : BufTy).Contents (Elt F)),
    unary main_v3 main_v173 (broadcastInDim S600000x1 ![0] bcast_S600000_S600000x1_0 : (⟨S600000, .i32⟩ : BufTy).Contents (Elt F) → (⟨S600000x1, .i32⟩ : BufTy).Contents (Elt F)),
    ternary main_v172 main_v173 main_v171 main_v174 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_30 (constant S_ .f32 0x3F800000#32),
    unary main_cst_30 main_v175 (broadcastInDim S50000 ![] bcast_S_S50000 : (⟨S_, .f32⟩ : BufTy).Contents (Elt F) → (⟨S50000, .f32⟩ : BufTy).Contents (Elt F)),
    binary main_v174 main_v175 main_v176 (addf : (⟨S50000, .f32⟩ : BufTy).Contents (Elt F) → (⟨S50000, .f32⟩ : BufTy).Contents (Elt F) → (⟨S50000, .f32⟩ : BufTy).Contents (Elt F)),
    unary main_v176 main_v177 (Host.rsqrt : (⟨S50000, .f32⟩ : BufTy).Contents (Elt F) → (⟨S50000, .f32⟩ : BufTy).Contents (Elt F)),
    nullary main_c_31 (constantI S_ 32 0#32),
    unary main_c_31 main_v178 (broadcastInDim S600000 ![] bcast_S_S600000 : (⟨S_, .i32⟩ : BufTy).Contents (Elt F) → (⟨S600000, .i32⟩ : BufTy).Contents (Elt F)),
    binary main_v1 main_v178 main_v179 (cmpi .slt : (⟨S600000, .i32⟩ : BufTy).Contents (Elt F) → (⟨S600000, .i32⟩ : BufTy).Contents (Elt F) → (⟨S600000, .i1⟩ : BufTy).Contents (Elt F)),
    nullary main_c_32 (constantI S_ 32 50000#32),
    unary main_c_32 main_v180 (broadcastInDim S600000 ![] bcast_S_S600000 : (⟨S_, .i32⟩ : BufTy).Contents (Elt F) → (⟨S600000, .i32⟩ : BufTy).Contents (Elt F)),
    binary main_v1 main_v180 main_v181 (addi : (⟨S600000, .i32⟩ : BufTy).Contents (Elt F) → (⟨S600000, .i32⟩ : BufTy).Contents (Elt F) → (⟨S600000, .i32⟩ : BufTy).Contents (Elt F)),
    ternary main_v179 main_v181 main_v1 main_v182 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v182 main_v183 (broadcastInDim S600000x1 ![0] bcast_S600000_S600000x1_0 : (⟨S600000, .i32⟩ : BufTy).Contents (Elt F) → (⟨S600000x1, .i32⟩ : BufTy).Contents (Elt F)),
    binary main_v177 main_v183 main_v184 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_33 (constantI S_ 32 0#32),
    unary main_c_33 main_v185 (broadcastInDim S600000 ![] bcast_S_S600000 : (⟨S_, .i32⟩ : BufTy).Contents (Elt F) → (⟨S600000, .i32⟩ : BufTy).Contents (Elt F)),
    binary main_v3 main_v185 main_v186 (cmpi .slt : (⟨S600000, .i32⟩ : BufTy).Contents (Elt F) → (⟨S600000, .i32⟩ : BufTy).Contents (Elt F) → (⟨S600000, .i1⟩ : BufTy).Contents (Elt F)),
    nullary main_c_34 (constantI S_ 32 50000#32),
    unary main_c_34 main_v187 (broadcastInDim S600000 ![] bcast_S_S600000 : (⟨S_, .i32⟩ : BufTy).Contents (Elt F) → (⟨S600000, .i32⟩ : BufTy).Contents (Elt F)),
    binary main_v3 main_v187 main_v188 (addi : (⟨S600000, .i32⟩ : BufTy).Contents (Elt F) → (⟨S600000, .i32⟩ : BufTy).Contents (Elt F) → (⟨S600000, .i32⟩ : BufTy).Contents (Elt F)),
    ternary main_v186 main_v188 main_v3 main_v189 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v189 main_v190 (broadcastInDim S600000x1 ![0] bcast_S600000_S600000x1_0 : (⟨S600000, .i32⟩ : BufTy).Contents (Elt F) → (⟨S600000x1, .i32⟩ : BufTy).Contents (Elt F)),
    binary main_v177 main_v190 main_v191 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v184 main_v191 main_v192 (mulf : (⟨S600000, .f32⟩ : BufTy).Contents (Elt F) → (⟨S600000, .f32⟩ : BufTy).Contents (Elt F) → (⟨S600000, .f32⟩ : BufTy).Contents (Elt F)),
    nullary main_c_35 (constantI S_ 32 0#32),
    unary main_c_35 main_v193 (broadcastInDim S600000 ![] bcast_S_S600000 : (⟨S_, .i32⟩ : BufTy).Contents (Elt F) → (⟨S600000, .i32⟩ : BufTy).Contents (Elt F)),
    binary main_v1 main_v193 main_v194 (cmpi .slt : (⟨S600000, .i32⟩ : BufTy).Contents (Elt F) → (⟨S600000, .i32⟩ : BufTy).Contents (Elt F) → (⟨S600000, .i1⟩ : BufTy).Contents (Elt F)),
    nullary main_c_36 (constantI S_ 32 50000#32),
    unary main_c_36 main_v195 (broadcastInDim S600000 ![] bcast_S_S600000 : (⟨S_, .i32⟩ : BufTy).Contents (Elt F) → (⟨S600000, .i32⟩ : BufTy).Contents (Elt F)),
    binary main_v1 main_v195 main_v196 (addi : (⟨S600000, .i32⟩ : BufTy).Contents (Elt F) → (⟨S600000, .i32⟩ : BufTy).Contents (Elt F) → (⟨S600000, .i32⟩ : BufTy).Contents (Elt F)),
    ternary main_v194 main_v196 main_v1 main_v197 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v197 main_v198 (broadcastInDim S600000x1 ![0] bcast_S600000_S600000x1_0 : (⟨S600000, .i32⟩ : BufTy).Contents (Elt F) → (⟨S600000x1, .i32⟩ : BufTy).Contents (Elt F)),
    binary main_v170 main_v198 main_v199 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v192 main_v200 (broadcastInDim S600000x1 ![0] bcast_S600000_S600000x1_0 : (⟨S600000, .f32⟩ : BufTy).Contents (Elt F) → (⟨S600000x1, .f32⟩ : BufTy).Contents (Elt F)),
    unary main_v200 main_v201 (broadcastInDim S600000x128 ![0, 1] bcast_S600000x1_S600000x128_0_1 : (⟨S600000x1, .f32⟩ : BufTy).Contents (Elt F) → (⟨S600000x128, .f32⟩ : BufTy).Contents (Elt F)),
    binary main_v199 main_v201 main_v202 (mulf : (⟨S600000x128, .f32⟩ : BufTy).Contents (Elt F) → (⟨S600000x128, .f32⟩ : BufTy).Contents (Elt F) → (⟨S600000x128, .f32⟩ : BufTy).Contents (Elt F)),
    nullary main_cst_37 (constant S_ .f32 0x00000000#32),
    unary main_cst_37 main_v203 (broadcastInDim S50000x128 ![] bcast_S_S50000x128 : (⟨S_, .f32⟩ : BufTy).Contents (Elt F) → (⟨S50000x128, .f32⟩ : BufTy).Contents (Elt F)),
    unary main_v3 main_v204 (broadcastInDim S600000x1 ![0] bcast_S600000_S600000x1_0 : (⟨S600000, .i32⟩ : BufTy).Contents (Elt F) → (⟨S600000x1, .i32⟩ : BufTy).Contents (Elt F)),
    ternary main_v203 main_v204 main_v202 main_v205 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v177 main_v177 main_v206 (mulf : (⟨S50000, .f32⟩ : BufTy).Contents (Elt F) → (⟨S50000, .f32⟩ : BufTy).Contents (Elt F) → (⟨S50000, .f32⟩ : BufTy).Contents (Elt F)),
    unary main_v206 main_v207 (broadcastInDim S50000x1 ![0] bcast_S50000_S50000x1_0 : (⟨S50000, .f32⟩ : BufTy).Contents (Elt F) → (⟨S50000x1, .f32⟩ : BufTy).Contents (Elt F)),
    unary main_v207 main_v208 (broadcastInDim S50000x128 ![0, 1] bcast_S50000x1_S50000x128_0_1 : (⟨S50000x1, .f32⟩ : BufTy).Contents (Elt F) → (⟨S50000x128, .f32⟩ : BufTy).Contents (Elt F)),
    binary main_v170 main_v208 main_v209 (mulf : (⟨S50000x128, .f32⟩ : BufTy).Contents (Elt F) → (⟨S50000x128, .f32⟩ : BufTy).Contents (Elt F) → (⟨S50000x128, .f32⟩ : BufTy).Contents (Elt F)),
    binary main_v205 main_v209 main_v210 (addf : (⟨S50000x128, .f32⟩ : BufTy).Contents (Elt F) → (⟨S50000x128, .f32⟩ : BufTy).Contents (Elt F) → (⟨S50000x128, .f32⟩ : BufTy).Contents (Elt F)),
    unary main_v169 main_v211 (broadcastInDim S1x128 ![1] bcast_S128_S1x128_1 : (⟨S128, .f32⟩ : BufTy).Contents (Elt F) → (⟨S1x128, .f32⟩ : BufTy).Contents (Elt F)),
    unary main_v211 main_v212 (broadcastInDim S50000x128 ![0, 1] bcast_S1x128_S50000x128_0_1 : (⟨S1x128, .f32⟩ : BufTy).Contents (Elt F) → (⟨S50000x128, .f32⟩ : BufTy).Contents (Elt F)),
    binary main_v210 main_v212 main_v213 (addf : (⟨S50000x128, .f32⟩ : BufTy).Contents (Elt F) → (⟨S50000x128, .f32⟩ : BufTy).Contents (Elt F) → (⟨S50000x128, .f32⟩ : BufTy).Contents (Elt F)),
    unary main_arg6 main_v214 ((extractStridedSlice S1x128 ![2, 0] · slices_S3x128_S1x128_2_0) : (⟨S3x128, .f32⟩ : BufTy).Contents (Elt F) → (⟨S1x128, .f32⟩ : BufTy).Contents (Elt F)),
    reshape main_v214 main_v215 rfl shapeCasts_S1x128_S128,
    unary main_arg7 main_v216 ((extractStridedSlice S1x128 ![2, 0] · slices_S3x128_S1x128_2_0) : (⟨S3x128, .f32⟩ : BufTy).Contents (Elt F) → (⟨S1x128, .f32⟩ : BufTy).Contents (Elt F)),
    reshape main_v216 main_v217 rfl shapeCasts_S1x128_S128,
    nullary main_cst_38 (constant S_ .f32 0x00000000#32),
    binary main_v213 main_cst_38 main_v218 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_39 (constant S_ .f32 0x47435000#32),
    unary main_cst_39 main_v219 (broadcastInDim S128 ![] bcast_S_S128 : (⟨S_, .f32⟩ : BufTy).Contents (Elt F) → (⟨S128, .f32⟩ : BufTy).Contents (Elt F)),
    binary main_v218 main_v219 main_v220 (Host.divf : (⟨S128, .f32⟩ : BufTy).Contents (Elt F) → (⟨S128, .f32⟩ : BufTy).Contents (Elt F) → (⟨S128, .f32⟩ : BufTy).Contents (Elt F)),
    unary main_v220 main_v221 (broadcastInDim S1x128 ![1] bcast_S128_S1x128_1 : (⟨S128, .f32⟩ : BufTy).Contents (Elt F) → (⟨S1x128, .f32⟩ : BufTy).Contents (Elt F)),
    unary main_v221 main_v222 (broadcastInDim S50000x128 ![0, 1] bcast_S1x128_S50000x128_0_1 : (⟨S1x128, .f32⟩ : BufTy).Contents (Elt F) → (⟨S50000x128, .f32⟩ : BufTy).Contents (Elt F)),
    binary main_v213 main_v222 main_v223 (subf : (⟨S50000x128, .f32⟩ : BufTy).Contents (Elt F) → (⟨S50000x128, .f32⟩ : BufTy).Contents (Elt F) → (⟨S50000x128, .f32⟩ : BufTy).Contents (Elt F)),
    binary main_v223 main_v223 main_v224 (mulf : (⟨S50000x128, .f32⟩ : BufTy).Contents (Elt F) → (⟨S50000x128, .f32⟩ : BufTy).Contents (Elt F) → (⟨S50000x128, .f32⟩ : BufTy).Contents (Elt F)),
    nullary main_cst_40 (constant S_ .f32 0x00000000#32),
    binary main_v224 main_cst_40 main_v225 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_41 (constant S_ .f32 0x47435000#32),
    unary main_cst_41 main_v226 (broadcastInDim S128 ![] bcast_S_S128 : (⟨S_, .f32⟩ : BufTy).Contents (Elt F) → (⟨S128, .f32⟩ : BufTy).Contents (Elt F)),
    binary main_v225 main_v226 main_v227 (Host.divf : (⟨S128, .f32⟩ : BufTy).Contents (Elt F) → (⟨S128, .f32⟩ : BufTy).Contents (Elt F) → (⟨S128, .f32⟩ : BufTy).Contents (Elt F)),
    unary main_v220 main_v228 (broadcastInDim S1x128 ![1] bcast_S128_S1x128_1 : (⟨S128, .f32⟩ : BufTy).Contents (Elt F) → (⟨S1x128, .f32⟩ : BufTy).Contents (Elt F)),
    unary main_v228 main_v229 (broadcastInDim S50000x128 ![0, 1] bcast_S1x128_S50000x128_0_1 : (⟨S1x128, .f32⟩ : BufTy).Contents (Elt F) → (⟨S50000x128, .f32⟩ : BufTy).Contents (Elt F)),
    binary main_v213 main_v229 main_v230 (subf : (⟨S50000x128, .f32⟩ : BufTy).Contents (Elt F) → (⟨S50000x128, .f32⟩ : BufTy).Contents (Elt F) → (⟨S50000x128, .f32⟩ : BufTy).Contents (Elt F)),
    nullary main_cst_42 (constant S_ .f32 0x3727C5AC#32),
    unary main_cst_42 main_v231 (broadcastInDim S128 ![] bcast_S_S128 : (⟨S_, .f32⟩ : BufTy).Contents (Elt F) → (⟨S128, .f32⟩ : BufTy).Contents (Elt F)),
    binary main_v227 main_v231 main_v232 (addf : (⟨S128, .f32⟩ : BufTy).Contents (Elt F) → (⟨S128, .f32⟩ : BufTy).Contents (Elt F) → (⟨S128, .f32⟩ : BufTy).Contents (Elt F)),
    unary main_v232 main_v233 (Host.rsqrt : (⟨S128, .f32⟩ : BufTy).Contents (Elt F) → (⟨S128, .f32⟩ : BufTy).Contents (Elt F)),
    unary main_v233 main_v234 (broadcastInDim S1x128 ![1] bcast_S128_S1x128_1 : (⟨S128, .f32⟩ : BufTy).Contents (Elt F) → (⟨S1x128, .f32⟩ : BufTy).Contents (Elt F)),
    unary main_v234 main_v235 (broadcastInDim S50000x128 ![0, 1] bcast_S1x128_S50000x128_0_1 : (⟨S1x128, .f32⟩ : BufTy).Contents (Elt F) → (⟨S50000x128, .f32⟩ : BufTy).Contents (Elt F)),
    binary main_v230 main_v235 main_v236 (mulf : (⟨S50000x128, .f32⟩ : BufTy).Contents (Elt F) → (⟨S50000x128, .f32⟩ : BufTy).Contents (Elt F) → (⟨S50000x128, .f32⟩ : BufTy).Contents (Elt F)),
    unary main_v215 main_v237 (broadcastInDim S1x128 ![1] bcast_S128_S1x128_1 : (⟨S128, .f32⟩ : BufTy).Contents (Elt F) → (⟨S1x128, .f32⟩ : BufTy).Contents (Elt F)),
    unary main_v237 main_v238 (broadcastInDim S50000x128 ![0, 1] bcast_S1x128_S50000x128_0_1 : (⟨S1x128, .f32⟩ : BufTy).Contents (Elt F) → (⟨S50000x128, .f32⟩ : BufTy).Contents (Elt F)),
    binary main_v236 main_v238 main_v239 (mulf : (⟨S50000x128, .f32⟩ : BufTy).Contents (Elt F) → (⟨S50000x128, .f32⟩ : BufTy).Contents (Elt F) → (⟨S50000x128, .f32⟩ : BufTy).Contents (Elt F)),
    unary main_v217 main_v240 (broadcastInDim S1x128 ![1] bcast_S128_S1x128_1 : (⟨S128, .f32⟩ : BufTy).Contents (Elt F) → (⟨S1x128, .f32⟩ : BufTy).Contents (Elt F)),
    unary main_v240 main_v241 (broadcastInDim S50000x128 ![0, 1] bcast_S1x128_S50000x128_0_1 : (⟨S1x128, .f32⟩ : BufTy).Contents (Elt F) → (⟨S50000x128, .f32⟩ : BufTy).Contents (Elt F)),
    binary main_v239 main_v241 main_v242 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v242) (TRef.of (T := ⟨S50000x128, .f32⟩) main_call3_v0) (TRef.of (T := ⟨S50000x128, .f32⟩) main_v243) maximumf,
    binary main_v243 main_v165 main_v244 (addf : (⟨S50000x128, .f32⟩ : BufTy).Contents (Elt F) → (⟨S50000x128, .f32⟩ : BufTy).Contents (Elt F) → (⟨S50000x128, .f32⟩ : BufTy).Contents (Elt F)) ]

/-- Piece 4: the output projection. -/
abbrev seg4 : List (HloOp τ sig (Elt F)) :=
  [ binary main_v244 main_arg8 main_v245 ((fun l r => Host.dotGeneral dot_S50000x128_S128x10_S50000x10_1_0_0_1_n_n none l r) : (⟨S50000x128, .f32⟩ : BufTy).Contents (Elt F) → (⟨S128x10, .f32⟩ : BufTy).Contents (Elt F) → (⟨S50000x10, .f32⟩ : BufTy).Contents (Elt F)),
    unary main_arg9 main_v246 (broadcastInDim S1x10 ![1] bcast_S10_S1x10_1 : (⟨S10, .f32⟩ : BufTy).Contents (Elt F) → (⟨S1x10, .f32⟩ : BufTy).Contents (Elt F)),
    unary main_v246 main_v247 (broadcastInDim S50000x10 ![0, 1] bcast_S1x10_S50000x10_0_1 : (⟨S1x10, .f32⟩ : BufTy).Contents (Elt F) → (⟨S50000x10, .f32⟩ : BufTy).Contents (Elt F)),
    binary main_v245 main_v247 main_v248 (addf : (⟨S50000x10, .f32⟩ : BufTy).Contents (Elt F) → (⟨S50000x10, .f32⟩ : BufTy).Contents (Elt F) → (⟨S50000x10, .f32⟩ : BufTy).Contents (Elt F)) ]

set_option maxRecDepth 65536 in
/-- The program's operations are the five pieces in order. -/
theorem ops_split : (ValueP.ops : List (HloOp τ sig (Elt F))) = seg0 ++ (seg1 ++ (seg2 ++ (seg3 ++ seg4))) := rfl

variable (m : (ℓ : Loc nD τ sig) → Buf (Elt F) ℓ) (c : Dev nD)

/-- Argument 0 as launched. -/
abbrev x0 := m ((c.tc : Thread nD τ).loc main_arg0)
/-- Argument 1 as launched. -/
abbrev x1 := m ((c.tc : Thread nD τ).loc main_arg1)
/-- Argument 2 as launched. -/
abbrev x2 := m ((c.tc : Thread nD τ).loc main_arg2)
/-- Argument 3 as launched. -/
abbrev x3 := m ((c.tc : Thread nD τ).loc main_arg3)
/-- Argument 4 as launched. -/
abbrev x4 := m ((c.tc : Thread nD τ).loc main_arg4)
/-- Argument 5 as launched. -/
abbrev x5 := m ((c.tc : Thread nD τ).loc main_arg5)
/-- Argument 6 as launched. -/
abbrev x6 := m ((c.tc : Thread nD τ).loc main_arg6)
/-- Argument 7 as launched. -/
abbrev x7 := m ((c.tc : Thread nD τ).loc main_arg7)
/-- Argument 8 as launched. -/
abbrev x8 := m ((c.tc : Thread nD τ).loc main_arg8)
/-- Argument 9 as launched. -/
abbrev x9 := m ((c.tc : Thread nD τ).loc main_arg9)

/-- The buffers after piece 0. -/
def R0 : Valuation τ sig (Elt F) := after seg0 (launchContents m c)
/-- The buffers after piece 1. -/
def R1 : Valuation τ sig (Elt F) := after seg1 (R0 m c)
/-- The buffers after piece 2. -/
def R2 : Valuation τ sig (Elt F) := after seg2 (R1 m c)
/-- The buffers after piece 3. -/
def R3 : Valuation τ sig (Elt F) := after seg3 (R2 m c)
/-- The buffers after piece 4. -/
def R4 : Valuation τ sig (Elt F) := after seg4 (R3 m c)

/-- The whole fold is the five pieces' folds in turn. -/
theorem after_ops : after ValueP.ops (launchContents m c) = R4 m c :=
  (show after ValueP.ops (launchContents m c)
      = after seg4 (after seg3 (after seg2 (after seg1 (after seg0 (launchContents m c))))) by
    rw [ops_split, after_append, after_append, after_append, after_append]).trans rfl

/-! ## After piece 0 -/

theorem r0_src : R0 m c (Proc.devRef .tc main_v1) = ReadP.val_main_v1 (F := F) (x1 m c) := by
  show after seg0 (launchContents m c) (Proc.devRef .tc main_v1) = _
  dsimp only [seg0]
  after_results_simp
  rfl

theorem r0_dst : R0 m c (Proc.devRef .tc main_v3) = ReadP.val_main_v3 (F := F) (x1 m c) := by
  show after seg0 (launchContents m c) (Proc.devRef .tc main_v3) = _
  dsimp only [seg0]
  after_results_simp
  rfl

set_option maxHeartbeats 8000000 in
theorem r0_h : R0 m c (Proc.devRef .tc main_v8) = ReadP.val_main_v8 (F := F) (x0 m c) (x2 m c) (x3 m c) := by
  show after seg0 (launchContents m c) (Proc.devRef .tc main_v8) = _
  dsimp only [seg0]
  after_results_simp
  rfl

theorem r0_arg4 : R0 m c (Proc.devRef .tc main_arg4) = x4 m c := by
  show after seg0 (launchContents m c) (Proc.devRef .tc main_arg4) = _
  dsimp only [seg0]
  after_results_simp

theorem r0_arg5 : R0 m c (Proc.devRef .tc main_arg5) = x5 m c := by
  show after seg0 (launchContents m c) (Proc.devRef .tc main_arg5) = _
  dsimp only [seg0]
  after_results_simp

theorem r0_arg6 : R0 m c (Proc.devRef .tc main_arg6) = x6 m c := by
  show after seg0 (launchContents m c) (Proc.devRef .tc main_arg6) = _
  dsimp only [seg0]
  after_results_simp

theorem r0_arg7 : R0 m c (Proc.devRef .tc main_arg7) = x7 m c := by
  show after seg0 (launchContents m c) (Proc.devRef .tc main_arg7) = _
  dsimp only [seg0]
  after_results_simp

theorem r0_arg8 : R0 m c (Proc.devRef .tc main_arg8) = x8 m c := by
  show after seg0 (launchContents m c) (Proc.devRef .tc main_arg8) = _
  dsimp only [seg0]
  after_results_simp

theorem r0_arg9 : R0 m c (Proc.devRef .tc main_arg9) = x9 m c := by
  show after seg0 (launchContents m c) (Proc.devRef .tc main_arg9) = _
  dsimp only [seg0]
  after_results_simp

/-! ## After piece 1 -/

set_option maxHeartbeats 8000000 in
theorem r1_h : R1 m c (Proc.devRef .tc main_v86) = ReadP.val_main_v86 (F := F) (x0 m c) (x1 m c) (x2 m c) (x3 m c) (x4 m c) (x5 m c) (x6 m c) (x7 m c) := by
  show after seg1 (R0 m c) (Proc.devRef .tc main_v86) = _
  dsimp only [seg1]
  after_results_simp
  rw [r0_h m c, r0_src m c, r0_dst m c, r0_arg4 m c, r0_arg5 m c, r0_arg6 m c, r0_arg7 m c]
  rfl

theorem r1_src : R1 m c (Proc.devRef .tc main_v1) = ReadP.val_main_v1 (F := F) (x1 m c) := by
  show after seg1 (R0 m c) (Proc.devRef .tc main_v1) = _
  dsimp only [seg1]
  after_results_simp
  exact r0_src m c

theorem r1_dst : R1 m c (Proc.devRef .tc main_v3) = ReadP.val_main_v3 (F := F) (x1 m c) := by
  show after seg1 (R0 m c) (Proc.devRef .tc main_v3) = _
  dsimp only [seg1]
  after_results_simp
  exact r0_dst m c

theorem r1_arg4 : R1 m c (Proc.devRef .tc main_arg4) = x4 m c := by
  show after seg1 (R0 m c) (Proc.devRef .tc main_arg4) = _
  dsimp only [seg1]
  after_results_simp
  exact r0_arg4 m c

theorem r1_arg5 : R1 m c (Proc.devRef .tc main_arg5) = x5 m c := by
  show after seg1 (R0 m c) (Proc.devRef .tc main_arg5) = _
  dsimp only [seg1]
  after_results_simp
  exact r0_arg5 m c

theorem r1_arg6 : R1 m c (Proc.devRef .tc main_arg6) = x6 m c := by
  show after seg1 (R0 m c) (Proc.devRef .tc main_arg6) = _
  dsimp only [seg1]
  after_results_simp
  exact r0_arg6 m c

theorem r1_arg7 : R1 m c (Proc.devRef .tc main_arg7) = x7 m c := by
  show after seg1 (R0 m c) (Proc.devRef .tc main_arg7) = _
  dsimp only [seg1]
  after_results_simp
  exact r0_arg7 m c

theorem r1_arg8 : R1 m c (Proc.devRef .tc main_arg8) = x8 m c := by
  show after seg1 (R0 m c) (Proc.devRef .tc main_arg8) = _
  dsimp only [seg1]
  after_results_simp
  exact r0_arg8 m c

theorem r1_arg9 : R1 m c (Proc.devRef .tc main_arg9) = x9 m c := by
  show after seg1 (R0 m c) (Proc.devRef .tc main_arg9) = _
  dsimp only [seg1]
  after_results_simp
  exact r0_arg9 m c

/-! ## After piece 2 -/

set_option maxHeartbeats 8000000 in
theorem r2_h : R2 m c (Proc.devRef .tc main_v165) = ReadP.val_main_v165 (F := F) (x0 m c) (x1 m c) (x2 m c) (x3 m c) (x4 m c) (x5 m c) (x6 m c) (x7 m c) := by
  show after seg2 (R1 m c) (Proc.devRef .tc main_v165) = _
  dsimp only [seg2]
  after_results_simp
  rw [r1_h m c, r1_src m c, r1_dst m c, r1_arg4 m c, r1_arg5 m c, r1_arg6 m c, r1_arg7 m c]
  rfl

theorem r2_src : R2 m c (Proc.devRef .tc main_v1) = ReadP.val_main_v1 (F := F) (x1 m c) := by
  show after seg2 (R1 m c) (Proc.devRef .tc main_v1) = _
  dsimp only [seg2]
  after_results_simp
  exact r1_src m c

theorem r2_dst : R2 m c (Proc.devRef .tc main_v3) = ReadP.val_main_v3 (F := F) (x1 m c) := by
  show after seg2 (R1 m c) (Proc.devRef .tc main_v3) = _
  dsimp only [seg2]
  after_results_simp
  exact r1_dst m c

theorem r2_arg4 : R2 m c (Proc.devRef .tc main_arg4) = x4 m c := by
  show after seg2 (R1 m c) (Proc.devRef .tc main_arg4) = _
  dsimp only [seg2]
  after_results_simp
  exact r1_arg4 m c

theorem r2_arg5 : R2 m c (Proc.devRef .tc main_arg5) = x5 m c := by
  show after seg2 (R1 m c) (Proc.devRef .tc main_arg5) = _
  dsimp only [seg2]
  after_results_simp
  exact r1_arg5 m c

theorem r2_arg6 : R2 m c (Proc.devRef .tc main_arg6) = x6 m c := by
  show after seg2 (R1 m c) (Proc.devRef .tc main_arg6) = _
  dsimp only [seg2]
  after_results_simp
  exact r1_arg6 m c

theorem r2_arg7 : R2 m c (Proc.devRef .tc main_arg7) = x7 m c := by
  show after seg2 (R1 m c) (Proc.devRef .tc main_arg7) = _
  dsimp only [seg2]
  after_results_simp
  exact r1_arg7 m c

theorem r2_arg8 : R2 m c (Proc.devRef .tc main_arg8) = x8 m c := by
  show after seg2 (R1 m c) (Proc.devRef .tc main_arg8) = _
  dsimp only [seg2]
  after_results_simp
  exact r1_arg8 m c

theorem r2_arg9 : R2 m c (Proc.devRef .tc main_arg9) = x9 m c := by
  show after seg2 (R1 m c) (Proc.devRef .tc main_arg9) = _
  dsimp only [seg2]
  after_results_simp
  exact r1_arg9 m c

/-! ## After piece 3 -/

set_option maxHeartbeats 8000000 in
theorem r3_h : R3 m c (Proc.devRef .tc main_v244) = ReadP.val_main_v244 (F := F) (x0 m c) (x1 m c) (x2 m c) (x3 m c) (x4 m c) (x5 m c) (x6 m c) (x7 m c) := by
  show after seg3 (R2 m c) (Proc.devRef .tc main_v244) = _
  dsimp only [seg3]
  after_results_simp
  rw [r2_h m c, r2_src m c, r2_dst m c, r2_arg4 m c, r2_arg5 m c, r2_arg6 m c, r2_arg7 m c]
  rfl

theorem r3_src : R3 m c (Proc.devRef .tc main_v1) = ReadP.val_main_v1 (F := F) (x1 m c) := by
  show after seg3 (R2 m c) (Proc.devRef .tc main_v1) = _
  dsimp only [seg3]
  after_results_simp
  exact r2_src m c

theorem r3_dst : R3 m c (Proc.devRef .tc main_v3) = ReadP.val_main_v3 (F := F) (x1 m c) := by
  show after seg3 (R2 m c) (Proc.devRef .tc main_v3) = _
  dsimp only [seg3]
  after_results_simp
  exact r2_dst m c

theorem r3_arg4 : R3 m c (Proc.devRef .tc main_arg4) = x4 m c := by
  show after seg3 (R2 m c) (Proc.devRef .tc main_arg4) = _
  dsimp only [seg3]
  after_results_simp
  exact r2_arg4 m c

theorem r3_arg5 : R3 m c (Proc.devRef .tc main_arg5) = x5 m c := by
  show after seg3 (R2 m c) (Proc.devRef .tc main_arg5) = _
  dsimp only [seg3]
  after_results_simp
  exact r2_arg5 m c

theorem r3_arg6 : R3 m c (Proc.devRef .tc main_arg6) = x6 m c := by
  show after seg3 (R2 m c) (Proc.devRef .tc main_arg6) = _
  dsimp only [seg3]
  after_results_simp
  exact r2_arg6 m c

theorem r3_arg7 : R3 m c (Proc.devRef .tc main_arg7) = x7 m c := by
  show after seg3 (R2 m c) (Proc.devRef .tc main_arg7) = _
  dsimp only [seg3]
  after_results_simp
  exact r2_arg7 m c

theorem r3_arg8 : R3 m c (Proc.devRef .tc main_arg8) = x8 m c := by
  show after seg3 (R2 m c) (Proc.devRef .tc main_arg8) = _
  dsimp only [seg3]
  after_results_simp
  exact r2_arg8 m c

theorem r3_arg9 : R3 m c (Proc.devRef .tc main_arg9) = x9 m c := by
  show after seg3 (R2 m c) (Proc.devRef .tc main_arg9) = _
  dsimp only [seg3]
  after_results_simp
  exact r2_arg9 m c

/-! ## After piece 4: the result -/

set_option maxHeartbeats 8000000 in
theorem r4_out : R4 m c (Proc.devRef .tc main_v248) = ReadP.val_main_v248 (F := F) (x0 m c) (x1 m c) (x2 m c) (x3 m c) (x4 m c) (x5 m c) (x6 m c) (x7 m c) (x8 m c) (x9 m c) := by
  show after seg4 (R3 m c) (Proc.devRef .tc main_v248) = _
  dsimp only [seg4]
  after_results_simp
  rw [r3_h m c, r3_arg8 m c, r3_arg9 m c]
  rfl

/-- The run's fold at the result buffer is the last stage function of the arguments. -/
theorem result : after ValueP.ops (launchContents m c) (Proc.devRef .tc main_v248) = ReadP.val_main_v248 (F := F) (x0 m c) (x1 m c) (x2 m c) (x3 m c) (x4 m c) (x5 m c) (x6 m c) (x7 m c) (x8 m c) (x9 m c) := by
  rw [after_ops]; exact r4_out m c

end Cert.ReferenceIdeal.RefChain

end
-- ==== Proof.RefValue.lean ====
import proofs.«139786_j89704686944683_1_alg».proof.Proof.RefReadP
import proofs.«139786_j89704686944683_1_alg».proof.Proof.Spec
import Idealize.ShloMosaic.Lib.Pipeline.Value
import Idealize.ShloMosaic.Lib.ValueIdx
import Idealize.ShloMosaic.PureOps.Ideal.Laws

/-
  The reference program's result is the specification's network.

  The reference is a plain host program; each of its stages is a function of the arguments, defined through the stages
  before it. Stage by stage it is the specification's: the graph stages (degrees, inverse square roots, edge weights,
  the weighted neighbourhood sum, the column statistics) are the same host operations applied in the same order, so
  those equations hold by unfolding; the dense stages (the products, the combine stage, the batch normalisation with
  its rectifier and residual) are read at an index, where a vector laid out as a row or a column by a broadcast (the
  reference) or by a shape cast (the specification) reads the same entry.
-/

noncomputable section

open scoped BigOperators
open Idealize.ShloMosaic Idealize.ShloMosaic.ValueIdx

namespace Cert.ReferenceIdeal.RefValue

open Cert.ReferenceIdeal Cert.ReferenceIdeal.Gen Cert.ReferenceIdeal.ReadP

/-- A float array of shape `S` on the extended reals. -/
abbrev V (S : Shape) := FVec Ideal S .f32

/-! ## Rows and columns read at an index

The reference forms a row `[1, n]` from a vector by a broadcast and the specification by a shape cast; read at an
index both are the vector's entry at the column. Likewise a column `[n, 1]`. -/

/-- A 128-vector broadcast to a row and then down the 50000 rows reads its entry at the column. -/
theorem bcRow (v : V S128) (i : S50000x128.Idx) :
    broadcastInDim S50000x128 ![0, 1] bcast_S1x128_S50000x128_0_1
      (broadcastInDim S1x128 ![1] bcast_S128_S1x128_1 v) i = v (ix1 (n := 128) (i 1)) := by
  refine (broadcastInDim_apply _ bcast_S1x128_S50000x128_0_1 _ i (ix2 (n0 := 1) (n1 := 128) 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 v _ (ix1 (n := 128) (i 1)) (fun a => match a with
    | ⟨0, _⟩ => by show (i 1).val = if (128 : Nat) = 1 then 0 else (i 1).val; rw [if_neg (by decide)])

/-- A 128-vector cast to a row reads its entry at the column. -/
theorem scRow (v : V S128) (h : S128.ShapeCasts S1x128) (j : Fin 128) :
    shapeCast S1x128 v h (ix2 (n0 := 1) (n1 := 128) 0 j) = v (ix1 (n := 128) j) :=
  shapeCast_apply v h _ (ix1 (n := 128) j) (by
    rewrite [Shape.rowMajor_val_two, Shape.rowMajor_val_one]
    show j.val = 0 * 128 + j.val; omega)

/-- The same at the column of an index of the [50000, 128] arrays. -/
theorem scRowAt (v : V S128) (h : S128.ShapeCasts S1x128) (i : S50000x128.Idx) :
    shapeCast S1x128 v h (ix2 (n0 := 1) (n1 := 128) 0 (i 1)) = v (ix1 (n := 128) (i 1)) := scRow v h (i 1)

/-- A 10-vector broadcast to a row and then down the 50000 rows reads its entry at the column. -/
theorem bcRow10 (v : V S10) (i : S50000x10.Idx) :
    broadcastInDim S50000x10 ![0, 1] bcast_S1x10_S50000x10_0_1
      (broadcastInDim S1x10 ![1] bcast_S10_S1x10_1 v) i = v (ix1 (n := 10) (i 1)) := by
  refine (broadcastInDim_apply _ bcast_S1x10_S50000x10_0_1 _ i (ix2 (n0 := 1) (n1 := 10) 0 (i 1)) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])).trans ?_
  exact broadcastInDim_apply _ bcast_S10_S1x10_1 v _ (ix1 (n := 10) (i 1)) (fun a => match a with
    | ⟨0, _⟩ => by show (i 1).val = if (10 : Nat) = 1 then 0 else (i 1).val; rw [if_neg (by decide)])

/-- A 10-vector cast to a row reads its entry at the column. -/
theorem scRow10 (v : V S10) (h : S10.ShapeCasts S1x10) (j : Fin 10) :
    shapeCast S1x10 v h (ix2 (n0 := 1) (n1 := 10) 0 j) = v (ix1 (n := 10) j) :=
  shapeCast_apply v h _ (ix1 (n := 10) j) (by
    rewrite [Shape.rowMajor_val_two, Shape.rowMajor_val_one]
    show j.val = 0 * 10 + j.val; omega)

/-- The same at the column of an index of the [50000, 10] arrays. -/
theorem scRow10At (v : V S10) (h : S10.ShapeCasts S1x10) (i : S50000x10.Idx) :
    shapeCast S1x10 v h (ix2 (n0 := 1) (n1 := 10) 0 (i 1)) = v (ix1 (n := 10) (i 1)) := scRow10 v h (i 1)

/-- A 50000-vector broadcast to a column and then along the 128 columns reads its entry at the row. -/
theorem bcCol (d : V S50000) (i : S50000x128.Idx) :
    broadcastInDim S50000x128 ![0, 1] bcast_S50000x1_S50000x128_0_1
      (broadcastInDim S50000x1 ![0] bcast_S50000_S50000x1_0 d) i = d (ix1 (n := 50000) (i 0)) := by
  refine (broadcastInDim_apply _ bcast_S50000x1_S50000x128_0_1 _ i (ix2 (n0 := 50000) (n1 := 1) (i 0) 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ bcast_S50000_S50000x1_0 d _ (ix1 (n := 50000) (i 0)) (fun a => match a with
    | ⟨0, _⟩ => by show (i 0).val = if (50000 : Nat) = 1 then 0 else (i 0).val; rw [if_neg (by decide)])

/-- A 50000-vector cast to a column reads its entry at the row. -/
theorem scCol (d : V S50000) (h : S50000.ShapeCasts S50000x1) (r : Fin 50000) :
    shapeCast S50000x1 d h (ix2 (n0 := 50000) (n1 := 1) r 0) = d (ix1 (n := 50000) r) :=
  shapeCast_apply d h _ (ix1 (n := 50000) r) (by
    rewrite [Shape.rowMajor_val_two, Shape.rowMajor_val_one]
    show r.val = r.val * 1 + 0; omega)

/-- The same at the row of an index of the [50000, 128] arrays. -/
theorem scColAt (d : V S50000) (h : S50000.ShapeCasts S50000x1) (i : S50000x128.Idx) :
    shapeCast S50000x1 d h (ix2 (n0 := 50000) (n1 := 1) (i 0) 0) = d (ix1 (n := 50000) (i 0)) := scCol d h (i 0)

/-! ## The host's products read at an index -/

/-- The input projection's product, entry by entry. -/
theorem dot256_apply (x : V S50000x256) (w : V S256x128) (i : S50000x128.Idx) :
    Host.dotGeneral (F := Ideal) dot_S50000x256_S256x128_S50000x128_1_0_0_1_n_n none x w i
      = ∑ k : Fin 256, x (ix2 (n0 := 50000) (n1 := 256) (i 0) k) * w (ix2 (n0 := 256) (n1 := 128) k (i 1)) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k)
      = ix2 (n0 := 50000) (n1 := 256) (i 0) k := funext fun a => Fin.ext (by
    match a with
    | ⟨0, _⟩ => exact lhs_main_v4_0 _ _
    | ⟨1, _⟩ => exact (lhs_main_v4_1 _ _).trans hk)
  have er : dot_S50000x256_S256x128_S50000x128_1_0_0_1_n_n.rhsIdx i ((ValueIdx.contrEquiv1 dot_S50000x256_S256x128_S50000x128_1_0_0_1_n_n 256 rfl rfl).symm k)
      = ix2 (n0 := 256) (n1 := 128) k (i 1) := funext fun a => Fin.ext (by
    match a with
    | ⟨0, _⟩ => exact (rhs_main_v4_0 _ _).trans hk
    | ⟨1, _⟩ => exact rhs_main_v4_1 _ _)
  rw [el, er]

/-- A layer's product, entry by entry: the host's product is the specification's dense map. -/
theorem dot128_eq (h : V S50000x128) (w : V S128x128) :
    Host.dotGeneral (F := Ideal) dot_S50000x128_S128x128_S50000x128_1_0_0_1_n_n none h w = Cert.Spec.dense h w := by
  funext i
  unfold Cert.Spec.dense
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k)
      = ix2 (n0 := 50000) (n1 := 128) (i 0) k := funext fun a => Fin.ext (by
    match a with
    | ⟨0, _⟩ => exact lhs_main_v13_0 _ _
    | ⟨1, _⟩ => exact (lhs_main_v13_1 _ _).trans hk)
  have er : dot_S50000x128_S128x128_S50000x128_1_0_0_1_n_n.rhsIdx i ((ValueIdx.contrEquiv1 dot_S50000x128_S128x128_S50000x128_1_0_0_1_n_n 128 rfl rfl).symm k)
      = ix2 (n0 := 128) (n1 := 128) k (i 1) := funext fun a => Fin.ext (by
    match a with
    | ⟨0, _⟩ => exact (rhs_main_v13_0 _ _).trans hk
    | ⟨1, _⟩ => exact rhs_main_v13_1 _ _)
  rw [el, er]

/-- The output projection's product, entry by entry. -/
theorem dot10_apply (h : V S50000x128) (w : V S128x10) (i : S50000x10.Idx) :
    Host.dotGeneral (F := Ideal) dot_S50000x128_S128x10_S50000x10_1_0_0_1_n_n none h w i
      = ∑ k : Fin 128, h (ix2 (n0 := 50000) (n1 := 128) (i 0) k) * w (ix2 (n0 := 128) (n1 := 10) k (i 1)) := by
  simp only [Host.dotGeneral]
  rw [Ideal.dotGeneral_apply, ← Equiv.sum_comp (ValueIdx.contrEquiv1 dot_S50000x128_S128x10_S50000x10_1_0_0_1_n_n 128 rfl rfl).symm]
  refine Finset.sum_congr rfl fun k _ => ?_
  have hk := ValueIdx.contrEquiv1_symm_val dot_S50000x128_S128x10_S50000x10_1_0_0_1_n_n 128 rfl rfl k
  have el : dot_S50000x128_S128x10_S50000x10_1_0_0_1_n_n.lhsIdx i ((ValueIdx.contrEquiv1 dot_S50000x128_S128x10_S50000x10_1_0_0_1_n_n 128 rfl rfl).symm k)
      = ix2 (n0 := 50000) (n1 := 128) (i 0) k := funext fun a => Fin.ext (by
    match a with
    | ⟨0, _⟩ => exact lhs_main_v245_0 _ _
    | ⟨1, _⟩ => exact (lhs_main_v245_1 _ _).trans hk)
  have er : dot_S50000x128_S128x10_S50000x10_1_0_0_1_n_n.rhsIdx i ((ValueIdx.contrEquiv1 dot_S50000x128_S128x10_S50000x10_1_0_0_1_n_n 128 rfl rfl).symm k)
      = ix2 (n0 := 128) (n1 := 10) k (i 1) := funext fun a => Fin.ext (by
    match a with
    | ⟨0, _⟩ => exact (rhs_main_v245_0 _ _).trans hk
    | ⟨1, _⟩ => exact rhs_main_v245_1 _ _)
  rw [el, er]

/-! ## The input projection -/

/-- The hidden state after the input projection and its rectifier. -/
theorem h0_eq (x0 : V S50000x256) (x2 : V S256x128) (x3 : V S128) :
    val_main_v8 (F := Ideal) x0 x2 x3 = Cert.Spec.h0 x0 x2 x3 := by
  funext i
  unfold val_main_v8 val_main_v7 val_main_v6 val_main_v5 val_main_v4 val_main_call0_v0 val_main_call0_cst
  show max (Host.dotGeneral (F := Ideal) dot_S50000x256_S256x128_S50000x128_1_0_0_1_n_n none x0 x2 i
      + broadcastInDim S50000x128 ![0, 1] bcast_S1x128_S50000x128_0_1 (broadcastInDim S1x128 ![1] bcast_S128_S1x128_1 x3) i)
      (Ideal.ofBits .f32 0x00000000#32) = _
  rw [dot256_apply, bcRow]
  unfold Cert.Spec.h0 Cert.Spec.reluLin Cert.Spec.row128
  rw [scRowAt]

/-! ## The graph stages

Degrees, the inverse square roots, the edge weights and the weighted neighbourhood sum are stated in the
specification through the very host operations the reference applies, in the same order: the two terms are one. The
reference recomputes the degree stages in every layer. -/

theorem src_eq (x1 : IVec S2x600000 32) : val_main_v1 (F := Ideal) x1 = Cert.Spec.src x1 := rfl
theorem dst_eq (x1 : IVec S2x600000 32) : val_main_v3 (F := Ideal) x1 = Cert.Spec.dst x1 := rfl

theorem dinvA_eq (x1 : IVec S2x600000 32) : val_main_v20 (F := Ideal) x1 = Cert.Spec.dinv x1 := rfl
theorem dinvB_eq (x1 : IVec S2x600000 32) : val_main_v98 (F := Ideal) x1 = Cert.Spec.dinv x1 := rfl
theorem dinvC_eq (x1 : IVec S2x600000 32) : val_main_v177 (F := Ideal) x1 = Cert.Spec.dinv x1 := rfl

theorem normA_eq (x1 : IVec S2x600000 32) : val_main_v35 (F := Ideal) x1 = Cert.Spec.norm x1 := rfl
theorem normB_eq (x1 : IVec S2x600000 32) : val_main_v113 (F := Ideal) x1 = Cert.Spec.norm x1 := rfl
theorem normC_eq (x1 : IVec S2x600000 32) : val_main_v192 (F := Ideal) x1 = Cert.Spec.norm x1 := rfl

/-! ## A layer, for every hidden state

The reference's layer is written once as a function of the stage before it; index by index it is the specification's
combine stage and batch normalisation. -/

/-- A 128-vector as the reference lays it over the node rows. -/
def rowsOf (v : V S128) : V S50000x128 :=
  broadcastInDim S50000x128 ![0, 1] bcast_S1x128_S50000x128_0_1 (broadcastInDim S1x128 ![1] bcast_S128_S1x128_1 v)

/-- A 50000-vector as the reference lays it over the feature columns. -/
def colsOf (d : V S50000) : V S50000x128 :=
  broadcastInDim S50000x128 ![0, 1] bcast_S50000x1_S50000x128_0_1 (broadcastInDim S50000x1 ![0] bcast_S50000_S50000x1_0 d)

theorem rowsOf_apply (v : V S128) (i : S50000x128.Idx) : rowsOf v i = v (ix1 (n := 128) (i 1)) := bcRow v i
theorem colsOf_apply (d : V S50000) (i : S50000x128.Idx) : colsOf d i = d (ix1 (n := 50000) (i 0)) := bcCol d i

/-- A row laid over the node rows reads its entry at the column. -/
theorem downRows (r : V S1x128) (h : S1x128.BroadcastsInDim S50000x128 (![0, 1] : Fin 2 → Fin S50000x128.rank)) (i : S50000x128.Idx) :
    broadcastInDim S50000x128 ![0, 1] h r i = r (ix2 (n0 := 1) (n1 := 128) 0 (i 1)) :=
  broadcastInDim_apply _ h r i (ix2 (n0 := 1) (n1 := 128) 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- Neighbourhood sum, self-loop term and bias, as the reference adds them. -/
def preTerm (a hl : V S50000x128) (d : V S50000) (b : V S128) : V S50000x128 :=
  addf (addf a (mulf hl (colsOf (mulf d d)))) (rowsOf b)

theorem preTerm_eq (a hl : V S50000x128) (d : V S50000) (b : V S128)
    (hd : S50000.ShapeCasts S50000x1) (hb : S128.ShapeCasts S1x128) :
    preTerm a hl d b = Cert.Spec.combine a hl (shapeCast S50000x1 (mulf d d) hd) (shapeCast S1x128 b hb) := by
  funext i
  show (a i + hl i * colsOf (mulf d d) i) + rowsOf b i = _
  rw [colsOf_apply, rowsOf_apply]
  unfold Cert.Spec.combine
  rw [scColAt, scRowAt]

/-- The column mean as a vector, as the reference computes it. -/
def meanVec (p : V S50000x128) : V S128 :=
  Host.divf (Host.reduceAdd (F := Ideal) p (constant (F := Ideal) S_ .f32 0x00000000#32) reducesTo_S50000x128_S128_d0 h_S_)
    (broadcastInDim S128 ![] bcast_S_S128 (constant (F := Ideal) S_ .f32 0x47435000#32))

theorem colMean_eq (p : V S50000x128) :
    Cert.Spec.colMean p = shapeCast S1x128 (meanVec p) Cert.KernelIdeal.Facts₀.shapeCasts_S128_S1x128 := rfl

/-- The deviation from the column mean: the reference's is the specification's. -/
theorem centred_eq (p : V S50000x128) : subf p (rowsOf (meanVec p)) = Cert.Spec.centred p := by
  funext i
  unfold Cert.Spec.centred
  show p i - rowsOf (meanVec p) i = p i - broadcastInDim _ _ _ (Cert.Spec.colMean p) i
  rw [rowsOf_apply, downRows, colMean_eq, scRowAt]

/-- Normalisation, scale, shift and rectifier from a mean and a variance vector. -/
theorem bn_eq (p : V S50000x128) (mu var g be : V S128) (h1 h2 h3 h4 : S128.ShapeCasts S1x128) :
    maximumf (addf (mulf (mulf (subf p (rowsOf mu))
        (rowsOf (Host.rsqrt (addf var (broadcastInDim S128 ![] bcast_S_S128 (constant (F := Ideal) S_ .f32 0x3727C5AC#32))))))
        (rowsOf g)) (rowsOf be))
      (broadcastInDim S50000x128 ![] bcast_S_S50000x128 (constant (F := Ideal) S_ .f32 0x00000000#32))
    = Cert.Spec.bnRelu p (shapeCast S1x128 mu h1) (shapeCast S1x128 var h2) (shapeCast S1x128 g h3) (shapeCast S1x128 be h4) := by
  funext i
  show max (((p i - rowsOf mu i)
      * rowsOf (Host.rsqrt (addf var (broadcastInDim S128 ![] bcast_S_S128 (constant (F := Ideal) S_ .f32 0x3727C5AC#32)))) i)
      * rowsOf g i + rowsOf be i) (Ideal.ofBits .f32 0x00000000#32) = _
  rw [rowsOf_apply, rowsOf_apply, rowsOf_apply, rowsOf_apply]
  unfold Cert.Spec.bnRelu Cert.Spec.normed
  rw [scRowAt, scRowAt, scRowAt, scRowAt]
  rfl

/-- The reference's batch normalisation and rectifier of a pre-normalisation value. -/
def bnTerm (p : V S50000x128) (g be : V S128) : V S50000x128 :=
  maximumf (addf (mulf (mulf (subf p (rowsOf (meanVec p)))
      (rowsOf (Host.rsqrt (addf (meanVec (mulf (subf p (rowsOf (meanVec p))) (subf p (rowsOf (meanVec p)))))
        (broadcastInDim S128 ![] bcast_S_S128 (constant (F := Ideal) S_ .f32 0x3727C5AC#32))))))
      (rowsOf g)) (rowsOf be))
    (broadcastInDim S50000x128 ![] bcast_S_S50000x128 (constant (F := Ideal) S_ .f32 0x00000000#32))

theorem bnTerm_eq (p : V S50000x128) (g be : V S128) (h3 h4 : S128.ShapeCasts S1x128) :
    bnTerm p g be = Cert.Spec.bnRelu p (Cert.Spec.colMean p) (Cert.Spec.colVar p) (shapeCast S1x128 g h3) (shapeCast S1x128 be h4) := by
  unfold bnTerm
  rw [bn_eq p _ _ g be Cert.KernelIdeal.Facts₀.shapeCasts_S128_S1x128 Cert.KernelIdeal.Facts₀.shapeCasts_S128_S1x128 h3 h4, centred_eq]
  rfl

theorem bnRes_eq (p : V S50000x128) (g be : V S128) (hres : V S50000x128) (h3 h4 : S128.ShapeCasts S1x128) :
    addf (bnTerm p g be) hres
      = Cert.Spec.bnReluRes p (Cert.Spec.colMean p) (Cert.Spec.colVar p) (shapeCast S1x128 g h3) (shapeCast S1x128 be h4) hres := by
  rw [bnTerm_eq p g be h3 h4]
  rfl

/-! ## The network -/

section Network
variable (x0 : V S50000x256) (x1 : IVec S2x600000 32) (x2 : V S256x128) (x3 : V S128) (x4 : V S3x128x128) (x5 x6 x7 : V S3x128)
  (x8 : V S128x10) (x9 : V S10)

theorem hwA_eq : val_main_v13 (F := Ideal) x0 x2 x3 x4 = Cert.Spec.dense (Cert.Spec.h0 x0 x2 x3) (Cert.Spec.matA x4) := by
  unfold val_main_v13
  rw [dot128_eq, h0_eq]
  rfl

theorem preA_eq : val_main_v56 (F := Ideal) x0 x1 x2 x3 x4 x5
    = Cert.Spec.pre (Cert.Spec.h0 x0 x2 x3) x1 (Cert.Spec.matA x4) (Cert.Spec.rowA x5) := by
  have e : val_main_v56 (F := Ideal) x0 x1 x2 x3 x4 x5
      = preTerm (Cert.Spec.agg (val_main_v13 (F := Ideal) x0 x2 x3 x4) x1) (val_main_v13 (F := Ideal) x0 x2 x3 x4)
          (Cert.Spec.dinv x1) (val_main_v12 (F := Ideal) x5) := rfl
  rw [e, preTerm_eq _ _ _ _ Cert.KernelIdeal.Facts₀.shapeCasts_S50000_S50000x1 Cert.KernelIdeal.Facts₀.shapeCasts_S128_S1x128, hwA_eq]
  rfl

theorem h1_eq : val_main_v86 (F := Ideal) x0 x1 x2 x3 x4 x5 x6 x7 = Cert.Spec.h1 x0 x1 x2 x3 x4 x5 x6 x7 := by
  have e : val_main_v86 (F := Ideal) x0 x1 x2 x3 x4 x5 x6 x7
      = bnTerm (val_main_v56 (F := Ideal) x0 x1 x2 x3 x4 x5) (val_main_v58 (F := Ideal) x6) (val_main_v60 (F := Ideal) x7) := rfl
  rw [e, bnTerm_eq _ _ _ Cert.KernelIdeal.Facts₀.shapeCasts_S128_S1x128 Cert.KernelIdeal.Facts₀.shapeCasts_S128_S1x128, preA_eq]
  rfl

theorem hwB_eq : val_main_v91 (F := Ideal) x0 x1 x2 x3 x4 x5 x6 x7
    = Cert.Spec.dense (Cert.Spec.h1 x0 x1 x2 x3 x4 x5 x6 x7) (Cert.Spec.matB x4) := by
  unfold val_main_v91
  rw [dot128_eq, h1_eq]
  rfl

theorem preB_eq : val_main_v134 (F := Ideal) x0 x1 x2 x3 x4 x5 x6 x7
    = Cert.Spec.pre (Cert.Spec.h1 x0 x1 x2 x3 x4 x5 x6 x7) x1 (Cert.Spec.matB x4) (Cert.Spec.rowB x5) := by
  have e : val_main_v134 (F := Ideal) x0 x1 x2 x3 x4 x5 x6 x7
      = preTerm (Cert.Spec.agg (val_main_v91 (F := Ideal) x0 x1 x2 x3 x4 x5 x6 x7) x1) (val_main_v91 (F := Ideal) x0 x1 x2 x3 x4 x5 x6 x7)
          (Cert.Spec.dinv x1) (val_main_v90 (F := Ideal) x5) := rfl
  rw [e, preTerm_eq _ _ _ _ Cert.KernelIdeal.Facts₀.shapeCasts_S50000_S50000x1 Cert.KernelIdeal.Facts₀.shapeCasts_S128_S1x128, hwB_eq]
  rfl

theorem h2_eq : val_main_v165 (F := Ideal) x0 x1 x2 x3 x4 x5 x6 x7 = Cert.Spec.h2 x0 x1 x2 x3 x4 x5 x6 x7 := by
  have e : val_main_v165 (F := Ideal) x0 x1 x2 x3 x4 x5 x6 x7
      = addf (bnTerm (val_main_v134 (F := Ideal) x0 x1 x2 x3 x4 x5 x6 x7) (val_main_v136 (F := Ideal) x6) (val_main_v138 (F := Ideal) x7))
          (val_main_v86 (F := Ideal) x0 x1 x2 x3 x4 x5 x6 x7) := rfl
  rw [e, bnRes_eq _ _ _ _ Cert.KernelIdeal.Facts₀.shapeCasts_S128_S1x128 Cert.KernelIdeal.Facts₀.shapeCasts_S128_S1x128, preB_eq, h1_eq]
  rfl

theorem hwC_eq : val_main_v170 (F := Ideal) x0 x1 x2 x3 x4 x5 x6 x7
    = Cert.Spec.dense (Cert.Spec.h2 x0 x1 x2 x3 x4 x5 x6 x7) (Cert.Spec.matC x4) := by
  unfold val_main_v170
  rw [dot128_eq, h2_eq]
  rfl

theorem preC_eq : val_main_v213 (F := Ideal) x0 x1 x2 x3 x4 x5 x6 x7
    = Cert.Spec.pre (Cert.Spec.h2 x0 x1 x2 x3 x4 x5 x6 x7) x1 (Cert.Spec.matC x4) (Cert.Spec.rowC x5) := by
  have e : val_main_v213 (F := Ideal) x0 x1 x2 x3 x4 x5 x6 x7
      = preTerm (Cert.Spec.agg (val_main_v170 (F := Ideal) x0 x1 x2 x3 x4 x5 x6 x7) x1) (val_main_v170 (F := Ideal) x0 x1 x2 x3 x4 x5 x6 x7)
          (Cert.Spec.dinv x1) (val_main_v169 (F := Ideal) x5) := rfl
  rw [e, preTerm_eq _ _ _ _ Cert.KernelIdeal.Facts₀.shapeCasts_S50000_S50000x1 Cert.KernelIdeal.Facts₀.shapeCasts_S128_S1x128, hwC_eq]
  rfl

theorem h3_eq : val_main_v244 (F := Ideal) x0 x1 x2 x3 x4 x5 x6 x7 = Cert.Spec.h3 x0 x1 x2 x3 x4 x5 x6 x7 := by
  have e : val_main_v244 (F := Ideal) x0 x1 x2 x3 x4 x5 x6 x7
      = addf (bnTerm (val_main_v213 (F := Ideal) x0 x1 x2 x3 x4 x5 x6 x7) (val_main_v215 (F := Ideal) x6) (val_main_v217 (F := Ideal) x7))
          (val_main_v165 (F := Ideal) x0 x1 x2 x3 x4 x5 x6 x7) := rfl
  rw [e, bnRes_eq _ _ _ _ Cert.KernelIdeal.Facts₀.shapeCasts_S128_S1x128 Cert.KernelIdeal.Facts₀.shapeCasts_S128_S1x128, preC_eq, h2_eq]
  rfl

/-- A 10-vector as the reference lays it over the node rows. -/
def rows10Of (v : V S10) : V S50000x10 :=
  broadcastInDim S50000x10 ![0, 1] bcast_S1x10_S50000x10_0_1 (broadcastInDim S1x10 ![1] bcast_S10_S1x10_1 v)

theorem rows10Of_apply (v : V S10) (i : S50000x10.Idx) : rows10Of v i = v (ix1 (n := 10) (i 1)) := bcRow10 v i

theorem out_eq : val_main_v248 (F := Ideal) x0 x1 x2 x3 x4 x5 x6 x7 x8 x9 = Cert.Spec.out x0 x1 x2 x3 x4 x5 x6 x7 x8 x9 := by
  funext i
  show Host.dotGeneral (F := Ideal) dot_S50000x128_S128x10_S50000x10_1_0_0_1_n_n none (val_main_v244 (F := Ideal) x0 x1 x2 x3 x4 x5 x6 x7) x8 i
      + rows10Of x9 i = _
  rw [dot10_apply, rows10Of_apply, h3_eq]
  unfold Cert.Spec.out Cert.Spec.outProj Cert.Spec.row10
  rw [scRow10At]

end Network

/-- The reference program's result is the specification's network. -/
theorem ref_out (x0 : Cert.Spec.F32 Cert.KernelIdeal.S50000x256) (x1 : Cert.Spec.I32 Cert.KernelIdeal.S2x600000)
    (x2 : Cert.Spec.F32 Cert.KernelIdeal.S256x128) (x3 : Cert.Spec.F32 Cert.KernelIdeal.S128)
    (x4 : Cert.Spec.F32 Cert.KernelIdeal.S3x128x128) (x5 x6 x7 : Cert.Spec.F32 Cert.KernelIdeal.S3x128)
    (x8 : Cert.Spec.F32 Cert.KernelIdeal.S128x10) (x9 : Cert.Spec.F32 Cert.KernelIdeal.S10) :
    Cert.ReferenceIdeal.ReadP.val_main_v248 (F := Ideal) x0 x1 x2 x3 x4 x5 x6 x7 x8 x9
      = Cert.Spec.out x0 x1 x2 x3 x4 x5 x6 x7 x8 x9 :=
  out_eq x0 x1 x2 x3 x4 x5 x6 x7 x8 x9

end Cert.ReferenceIdeal.RefValue

end
-- ==== Proof.lean ====
/-
  The certificate of a three-layer graph-convolution network on 50000 nodes and 600000 edges: the kernel program
  (an input projection with a rectifier; per layer a dense map, a symmetric-normalised neighbourhood sum, a combine
  step, a batch normalisation with rectifier and, from the second layer on, a residual; an output projection — the
  dense and pointwise steps as eleven row-tiled kernels, the graph-dependent steps and the column statistics as host
  operations between them) against the same network written with array operations only.

  On the extended reals both programs compute ONE function of the arguments, `Cert.Spec.out`:
  * the kernel side is read off the run boundary by boundary: each kernel's output array is its stage's function
    of its input arrays (a row tile of a product is the same sum over the contracted index; a pointwise tile is the
    pointwise formula; the tiles cover the rows), each host stretch is evaluated as written, and what a step does
    not write is carried along;
  * the reference side is its straight line of host operations, folded a layer at a time, each stage read at an
    index and identified with the same stage of `Cert.Spec` (a product as the sum over the contracted index, a row
    made by a broadcast or by a reshape the same row).
  No algebraic law beyond these is used, and the finiteness of the inputs is never needed. The rewriting pass
  changed no operation, so the idealized kernel is the kernel's own text read on the extended reals.
-/
import proofs.«139786_j89704686944683_1_alg».proof.Defs
import proofs.«139786_j89704686944683_1_alg».proof.Proof.Gen.Kernel
import proofs.«139786_j89704686944683_1_alg».proof.Proof.Gen.Kernel.Frame
import proofs.«139786_j89704686944683_1_alg».proof.Proof.Gen.KernelIdeal
import proofs.«139786_j89704686944683_1_alg».proof.Proof.Gen.KernelIdeal.Frame
import proofs.«139786_j89704686944683_1_alg».proof.Proof.Gen.ReferenceIdeal
import proofs.«139786_j89704686944683_1_alg».proof.Proof.Gen.Pre_finite_inputs
import proofs.«139786_j89704686944683_1_alg».proof.Proof.KernelRun
import proofs.«139786_j89704686944683_1_alg».proof.Proof.KernelChain
import proofs.«139786_j89704686944683_1_alg».proof.Proof.RefChain
import proofs.«139786_j89704686944683_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The rewriting pass changed nothing, so there is nothing to preserve. -/
theorem preserves : Cert.preserves_Kernel_KernelIdeal := trivial

/-- From memories that agree on the arguments both idealized programs end with the network's output
    `Cert.Spec.out` of the arguments in their result buffers, the arguments unchanged. -/
theorem algebraic : Cert.algebraic_KernelIdeal_ReferenceIdeal := by
  intro m ρ m' ρ' _ hagree
  refine ⟨fun c => Cert.Spec.out (Cert.KernelIdeal.Chain.a0 m c) (Cert.KernelIdeal.Chain.a1 m c) (Cert.KernelIdeal.Chain.a2 m c) (Cert.KernelIdeal.Chain.a3 m c) (Cert.KernelIdeal.Chain.a4 m c) (Cert.KernelIdeal.Chain.a5 m c) (Cert.KernelIdeal.Chain.a6 m c) (Cert.KernelIdeal.Chain.a7 m c) (Cert.KernelIdeal.Chain.a8 m c) (Cert.KernelIdeal.Chain.a9 m c), ?_, ?_⟩
  · exact (θ_run Cert.KernelIdeal.defs _ _).mono
      (fun _ h c => ⟨(h c).1.trans (Cert.KernelIdeal.Chain.result m ρ c), (h c).2⟩)
      (Cert.KernelIdeal.RunV.run_main (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9⟩ := hagree c
    refine (Cert.ReferenceIdeal.RefChain.result m' c).trans ?_
    show Cert.ReferenceIdeal.ReadP.val_main_v248 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [e0, e1, e2, e3, e4, e5, e6, e7, e8, e9]
    exact Cert.ReferenceIdeal.RefValue.ref_out _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
